-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg28 : FVec F S128x1 .f32) (main_arg29 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x1 .f32 := Host.absf main_arg28
  let main_cst_48 : FVec F S_ .f32 := constant S_ .f32 0x7F800000#32
  let main_v125 : FVec F S128x1 .f32 := broadcastInDim S128x1 ![] bcast_S_S128x1 main_cst_48
  let main_v126 : IVec S128x1 1 := cmpf .olt main_v124 main_v125
  let main_c_49 : IVec S_ 1 := constantI S_ 1 1#1
  let main_v127 : IVec S_ 1 := (fun x v => Host.reduce IntOp.andi x v reducesTo_S128x1_S_d0_1 h_S_) main_v126 main_c_49
  let main_v128 : IVec S_ 1 := andi main_v123 main_v127
  let main_v129 : FVec F S1 .f32 := Host.absf main_arg29
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  main_v133

def fn_part6 {F : FTy → Type} [FloatOps F] (main_arg24 : FVec F S256x128 .f32) (main_arg25 : FVec F S128 .f32) (main_arg26 : FVec F S128x128 .f32) (main_arg27 : FVec F S128 .f32) (main_arg28 : FVec F S128x1 .f32) (main_arg29 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S256x128 .f32 := Host.absf main_arg24
  let main_cst_40 : FVec F S_ .f32 := constant S_ .f32 0x7F800000#32
  let main_v105 : FVec F S256x128 .f32 := broadcastInDim S256x128 ![] bcast_S_S256x128 main_cst_40
  let main_v106 : IVec S256x128 1 := cmpf .olt main_v104 main_v105
  let main_c_41 : IVec S_ 1 := constantI S_ 1 1#1
  let main_v107 : IVec S_ 1 := (fun x v => Host.reduce IntOp.andi x v reducesTo_S256x128_S_d0_1 h_S_) main_v106 main_c_41
  let main_v108 : IVec S_ 1 := andi main_v103 main_v107
  let main_v109 : FVec F S128 .f32 := Host.absf main_arg25
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg26
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg27
  fn_part7 (F := F) main_arg28 main_arg29 main_v118 main_v119

def fn_part5 {F : FTy → Type} [FloatOps F] (main_arg21 : FVec F S128 .f32) (main_arg22 : FVec F S128x128 .f32) (main_arg23 : FVec F S128 .f32) (main_arg24 : FVec F S256x128 .f32) (main_arg25 : FVec F S128 .f32) (main_arg26 : FVec F S128x128 .f32) (main_arg27 : FVec F S128 .f32) (main_arg28 : FVec F S128x1 .f32) (main_arg29 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg21
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg22
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg23
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg24 main_arg25 main_arg26 main_arg27 main_arg28 main_arg29 main_v98 main_v101 main_c_39

def fn_part4 {F : FTy → Type} [FloatOps F] (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S256x128 .f32) (main_arg25 : FVec F S128 .f32) (main_arg26 : FVec F S128x128 .f32) (main_arg27 : FVec F S128 .f32) (main_arg28 : FVec F S128x1 .f32) (main_arg29 : FVec F S1 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg18
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg19
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg20
  let main_cst_32 : FVec F S_ .f32 := constant S_ .f32 0x7F800000#32
  fn_part5 (F := F) main_arg21 main_arg22 main_arg23 main_arg24 main_arg25 main_arg26 main_arg27 main_arg28 main_arg29 main_v83 main_v84 main_cst_32

def fn_part3 {F : FTy → Type} [FloatOps F] (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S256x128 .f32) (main_arg25 : FVec F S128 .f32) (main_arg26 : FVec F S128x128 .f32) (main_arg27 : FVec F S128 .f32) (main_arg28 : FVec F S128x1 .f32) (main_arg29 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg16
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg17 main_arg18 main_arg19 main_arg20 main_arg21 main_arg22 main_arg23 main_arg24 main_arg25 main_arg26 main_arg27 main_arg28 main_arg29 main_v63 main_v67

def fn_part2 {F : FTy → Type} [FloatOps F] (main_arg10 : FVec F S128x128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S256x128 .f32) (main_arg25 : FVec F S128 .f32) (main_arg26 : FVec F S128x128 .f32) (main_arg27 : FVec F S128 .f32) (main_arg28 : FVec F S128x1 .f32) (main_arg29 : FVec F S1 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg12
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg7 : FVec F S128 .f32) (main_arg8 : FVec F S64x128 .f32) (main_arg9 : FVec F S128 .f32) (main_arg10 : FVec F S128x128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S256x128 .f32) (main_arg25 : FVec F S128 .f32) (main_arg26 : FVec F S128x128 .f32) (main_arg27 : FVec F S128 .f32) (main_arg28 : FVec F S128x1 .f32) (main_arg29 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg8
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S100000x64 .f32) (main_arg1 : IVec S2x1000000 32) (main_arg2 : IVec S2x1000000 32) (main_arg3 : IVec S100000 32) (main_arg4 : FVec F S64x128 .f32) (main_arg5 : FVec F S128 .f32) (main_arg6 : FVec F S128x128 .f32) (main_arg7 : FVec F S128 .f32) (main_arg8 : FVec F S64x128 .f32) (main_arg9 : FVec F S128 .f32) (main_arg10 : FVec F S128x128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x128 .f32) (main_arg21 : FVec F S128 .f32) (main_arg22 : FVec F S128x128 .f32) (main_arg23 : FVec F S128 .f32) (main_arg24 : FVec F S256x128 .f32) (main_arg25 : FVec F S128 .f32) (main_arg26 : FVec F S128x128 .f32) (main_arg27 : FVec F S128 .f32) (main_arg28 : FVec F S128x1 .f32) (main_arg29 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x128 : Shape := ⟨2, ![100000, 128]⟩
abbrev S5000x64 : Shape := ⟨2, ![5000, 64]⟩
abbrev S5000x128 : Shape := ⟨2, ![5000, 128]⟩
abbrev S1x128 : Shape := ⟨2, ![1, 128]⟩
abbrev S5000x256 : Shape := ⟨2, ![5000, 256]⟩
abbrev S1000000x128 : Shape := ⟨2, ![1000000, 128]⟩
abbrev S100000x1 : Shape := ⟨2, ![100000, 1]⟩
abbrev S5000x1 : Shape := ⟨2, ![5000, 1]⟩
abbrev S5000 : Shape := ⟨1, ![5000]⟩
abbrev S1x1 : Shape := ⟨2, ![1, 1]⟩

abbrev nBuf : Space → Nat
  | .hbm => 127
  | .vmem => 41
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S2x1000000, .i32⟩
  | .hbm, ⟨3, _⟩ => ⟨S100000, .i32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128x128, .f32⟩
  | .hbm, ⟨23, _⟩ => ⟨S128, .f32⟩
  | .hbm, ⟨24, _⟩ => ⟨S256x128, .f32⟩
  | .hbm, ⟨25, _⟩ => ⟨S128, .f32⟩
  | .hbm, ⟨26, _⟩ => ⟨S128x128, .f32⟩
  | .hbm, ⟨27, _⟩ => ⟨S128, .f32⟩
  | .hbm, ⟨28, _⟩ => ⟨S128x1, .f32⟩
  | .hbm, ⟨29, _⟩ => ⟨S1, .f32⟩
  | .hbm, ⟨30, _⟩ => ⟨S100000x64, .bf16⟩
  | .hbm, ⟨31, _⟩ => ⟨S1x1000000, .i32⟩
  | .hbm, ⟨32, _⟩ => ⟨S1000000, .i32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x64, .bf16⟩
  | .hbm, ⟨42, _⟩ => ⟨S1000000x64, .f32⟩
  | .hbm, ⟨43, _⟩ => ⟨S1x1000000, .i32⟩
  | .hbm, ⟨44, _⟩ => ⟨S1000000, .i32⟩
  | .hbm, ⟨45, _⟩ => ⟨S_, .f32⟩
  | .hbm, ⟨46, _⟩ => ⟨S100000x64, .f32⟩
  | .hbm, ⟨47, _⟩ => ⟨S1000000x1, .i32⟩
  | .hbm, ⟨48, _⟩ => ⟨S100000x64, .f32⟩
  | .hbm, ⟨49, _⟩ => ⟨S100000x64, .bf16⟩
  | .hbm, ⟨50, _⟩ => ⟨S1x1000000, .i32⟩
  | .hbm, ⟨51, _⟩ => ⟨S1000000, .i32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x64, .bf16⟩
  | .hbm, ⟨61, _⟩ => ⟨S1000000x64, .f32⟩
  | .hbm, ⟨62, _⟩ => ⟨S1x1000000, .i32⟩
  | .hbm, ⟨63, _⟩ => ⟨S1000000, .i32⟩
  | .hbm, ⟨64, _⟩ => ⟨S_, .f32⟩
  | .hbm, ⟨65, _⟩ => ⟨S100000x64, .f32⟩
  | .hbm, ⟨66, _⟩ => ⟨S1000000x1, .i32⟩
  | .hbm, ⟨67, _⟩ => ⟨S100000x64, .f32⟩
  | .hbm, ⟨68, _⟩ => ⟨S64x128, .bf16⟩
  | .hbm, ⟨69, _⟩ => ⟨S128x128, .bf16⟩
  | .hbm, ⟨70, _⟩ => ⟨S64x128, .bf16⟩
  | .hbm, ⟨71, _⟩ => ⟨S128x128, .bf16⟩
  | .hbm, ⟨72, _⟩ => ⟨S256x128, .bf16⟩
  | .hbm, ⟨73, _⟩ => ⟨S128x128, .bf16⟩
  | .hbm, ⟨74, _⟩ => ⟨S100000x128, .bf16⟩
  | .hbm, ⟨75, _⟩ => ⟨S1x1000000, .i32⟩
  | .hbm, ⟨76, _⟩ => ⟨S1000000, .i32⟩
  | .hbm, ⟨77, _⟩ => ⟨S_, .i32⟩
  | .hbm, ⟨78, _⟩ => ⟨S1000000, .i32⟩
  | .hbm, ⟨79, _⟩ => ⟨S1000000, .i1⟩
  | .hbm, ⟨80, _⟩ => ⟨S_, .i32⟩
  | .hbm, ⟨81, _⟩ => ⟨S1000000, .i32⟩
  | .hbm, ⟨82, _⟩ => ⟨S1000000, .i32⟩
  | .hbm, ⟨83, _⟩ => ⟨S1000000, .i32⟩
  | .hbm, ⟨84, _⟩ => ⟨S1000000x1, .i32⟩
  | .hbm, ⟨85, _⟩ => ⟨S1000000x128, .bf16⟩
  | .hbm, ⟨86, _⟩ => ⟨S1000000x128, .f32⟩
  | .hbm, ⟨87, _⟩ => ⟨S1x1000000, .i32⟩
  | .hbm, ⟨88, _⟩ => ⟨S1000000, .i32⟩
  | .hbm, ⟨89, _⟩ => ⟨S_, .f32⟩
  | .hbm, ⟨90, _⟩ => ⟨S100000x128, .f32⟩
  | .hbm, ⟨91, _⟩ => ⟨S1000000x1, .i32⟩
  | .hbm, ⟨92, _⟩ => ⟨S100000x128, .f32⟩
  | .hbm, ⟨93, _⟩ => ⟨S1x1000000, .i32⟩
  | .hbm, ⟨94, _⟩ => ⟨S1000000, .i32⟩
  | .hbm, ⟨95, _⟩ => ⟨S_, .i32⟩
  | .hbm, ⟨96, _⟩ => ⟨S1000000, .i32⟩
  | .hbm, ⟨97, _⟩ => ⟨S1000000, .i1⟩
  | .hbm, ⟨98, _⟩ => ⟨S_, .i32⟩
  | .hbm, ⟨99, _⟩ => ⟨S1000000, .i32⟩
  | .hbm, ⟨100, _⟩ => ⟨S1000000, .i32⟩
  | .hbm, ⟨101, _⟩ => ⟨S1000000, .i32⟩
  | .hbm, ⟨102, _⟩ => ⟨S1000000x1, .i32⟩
  | .hbm, ⟨103, _⟩ => ⟨S1000000x128, .bf16⟩
  | .hbm, ⟨104, _⟩ => ⟨S1000000x128, .f32⟩
  | .hbm, ⟨105, _⟩ => ⟨S1x1000000, .i32⟩
  | .hbm, ⟨106, _⟩ => ⟨S1000000, .i32⟩
  | .hbm, ⟨107, _⟩ => ⟨S_, .f32⟩
  | .hbm, ⟨108, _⟩ => ⟨S100000x128, .f32⟩
  | .hbm, ⟨109, _⟩ => ⟨S1000000x1, .i32⟩
  | .hbm, ⟨110, _⟩ => ⟨S100000x128, .f32⟩
  | .hbm, ⟨111, _⟩ => ⟨S128x128, .bf16⟩
  | .hbm, ⟨112, _⟩ => ⟨S128x128, .bf16⟩
  | .hbm, ⟨113, _⟩ => ⟨S128x128, .bf16⟩
  | .hbm, ⟨114, _⟩ => ⟨S128x128, .bf16⟩
  | .hbm, ⟨115, _⟩ => ⟨S256x128, .bf16⟩
  | .hbm, ⟨116, _⟩ => ⟨S128x128, .bf16⟩
  | .hbm, ⟨117, _⟩ => ⟨S1x128, .f32⟩
  | .hbm, ⟨118, _⟩ => ⟨S100000x1, .f32⟩
  | .hbm, ⟨119, _⟩ => ⟨S_, .f32⟩
  | .hbm, ⟨120, _⟩ => ⟨S128x1, .f32⟩
  | .hbm, ⟨121, _⟩ => ⟨S100000x1, .i32⟩
  | .hbm, ⟨122, _⟩ => ⟨S128x1, .f32⟩
  | .hbm, ⟨123, _⟩ => ⟨S1x1, .f32⟩
  | .hbm, ⟨124, _⟩ => ⟨S128x1, .f32⟩
  | .hbm, ⟨125, _⟩ => ⟨S128x1, .f32⟩
  | .hbm, ⟨126, _⟩ => ⟨S128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S64x128, .bf16⟩
  | .local _ .vmem, ⟨11, _⟩ => ⟨S128, .f32⟩
  | .local _ .vmem, ⟨12, _⟩ => ⟨S128x128, .bf16⟩
  | .local _ .vmem, ⟨13, _⟩ => ⟨S128, .f32⟩
  | .local _ .vmem, ⟨14, _⟩ => ⟨S256x128, .bf16⟩
  | .local _ .vmem, ⟨15, _⟩ => ⟨S128, .f32⟩
  | .local _ .vmem, ⟨16, _⟩ => ⟨S128x128, .bf16⟩
  | .local _ .vmem, ⟨17, _⟩ => ⟨S128, .f32⟩
  | .local _ .vmem, ⟨18, _⟩ => ⟨S5000x128, .bf16⟩
  | .local _ .vmem, ⟨19, _⟩ => ⟨S5000x128, .bf16⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .bf16⟩
  | .local _ .vmem, ⟨27, _⟩ => ⟨S128, .f32⟩
  | .local _ .vmem, ⟨28, _⟩ => ⟨S128x128, .bf16⟩
  | .local _ .vmem, ⟨29, _⟩ => ⟨S128, .f32⟩
  | .local _ .vmem, ⟨30, _⟩ => ⟨S128x128, .bf16⟩
  | .local _ .vmem, ⟨31, _⟩ => ⟨S128, .f32⟩
  | .local _ .vmem, ⟨32, _⟩ => ⟨S128x128, .bf16⟩
  | .local _ .vmem, ⟨33, _⟩ => ⟨S128, .f32⟩
  | .local _ .vmem, ⟨34, _⟩ => ⟨S256x128, .bf16⟩
  | .local _ .vmem, ⟨35, _⟩ => ⟨S128, .f32⟩
  | .local _ .vmem, ⟨36, _⟩ => ⟨S128x128, .bf16⟩
  | .local _ .vmem, ⟨37, _⟩ => ⟨S128, .f32⟩
  | .local _ .vmem, ⟨38, _⟩ => ⟨S1x128, .f32⟩
  | .local _ .vmem, ⟨39, _⟩ => ⟨S5000x1, .f32⟩
  | .local _ .vmem, ⟨40, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_c : Ref sig .tc := ⟨.hbm, 33, rfl⟩
abbrev main_v3 : Ref sig .tc := ⟨.hbm, 34, rfl⟩
abbrev main_v4 : Ref sig .tc := ⟨.hbm, 35, rfl⟩
abbrev main_c_0 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_c_1 : Ref sig .tc := ⟨.hbm, 52, rfl⟩
abbrev main_v19 : Ref sig .tc := ⟨.hbm, 53, rfl⟩
abbrev main_v20 : Ref sig .tc := ⟨.hbm, 54, rfl⟩
abbrev main_c_2 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_3 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_4 : Ref sig .tc := ⟨.hbm, 77, rfl⟩
abbrev main_v41 : Ref sig .tc := ⟨.hbm, 78, rfl⟩
abbrev main_v42 : Ref sig .tc := ⟨.hbm, 79, rfl⟩
abbrev main_c_5 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_6 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_c_7 : Ref sig .tc := ⟨.hbm, 95, rfl⟩
abbrev main_v56 : Ref sig .tc := ⟨.hbm, 96, rfl⟩
abbrev main_v57 : Ref sig .tc := ⟨.hbm, 97, rfl⟩
abbrev main_c_8 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_9 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_10 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg12_0 : Ref sig .tc := ⟨.vmem, 35, rfl⟩
abbrev cc1_stg13_0 : Ref sig .tc := ⟨.vmem, 36, rfl⟩
abbrev cc1_stg14_0 : Ref sig .tc := ⟨.vmem, 37, rfl⟩
abbrev cc1_stg15_0 : Ref sig .tc := ⟨.vmem, 38, rfl⟩
abbrev cc1_stg16_0 : Ref sig .tc := ⟨.vmem, 39, rfl⟩
abbrev cc1_stg16_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem12_0 : DmaSem sig := 35
abbrev cc1_sem13_0 : DmaSem sig := 36
abbrev cc1_sem14_0 : DmaSem sig := 37
abbrev cc1_sem15_0 : DmaSem sig := 38
abbrev cc1_sem16_0 : DmaSem sig := 39
abbrev cc1_sem16_1 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S5000x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x128 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128x128 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S5000x1 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  bitsLt_bf16_f32 : FTy.bits .bf16 < FTy.bits .f32
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128x1_S1x128 : S128x1.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  bcast_S_S128x1 : S_.BroadcastsInDim S128x1 (![] : Fin 0 → Fin S128x1.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x256_S256x128_S5000x128_1_0_0_1_n_n_wf : DotDims.WF S5000x256 S256x128 S5000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S128x1_S100000x1_S100000x1_1_0_0_1_wf : ScatterDims.WF S128x1 S100000x1 S100000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x128.size a ≤ S64x128.size a
  hwx0_7 : ∀ i : grid0.Coords, EltTy.bits .bf16 = 32 ∨ (Rect.block (s := S64x128) S64x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .bf16 = 32 ∨ (Rect.block (s := S256x128) S256x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .bf16 = 32 ∨ (Rect.block (s := S128x128) S128x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S5000x128.size a ≤ S100000x128.size a
  hwx0_15 : ∀ i : grid0.Coords, EltTy.bits .bf16 = 32 ∨ (Rect.block (s := S100000x128) S5000x128.size (cc0_transform_15 i) (hinb0_15 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .bf16 = 32 ∨ (Rect.block (s := S128x128) S128x128.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x128.size a ≤ S256x128.size a
  hwx1_11 : ∀ i : grid1.Coords, EltTy.bits .bf16 = 32 ∨ (Rect.block (s := S256x128) S256x128.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128x128.size a ≤ S128x128.size a
  hwx1_13 : ∀ i : grid1.Coords, EltTy.bits .bf16 = 32 ∨ (Rect.block (s := S128x128) S128x128.size (cc1_transform_13 i) (hinb1_13 i)).WholeWords (EltTy.packing .bf16)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S128.size a ≤ S128.size a
  hwx1_14 : ∀ i : grid1.Coords, EltTy.bits .f32 = 32 ∨ (Rect.block (s := S128) S128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x128.size a ≤ S1x128.size a
  hwx1_15 : ∀ i : grid1.Coords, EltTy.bits .f32 = 32 ∨ (Rect.block (s := S1x128) S1x128.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S5000x1.size a ≤ S100000x1.size a
  hwx1_16 : ∀ i : grid1.Coords, EltTy.bits .f32 = 32 ∨ (Rect.block (s := S100000x1) S5000x1.size (cc1_transform_16 i) (hinb1_16 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S64x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v36) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v37) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v38) S5000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v68) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v69) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg17) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v70) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg19) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v71) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg21) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v72) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg23) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v73) S256x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg25) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v74) S128x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg27) S128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v75) S1x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v76) S5000x1.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000x128 : Shape := ⟨2, ![100000, 128]⟩
abbrev S1x128 : Shape := ⟨2, ![1, 128]⟩
abbrev S100000x256 : Shape := ⟨2, ![100000, 256]⟩
abbrev S1000000x128 : Shape := ⟨2, ![1000000, 128]⟩
abbrev S100000x1 : Shape := ⟨2, ![100000, 1]⟩
abbrev S1x1 : Shape := ⟨2, ![1, 1]⟩

abbrev nBuf : Space → Nat
  | .hbm => 185
  | .vmem => 0
  | .smem => 0
  | _ => 0

abbrev hbmTy0_0 (i : Nat) : BufTy := match i % 128 with
  | 0 => ⟨S100000x64, .f32⟩
  | 1 => ⟨S2x1000000, .i32⟩
  | 2 => ⟨S2x1000000, .i32⟩
  | 3 => ⟨S100000, .i32⟩
  | 4 => ⟨S64x128, .f32⟩
  | 5 => ⟨S128, .f32⟩
  | 6 => ⟨S128x128, .f32⟩
  | 7 => ⟨S128, .f32⟩
  | 8 => ⟨S64x128, .f32⟩
  | 9 => ⟨S128, .f32⟩
  | 10 => ⟨S128x128, .f32⟩
  | 11 => ⟨S128, .f32⟩
  | 12 => ⟨S256x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128x128, .f32⟩
  | 23 => ⟨S128, .f32⟩
  | 24 => ⟨S256x128, .f32⟩
  | 25 => ⟨S128, .f32⟩
  | 26 => ⟨S128x128, .f32⟩
  | 27 => ⟨S128, .f32⟩
  | 28 => ⟨S128x1, .f32⟩
  | 29 => ⟨S1, .f32⟩
  | 30 => ⟨S1x1000000, .i32⟩
  | 31 => ⟨S1000000, .i32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x64, .f32⟩
  | 41 => ⟨S1x1000000, .i32⟩
  | 42 => ⟨S1000000, .i32⟩
  | 43 => ⟨S_, .f32⟩
  | 44 => ⟨S100000x64, .f32⟩
  | 45 => ⟨S1000000x1, .i32⟩
  | 46 => ⟨S100000x64, .f32⟩
  | 47 => ⟨S100000x64, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S1x1000000, .i32⟩
  | 60 => ⟨S1000000, .i32⟩
  | 61 => ⟨S_, .i32⟩
  | 62 => ⟨S1000000, .i32⟩
  | 63 => ⟨S1000000, .i1⟩
  | 64 => ⟨S_, .i32⟩
  | 65 => ⟨S1000000, .i32⟩
  | 66 => ⟨S1000000, .i32⟩
  | 67 => ⟨S1000000, .i32⟩
  | 68 => ⟨S1000000x1, .i32⟩
  | 69 => ⟨S1000000x64, .f32⟩
  | 70 => ⟨S1x1000000, .i32⟩
  | 71 => ⟨S1000000, .i32⟩
  | 72 => ⟨S_, .f32⟩
  | 73 => ⟨S100000x64, .f32⟩
  | 74 => ⟨S1000000x1, .i32⟩
  | 75 => ⟨S100000x64, .f32⟩
  | 76 => ⟨S100000x64, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S100000x256, .f32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S1x1000000, .i32⟩
  | 101 => ⟨S1000000, .i32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x128, .f32⟩
  | 111 => ⟨S1x1000000, .i32⟩
  | 112 => ⟨S1000000, .i32⟩
  | 113 => ⟨S_, .f32⟩
  | 114 => ⟨S100000x128, .f32⟩
  | 115 => ⟨S1000000x1, .i32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x64, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S1x1000000, .i32⟩
  | 5 => ⟨S1000000, .i32⟩
  | 6 => ⟨S_, .i32⟩
  | 7 => ⟨S1000000, .i32⟩
  | 8 => ⟨S1000000, .i1⟩
  | 9 => ⟨S_, .i32⟩
  | 10 => ⟨S1000000, .i32⟩
  | 11 => ⟨S1000000, .i32⟩
  | 12 => ⟨S1000000, .i32⟩
  | 13 => ⟨S1000000x1, .i32⟩
  | 14 => ⟨S1000000x128, .f32⟩
  | 15 => ⟨S1x1000000, .i32⟩
  | 16 => ⟨S1000000, .i32⟩
  | 17 => ⟨S_, .f32⟩
  | 18 => ⟨S100000x128, .f32⟩
  | 19 => ⟨S1000000x1, .i32⟩
  | 20 => ⟨S100000x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S_, .f32⟩
  | 34 => ⟨S100000x128, .f32⟩
  | 35 => ⟨S100000x128, .f32⟩
  | 36 => ⟨S100000x256, .f32⟩
  | 37 => ⟨S100000x128, .f32⟩
  | 38 => ⟨S1x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S128x128, .f32⟩
  | 50 => ⟨S100000x1, .i32⟩
  | 51 => ⟨S128x128, .f32⟩
  | 52 => ⟨S128x1, .f32⟩
  | 53 => ⟨S1x1, .f32⟩
  | 54 => ⟨S128x1, .f32⟩
  | 55 => ⟨S128x1, .f32⟩
  | 56 => ⟨S128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_c : Ref sig .tc := ⟨.hbm, 32, rfl⟩
abbrev main_v2 : Ref sig .tc := ⟨.hbm, 33, rfl⟩
abbrev main_v3 : Ref sig .tc := ⟨.hbm, 34, rfl⟩
abbrev main_c_0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_call0_cst : Ref sig .tc := ⟨.hbm, 52, rfl⟩
abbrev main_call0_v0 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c_1 : Ref sig .tc := ⟨.hbm, 61, rfl⟩
abbrev main_v26 : Ref sig .tc := ⟨.hbm, 62, rfl⟩
abbrev main_v27 : Ref sig .tc := ⟨.hbm, 63, rfl⟩
abbrev main_c_2 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_3 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call1_cst : Ref sig .tc := ⟨.hbm, 81, rfl⟩
abbrev main_call1_v0 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_call2_cst : Ref sig .tc := ⟨.hbm, 93, rfl⟩
abbrev main_call2_v0 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_c_4 : Ref sig .tc := ⟨.hbm, 102, rfl⟩
abbrev main_v60 : Ref sig .tc := ⟨.hbm, 103, rfl⟩
abbrev main_v61 : Ref sig .tc := ⟨.hbm, 104, rfl⟩
abbrev main_c_5 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_6 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_call3_cst : Ref sig .tc := ⟨.hbm, 122, rfl⟩
abbrev main_call3_v0 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_call4_cst : Ref sig .tc := ⟨.hbm, 129, rfl⟩
abbrev main_call4_v0 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_c_7 : Ref sig .tc := ⟨.hbm, 134, rfl⟩
abbrev main_v85 : Ref sig .tc := ⟨.hbm, 135, rfl⟩
abbrev main_v86 : Ref sig .tc := ⟨.hbm, 136, rfl⟩
abbrev main_c_8 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_9 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_call5_cst : Ref sig .tc := ⟨.hbm, 154, rfl⟩
abbrev main_call5_v0 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_call6_cst : Ref sig .tc := ⟨.hbm, 161, rfl⟩
abbrev main_call6_v0 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_call7_cst : Ref sig .tc := ⟨.hbm, 169, rfl⟩
abbrev main_call7_v0 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_10 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S_S128x128 : S_.BroadcastsInDim S128x128 (![] : Fin 0 → Fin S128x128.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  dot_S100000x256_S256x128_S100000x128_1_0_0_1_n_n_wf : DotDims.WF S100000x256 S256x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S128x128_S100000x1_S100000x128_1_0_0_1_wf : ScatterDims.WF S128x128 S100000x1 S100000x128 [1] [0] [0] 1
  dot_S128x128_S128x1_S128x1_1_0_0_1_n_n_wf : DotDims.WF S128x128 S128x1 S128x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf

class Facts : Prop extends Facts₀ where

variable [Facts]
-- ==== Proof.LibDenseEdges.lean ====
/-
  A dense matrix assembled from an edge list, applied to a column, against the edgewise sum.

  Edges e carry a weight a_e, a target r_e and a source c_e.  The dense matrix has entry
  (n, k) = ∑ of a_e over the edges with r_e = n and c_e = k  (parallel edges add up).  Applying it to a
  column t gives, at row n,  ∑_k L(n, k) · t_k.  The edgewise form aggregates at the target directly:
  ∑ of a_e · t_{c_e} over the edges with r_e = n.  The two agree because a product distributes over a finite
  sum — which on the extended reals needs every weight and every entry of the column to be a real number:
  with a weight +∞ beside a weight −∞ on parallel edges, or an infinite entry of t against weights that cancel,
  the two sides differ.  So the identity is stated for real-valued data, and the closure lemmas below are what
  carries "every entry is a real number" through sums, products, negation and maxima.
-/
import Idealize.ShloMosaic.PureOps.Ideal.Laws

noncomputable section

open scoped BigOperators

namespace Cert.DenseEdges

/-! ## Extended reals that are real numbers -/

/-- An extended real that is a real number (neither infinity). -/
def IsReal (x : EReal) : Prop := ∃ r : ℝ, x = (r : EReal)

theorem isReal_of_ne {x : EReal} (hb : x ≠ ⊥) (ht : x ≠ ⊤) : IsReal x :=
  ⟨x.toReal, (EReal.coe_toReal ht hb).symm⟩

theorem IsReal.ne_bot {x : EReal} (h : IsReal x) : x ≠ ⊥ := by
  obtain ⟨r, rfl⟩ := h; exact EReal.coe_ne_bot r

theorem IsReal.ne_top {x : EReal} (h : IsReal x) : x ≠ ⊤ := by
  obtain ⟨r, rfl⟩ := h; exact EReal.coe_ne_top r

theorem isReal_zero : IsReal 0 := ⟨0, EReal.coe_zero.symm⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.neg {x : EReal} (hx : IsReal x) : IsReal (-x) := by
  obtain ⟨r, rfl⟩ := hx; exact ⟨-r, (EReal.coe_neg r).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

/-- A finite sum of real numbers is a real number. -/
theorem isReal_sum {ι : Type*} (s : Finset ι) (f : ι → EReal) (h : ∀ i ∈ s, IsReal (f i)) :
    IsReal (∑ i ∈ s, f i) := by
  classical
  refine Finset.induction_on s (fun _ => ?_) (fun i s hi ih h => ?_) h
  · rw [Finset.sum_empty]; exact isReal_zero
  · rw [Finset.sum_insert hi]
    exact (h i (Finset.mem_insert_self i s)).add (ih fun j hj => h j (Finset.mem_insert_of_mem hj))

/-! ## The dense form against the edgewise form -/

/-- Over the reals: summing the dense matrix's row n against the column is summing, over the edges into n, the
    weight times the column's entry at the edge's source. -/
theorem real_dense_eq_edges {E N : Type*} [Fintype E] [Fintype N] [DecidableEq N]
    (r c : E → N) (a : E → ℝ) (t : N → ℝ) (n : N) :
    ∑ k, (∑ e ∈ Finset.univ.filter (fun e => r e = n ∧ c e = k), a e) * t k
      = ∑ e ∈ Finset.univ.filter (fun e => r e = n), a e * t (c e) := by
  simp only [Finset.sum_mul, Finset.sum_filter]
  rw [Finset.sum_comm]
  refine Finset.sum_congr rfl fun e _ => ?_
  by_cases h : r e = n
  · simp only [h, true_and, if_true, ite_mul, zero_mul]
    rw [Finset.sum_ite_eq Finset.univ (c e) (fun k => a e * t k)]
    simp
  · simp only [h, false_and, if_false, zero_mul, Finset.sum_const_zero]

/-- THE IDENTITY over the extended reals, for real-valued weights and a real-valued column: row n of the dense
    matrix (each entry the zero it was initialised with plus its parallel edges' weights) against the column
    equals the zero plus the edgewise sum at the target n. -/
theorem dense_eq_edges {E N : Type*} [Fintype E] [Fintype N] [DecidableEq N]
    (r c : E → N) (a : E → EReal) (t : N → EReal)
    (ha : ∀ e, IsReal (a e)) (ht : ∀ k, IsReal (t k)) (n : N) :
    ∑ k, ((0 : EReal) + ∑ e ∈ Finset.univ.filter (fun e => r e = n ∧ c e = k), a e) * t k
      = (0 : EReal) + ∑ e ∈ Finset.univ.filter (fun e => r e = n), a e * t (c e) := by
  choose a' ha' using ha
  choose t' ht' using ht
  simp only [ha', ht', zero_add, ← coe_sum, ← EReal.coe_mul]
  exact congrArg _ (real_dense_eq_edges r c a' t' n)

/-- The dense product's entries are real numbers when the weights and the column are. -/
theorem isReal_dense {E N : Type*} [Fintype E] [Fintype N] [DecidableEq N]
    (r c : E → N) (a : E → EReal) (t : N → EReal)
    (ha : ∀ e, IsReal (a e)) (ht : ∀ k, IsReal (t k)) (n : N) :
    IsReal (∑ k, ((0 : EReal) + ∑ e ∈ Finset.univ.filter (fun e => r e = n ∧ c e = k), a e) * t k) :=
  isReal_sum _ _ fun k _ => (isReal_zero.add (isReal_sum _ _ fun e _ => ha e)).mul (ht k)

end Cert.DenseEdges

end
-- ==== Proof.Finite.lean ====
import proofs.«158497_j67508295958860_2_alg».proof.Proof.Gen.Pre_finite_inputs
import proofs.«158497_j67508295958860_2_alg».proof.Proof.LibDenseEdges
import Idealize.ShloMosaic.Lib.ReduceAll
import Idealize.ShloMosaic.Lib.ValueIdx

/-!
# The finiteness precondition, decoded

The precondition tests every float argument entrywise by `|x| < +∞`, takes the conjunction over all entries of
each argument, and then the conjunction of the twenty-seven results. Here that single bit being 1 is turned
into what the proofs use: every entry of every float argument is a real number (neither an infinity nor junk).
-/

noncomputable section

namespace Cert.GinFinite

open Cert.Pre_finite_inputs Cert.DenseEdges Idealize.ShloMosaic

/-- The shape of rank 0 has exactly one index. -/
instance : Subsingleton S_.Idx := ⟨fun a b => funext fun d => d.elim0⟩

/-- An extended real whose absolute value `max x (-x)` is strictly below `+∞` (the word `0x7F800000`) is a
    real number: `⊤` and `⊥` both have absolute value `⊤`. -/
theorem isReal_of_abs_lt_top (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- If the conjunction, over all entries of an array `x` of any shape, of `|x| < +∞` is true, then every entry
    of `x` is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (h : Host.reduce IntOp.andi
          (cmpf .olt (Host.absf x) (broadcastInDim s ![] hb (constant S_ .f32 0x7F800000#32)))
          init hr hu ValueIdx.ix0 = 1#1) :
    ∀ i, IsReal (x i) := fun i =>
  isReal_of_abs_lt_top (x i) (Host.reduce_andi_all _ init hr hu ValueIdx.ix0 h i)

/-- A conjunction of two rank-0 bits that is 1 has both bits 1. -/
theorem and_split {a b : IVec S_ 1} (h : andi a b ValueIdx.ix0 = 1#1) :
    a ValueIdx.ix0 = 1#1 ∧ b ValueIdx.ix0 = 1#1 :=
  IntOp.andi_eq_one.1 h

/-- THE PRECONDITION, DECODED: if the finiteness test returns 1 then every entry of each of the twenty-seven
    float arguments is a real number. (The three integer arguments are not tested.) -/
theorem real_of_pre
    (a0 : FVec Ideal S100000x64 .f32) (a1 : IVec S2x1000000 32) (a2 : IVec S2x1000000 32)
    (a3 : IVec S100000 32) (a4 : FVec Ideal S64x128 .f32) (a5 : FVec Ideal S128 .f32)
    (a6 : FVec Ideal S128x128 .f32) (a7 : FVec Ideal S128 .f32) (a8 : FVec Ideal S64x128 .f32)
    (a9 : FVec Ideal S128 .f32) (a10 : FVec Ideal S128x128 .f32) (a11 : FVec Ideal S128 .f32)
    (a12 : FVec Ideal S256x128 .f32) (a13 : FVec Ideal S128 .f32) (a14 : FVec Ideal S128x128 .f32)
    (a15 : FVec Ideal S128 .f32) (a16 : FVec Ideal S128x128 .f32) (a17 : FVec Ideal S128 .f32)
    (a18 : FVec Ideal S128x128 .f32) (a19 : FVec Ideal S128 .f32) (a20 : FVec Ideal S128x128 .f32)
    (a21 : FVec Ideal S128 .f32) (a22 : FVec Ideal S128x128 .f32) (a23 : FVec Ideal S128 .f32)
    (a24 : FVec Ideal S256x128 .f32) (a25 : FVec Ideal S128 .f32) (a26 : FVec Ideal S128x128 .f32)
    (a27 : FVec Ideal S128 .f32) (a28 : FVec Ideal S128x1 .f32) (a29 : FVec Ideal S1 .f32)
    (h : fn (F := Ideal) a0 a1 a2 a3 a4 a5 a6 a7 a8 a9 a10 a11 a12 a13 a14 a15 a16 a17 a18 a19 a20 a21 a22 a23 a24 a25 a26 a27 a28 a29 = fun _ => 1#1) :
      (∀ i, IsReal (a0 i)) ∧ (∀ i, IsReal (a4 i)) ∧ (∀ i, IsReal (a5 i)) ∧
      (∀ i, IsReal (a6 i)) ∧ (∀ i, IsReal (a7 i)) ∧ (∀ i, IsReal (a8 i)) ∧
      (∀ i, IsReal (a9 i)) ∧ (∀ i, IsReal (a10 i)) ∧ (∀ i, IsReal (a11 i)) ∧
      (∀ i, IsReal (a12 i)) ∧ (∀ i, IsReal (a13 i)) ∧ (∀ i, IsReal (a14 i)) ∧
      (∀ i, IsReal (a15 i)) ∧ (∀ i, IsReal (a16 i)) ∧ (∀ i, IsReal (a17 i)) ∧
      (∀ i, IsReal (a18 i)) ∧ (∀ i, IsReal (a19 i)) ∧ (∀ i, IsReal (a20 i)) ∧
      (∀ i, IsReal (a21 i)) ∧ (∀ i, IsReal (a22 i)) ∧ (∀ i, IsReal (a23 i)) ∧
      (∀ i, IsReal (a24 i)) ∧ (∀ i, IsReal (a25 i)) ∧ (∀ i, IsReal (a26 i)) ∧
      (∀ i, IsReal (a27 i)) ∧ (∀ i, IsReal (a28 i)) ∧ (∀ i, IsReal (a29 i)) := by
  have h0 := congrFun h ValueIdx.ix0
  dsimp only [fn, fn_part1, fn_part2, fn_part3, fn_part4, fn_part5, fn_part6, fn_part7] at h0
  obtain ⟨h0, h29⟩ := and_split h0
  obtain ⟨h0, h28⟩ := and_split h0
  obtain ⟨h0, h27⟩ := and_split h0
  obtain ⟨h0, h26⟩ := and_split h0
  obtain ⟨h0, h25⟩ := and_split h0
  obtain ⟨h0, h24⟩ := and_split h0
  obtain ⟨h0, h23⟩ := and_split h0
  obtain ⟨h0, h22⟩ := and_split h0
  obtain ⟨h0, h21⟩ := and_split h0
  obtain ⟨h0, h20⟩ := and_split h0
  obtain ⟨h0, h19⟩ := and_split h0
  obtain ⟨h0, h18⟩ := and_split h0
  obtain ⟨h0, h17⟩ := and_split h0
  obtain ⟨h0, h16⟩ := and_split h0
  obtain ⟨h0, h15⟩ := and_split h0
  obtain ⟨h0, h14⟩ := and_split h0
  obtain ⟨h0, h13⟩ := and_split h0
  obtain ⟨h0, h12⟩ := and_split h0
  obtain ⟨h0, h11⟩ := and_split h0
  obtain ⟨h0, h10⟩ := and_split h0
  obtain ⟨h0, h9⟩ := and_split h0
  obtain ⟨h0, h8⟩ := and_split h0
  obtain ⟨h0, h7⟩ := and_split h0
  obtain ⟨h0, h6⟩ := and_split h0
  obtain ⟨h0, h5⟩ := and_split h0
  obtain ⟨h0, h4⟩ := and_split h0
  exact ⟨
    real_of_all _ _ _ _ _ h0, real_of_all _ _ _ _ _ h4, real_of_all _ _ _ _ _ h5,
    real_of_all _ _ _ _ _ h6, real_of_all _ _ _ _ _ h7, real_of_all _ _ _ _ _ h8,
    real_of_all _ _ _ _ _ h9, real_of_all _ _ _ _ _ h10, real_of_all _ _ _ _ _ h11,
    real_of_all _ _ _ _ _ h12, real_of_all _ _ _ _ _ h13, real_of_all _ _ _ _ _ h14,
    real_of_all _ _ _ _ _ h15, real_of_all _ _ _ _ _ h16, real_of_all _ _ _ _ _ h17,
    real_of_all _ _ _ _ _ h18, real_of_all _ _ _ _ _ h19, real_of_all _ _ _ _ _ h20,
    real_of_all _ _ _ _ _ h21, real_of_all _ _ _ _ _ h22, real_of_all _ _ _ _ _ h23,
    real_of_all _ _ _ _ _ h24, real_of_all _ _ _ _ _ h25, real_of_all _ _ _ _ _ h26,
    real_of_all _ _ _ _ _ h27, real_of_all _ _ _ _ _ h28, real_of_all _ _ _ _ _ h29⟩

end Cert.GinFinite
-- ==== Proof.Claims.lean ====
/-
  The easy conjuncts of the claim, each as a theorem of its own.

  Each of the three programs runs to the end and leaves its argument arrays as they were: for the two kernel
  programs this is the generated frame theorem; for the reference program it is the second half of what its
  generated run theorem concludes on every device. The bit-exact kernel program and its idealization are related
  by a statement that is trivially true. Finally, the precondition (the finiteness check of the argument arrays
  answers all ones on every device) makes every entry of every float argument array a real number.
-/
import proofs.«158497_j67508295958860_2_alg».proof.Defs
import proofs.«158497_j67508295958860_2_alg».proof.Proof.Gen.Kernel.Frame
import proofs.«158497_j67508295958860_2_alg».proof.Proof.Gen.KernelIdeal.Frame
import proofs.«158497_j67508295958860_2_alg».proof.Proof.Gen.ReferenceIdeal.Run
import proofs.«158497_j67508295958860_2_alg».proof.Proof.Gen.Pre_finite_inputs
import proofs.«158497_j67508295958860_2_alg».proof.Proof.Finite

noncomputable section

namespace Cert.GinClaims

open Idealize.ShloMosaic Idealize.SL.Sem

/-- The bit-exact kernel program terminates without fault and leaves its argument arrays unchanged. -/
theorem frame_k : Cert.frame_Kernel := fun m ρ _ => Cert.Kernel.Gen.frame m ρ

/-- The idealized kernel program terminates without fault and leaves its argument arrays unchanged. -/
theorem frame_ki : Cert.frame_KernelIdeal := fun m ρ _ => Cert.KernelIdeal.Gen.frame m ρ

/-- The idealized reference program terminates without fault and leaves its argument arrays unchanged: the
    second half, on every device, of what its run concludes. -/
theorem frame_ri : Cert.frame_ReferenceIdeal := fun m ρ _ =>
  (θ_run Cert.ReferenceIdeal.defs _ _).mono (fun _ h c => (h c).2) (Cert.ReferenceIdeal.Value.run (F := Ideal) m ρ)

/-- The relation claimed between the bit-exact kernel program and its idealization is the true proposition. -/
theorem preserves : Cert.preserves_Kernel_KernelIdeal := trivial

/-- Under the precondition, on every device, every entry of each of the 27 float argument arrays (the node
    features and the 26 weight arrays) is a real number. -/
theorem pre_reals (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.DenseEdges.IsReal ((m ((c.tc : Thread Cert.KernelIdeal.nD Cert.KernelIdeal.τ).loc Cert.KernelIdeal.main_arg0)) i))
      ∧ (∀ i, Cert.DenseEdges.IsReal ((m ((c.tc : Thread Cert.KernelIdeal.nD Cert.KernelIdeal.τ).loc Cert.KernelIdeal.main_arg4)) i))
      ∧ (∀ i, Cert.DenseEdges.IsReal ((m ((c.tc : Thread Cert.KernelIdeal.nD Cert.KernelIdeal.τ).loc Cert.KernelIdeal.main_arg5)) i))
      ∧ (∀ i, Cert.DenseEdges.IsReal ((m ((c.tc : Thread Cert.KernelIdeal.nD Cert.KernelIdeal.τ).loc Cert.KernelIdeal.main_arg6)) i))
      ∧ (∀ i, Cert.DenseEdges.IsReal ((m ((c.tc : Thread Cert.KernelIdeal.nD Cert.KernelIdeal.τ).loc Cert.KernelIdeal.main_arg7)) i))
      ∧ (∀ i, Cert.DenseEdges.IsReal ((m ((c.tc : Thread Cert.KernelIdeal.nD Cert.KernelIdeal.τ).loc Cert.KernelIdeal.main_arg8)) i))
      ∧ (∀ i, Cert.DenseEdges.IsReal ((m ((c.tc : Thread Cert.KernelIdeal.nD Cert.KernelIdeal.τ).loc Cert.KernelIdeal.main_arg9)) i))
      ∧ (∀ i, Cert.DenseEdges.IsReal ((m ((c.tc : Thread Cert.KernelIdeal.nD Cert.KernelIdeal.τ).loc Cert.KernelIdeal.main_arg10)) i))
      ∧ (∀ i, Cert.DenseEdges.IsReal ((m ((c.tc : Thread Cert.KernelIdeal.nD Cert.KernelIdeal.τ).loc Cert.KernelIdeal.main_arg11)) i))
      ∧ (∀ i, Cert.DenseEdges.IsReal ((m ((c.tc : Thread Cert.KernelIdeal.nD Cert.KernelIdeal.τ).loc Cert.KernelIdeal.main_arg12)) i))
      ∧ (∀ i, Cert.DenseEdges.IsReal ((m ((c.tc : Thread Cert.KernelIdeal.nD Cert.KernelIdeal.τ).loc Cert.KernelIdeal.main_arg13)) i))
      ∧ (∀ i, Cert.DenseEdges.IsReal ((m ((c.tc : Thread Cert.KernelIdeal.nD Cert.KernelIdeal.τ).loc Cert.KernelIdeal.main_arg14)) i))
      ∧ (∀ i, Cert.DenseEdges.IsReal ((m ((c.tc : Thread Cert.KernelIdeal.nD Cert.KernelIdeal.τ).loc Cert.KernelIdeal.main_arg15)) i))
      ∧ (∀ i, Cert.DenseEdges.IsReal ((m ((c.tc : Thread Cert.KernelIdeal.nD Cert.KernelIdeal.τ).loc Cert.KernelIdeal.main_arg16)) i))
      ∧ (∀ i, Cert.DenseEdges.IsReal ((m ((c.tc : Thread Cert.KernelIdeal.nD Cert.KernelIdeal.τ).loc Cert.KernelIdeal.main_arg17)) i))
      ∧ (∀ i, Cert.DenseEdges.IsReal ((m ((c.tc : Thread Cert.KernelIdeal.nD Cert.KernelIdeal.τ).loc Cert.KernelIdeal.main_arg18)) i))
      ∧ (∀ i, Cert.DenseEdges.IsReal ((m ((c.tc : Thread Cert.KernelIdeal.nD Cert.KernelIdeal.τ).loc Cert.KernelIdeal.main_arg19)) i))
      ∧ (∀ i, Cert.DenseEdges.IsReal ((m ((c.tc : Thread Cert.KernelIdeal.nD Cert.KernelIdeal.τ).loc Cert.KernelIdeal.main_arg20)) i))
      ∧ (∀ i, Cert.DenseEdges.IsReal ((m ((c.tc : Thread Cert.KernelIdeal.nD Cert.KernelIdeal.τ).loc Cert.KernelIdeal.main_arg21)) i))
      ∧ (∀ i, Cert.DenseEdges.IsReal ((m ((c.tc : Thread Cert.KernelIdeal.nD Cert.KernelIdeal.τ).loc Cert.KernelIdeal.main_arg22)) i))
      ∧ (∀ i, Cert.DenseEdges.IsReal ((m ((c.tc : Thread Cert.KernelIdeal.nD Cert.KernelIdeal.τ).loc Cert.KernelIdeal.main_arg23)) i))
      ∧ (∀ i, Cert.DenseEdges.IsReal ((m ((c.tc : Thread Cert.KernelIdeal.nD Cert.KernelIdeal.τ).loc Cert.KernelIdeal.main_arg24)) i))
      ∧ (∀ i, Cert.DenseEdges.IsReal ((m ((c.tc : Thread Cert.KernelIdeal.nD Cert.KernelIdeal.τ).loc Cert.KernelIdeal.main_arg25)) i))
      ∧ (∀ i, Cert.DenseEdges.IsReal ((m ((c.tc : Thread Cert.KernelIdeal.nD Cert.KernelIdeal.τ).loc Cert.KernelIdeal.main_arg26)) i))
      ∧ (∀ i, Cert.DenseEdges.IsReal ((m ((c.tc : Thread Cert.KernelIdeal.nD Cert.KernelIdeal.τ).loc Cert.KernelIdeal.main_arg27)) i))
      ∧ (∀ i, Cert.DenseEdges.IsReal ((m ((c.tc : Thread Cert.KernelIdeal.nD Cert.KernelIdeal.τ).loc Cert.KernelIdeal.main_arg28)) i))
      ∧ (∀ i, Cert.DenseEdges.IsReal ((m ((c.tc : Thread Cert.KernelIdeal.nD Cert.KernelIdeal.τ).loc Cert.KernelIdeal.main_arg29)) i)) :=
  Cert.GinFinite.real_of_pre _ _ _ _ _ _ _ _ _ _ _ _ _ _ _ _ _ _ _ _ _ _ _ _ _ _ _ _ _ _ (h c)

end Cert.GinClaims

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibRowExtras.lean ====
/-
  More row readings of two-dimensional arrays over the extended reals, beside LibRowLayers:
  entry-by-entry maps (a product, tanh, exp, on the device and on the host) read on a row; a vector given a
  unit leading axis, read as its one row; and three arrays set side by side along the columns, read on a row
  as a join of a join.
-/
import proofs.«158497_j67508295958860_2_alg».proof.Proof.LibRowLayers

noncomputable section

namespace Cert.RowLayers

open Idealize.ShloMosaic Idealize.ShloMosaic.ValueIdx

/-- A vector [n] as a function of its one coordinate. -/
def vec {α : Type} {n : ℕ} (x : (⟨1, ![n]⟩ : Shape).Idx → α) : Fin n → α := fun j => x (ix1 j)

section Maps
variable {a b : ℕ} {φ : FTy}

/-- A product of arrays, on a row. -/
theorem rowOf_mulf (x y : FVec Ideal ⟨2, ![a, b]⟩ φ) (p : Fin a) : rowOf (mulf x y) p = fun j => rowOf x p j * rowOf y p j := rfl

/-- The device's tanh, on a row. -/
theorem rowOf_tanh (x : FVec Ideal ⟨2, ![a, b]⟩ φ) (p : Fin a) : rowOf (tanh x) p = fun j => Ideal.tanh (rowOf x p j) := rfl

/-- The device's exp, on a row. -/
theorem rowOf_exp (x : FVec Ideal ⟨2, ![a, b]⟩ φ) (p : Fin a) : rowOf (exp x) p = fun j => Ideal.exp (rowOf x p j) := rfl

/-- The host's tanh, on a row: the same function. -/
theorem rowOf_hostTanh (x : FVec Ideal ⟨2, ![a, b]⟩ φ) (p : Fin a) : rowOf (Host.tanh x) p = fun j => Ideal.tanh (rowOf x p j) := rfl

/-- The host's exp, on a row: the same function. -/
theorem rowOf_hostExp (x : FVec Ideal ⟨2, ![a, b]⟩ φ) (p : Fin a) : rowOf (Host.exp x) p = fun j => Ideal.exp (rowOf x p j) := rfl

/-- A splat scalar, on a row. -/
theorem rowOf_broadcast (z : Ideal φ) (p : Fin a) : rowOf (broadcast (⟨2, ![a, b]⟩ : Shape) z) p = fun _ => z := rfl

/-- A rank-0 constant broadcast over the array, on a row. -/
theorem rowOf_broadcastInDim_const {s : Shape} (w : BitVec φ.bits) (dims : Fin s.rank → Fin 2)
    (h : s.BroadcastsInDim ⟨2, ![a, b]⟩ dims) (p : Fin a) :
    rowOf (broadcastInDim ⟨2, ![a, b]⟩ dims h (constant (F := Ideal) s φ w)) p = fun _ => Ideal.ofBits φ w := rfl

end Maps

/-- A vector [n] viewed as [1, n]: its one row is the vector. -/
theorem rowOf_shapeCast_lead {α : Type} {n : ℕ} (x : (⟨1, ![n]⟩ : Shape).Idx → α)
    (h : (⟨1, ![n]⟩ : Shape).ShapeCasts ⟨2, ![1, n]⟩) : rowOf (shapeCast ⟨2, ![1, n]⟩ x h) 0 = vec x :=
  funext fun j => shapeCast_a_1a_apply x h 0 j

/-- Three arrays concatenated along the columns: each row is the three rows side by side. -/
theorem rowOf_concat3_cols {α : Type} {a A B C E D : ℕ} (x : (⟨2, ![a, A]⟩ : Shape).Idx → α) (y : (⟨2, ![a, B]⟩ : Shape).Idx → α)
    (z : (⟨2, ![a, C]⟩ : Shape).Idx → α)
    (h : Shape.Concatenates [(⟨2, ![a, A]⟩ : Shape), ⟨2, ![a, B]⟩, ⟨2, ![a, C]⟩] ⟨2, ![a, D]⟩ 1) (hE : E = A + B) (hD : D = E + C) (p : Fin a) :
    rowOf (concatenate ⟨2, ![a, D]⟩ 1 [⟨⟨2, ![a, A]⟩, x⟩, ⟨⟨2, ![a, B]⟩, y⟩, ⟨⟨2, ![a, C]⟩, z⟩] h) p
      = join hD (join hE (rowOf x p) (rowOf y p)) (rowOf z p) := by
  funext k
  show concatenate ⟨2, ![a, D]⟩ 1 [⟨⟨2, ![a, A]⟩, x⟩, ⟨⟨2, ![a, B]⟩, y⟩, ⟨⟨2, ![a, C]⟩, z⟩] h (ix2 p k) = _
  unfold join
  by_cases hk : k.val < E
  · rw [dif_pos hk]
    by_cases hk' : k.val < A
    · rw [dif_pos hk']
      exact concatenate_apply_piece 1 [⟨⟨2, ![a, A]⟩, x⟩, ⟨⟨2, ![a, B]⟩, y⟩, ⟨⟨2, ![a, C]⟩, z⟩] h (ix2 p k) 0 (by show 0 < 3; omega) _ x rfl rfl 0 rfl (ix2 p ⟨k.val, hk'⟩)
        (fun ax hne => by
          match ax with
          | ⟨0, _⟩ => rfl
          | ⟨1, _⟩ => exact absurd rfl hne)
        (by show 0 + k.val = k.val; omega)
    · rw [dif_neg hk']
      exact concatenate_apply_piece 1 [⟨⟨2, ![a, A]⟩, x⟩, ⟨⟨2, ![a, B]⟩, y⟩, ⟨⟨2, ![a, C]⟩, z⟩] h (ix2 p k) 1 (by show 1 < 3; omega) _ y rfl rfl A rfl (ix2 p ⟨k.val - A, by omega⟩)
        (fun ax hne => by
          match ax with
          | ⟨0, _⟩ => rfl
          | ⟨1, _⟩ => exact absurd rfl hne)
        (by show A + (k.val - A) = k.val; omega)
  · rw [dif_neg hk]
    exact concatenate_apply_piece 1 [⟨⟨2, ![a, A]⟩, x⟩, ⟨⟨2, ![a, B]⟩, y⟩, ⟨⟨2, ![a, C]⟩, z⟩] h (ix2 p k) 2 (by show 2 < 3; omega) _ z rfl rfl E (by subst hE; rfl) (ix2 p ⟨k.val - E, by have := k.isLt; omega⟩)
      (fun ax hne => by
        match ax with
        | ⟨0, _⟩ => rfl
        | ⟨1, _⟩ => exact absurd rfl hne)
      (by show E + (k.val - E) = k.val; omega)

end Cert.RowLayers

end
-- ==== Proof.Spec.lean ====
/-
  The node-wise part of a two-branch graph isomorphism layer, on one row, over the extended reals.

  Every node's new feature row is a function of three rows of the same node: its own features x and the two
  neighbourhood sums a0, a1 (one per edge set). Each branch feeds x + a through a two-layer perceptron
  (dense, rectifier, dense); the two branch outputs (rectified once more in the second layer of the network) are set
  side by side and fed through a third perceptron. `mlp`, `layerRow` and `layerRowR` name these row functions;
  `head` is the scalar product of a row with a weight column. The second half shows that each of them sends rows
  of real numbers (no infinity) to rows of real numbers, given real weights.
-/
import proofs.«158497_j67508295958860_2_alg».proof.Proof.LibRowLayers
import proofs.«158497_j67508295958860_2_alg».proof.Proof.LibDenseEdges
import proofs.«158497_j67508295958860_2_alg».proof.Proof.LibRowExtras

noncomputable section

namespace Cert.Gin

open Idealize.ShloMosaic Idealize.ShloMosaic.ValueIdx Cert.RowLayers Cert.DenseEdges

/-- A `[K, J]` matrix of extended reals. -/
abbrev Mat (K J : ℕ) := (⟨2, ![K, J]⟩ : Shape).Idx → EReal

/-- The weights of one layer: two branch perceptrons `K → H → H` and the merging perceptron `C → H → H`. -/
structure LayerW (K H C : ℕ) where
  w1a : Mat K H
  b1a : Fin H → EReal
  w2a : Mat H H
  b2a : Fin H → EReal
  w1b : Mat K H
  b1b : Fin H → EReal
  w2b : Mat H H
  b2b : Fin H → EReal
  mw1 : Mat C H
  mb1 : Fin H → EReal
  mw2 : Mat H H
  mb2 : Fin H → EReal

/-- A layer's weights from its twelve arrays: the matrices as they are, each bias vector as a row. -/
def LayerW.ofArrays {K H C : ℕ} (w1a : Mat K H) (b1a : (⟨1, ![H]⟩ : Shape).Idx → EReal) (w2a : Mat H H)
    (b2a : (⟨1, ![H]⟩ : Shape).Idx → EReal) (w1b : Mat K H) (b1b : (⟨1, ![H]⟩ : Shape).Idx → EReal) (w2b : Mat H H)
    (b2b : (⟨1, ![H]⟩ : Shape).Idx → EReal) (mw1 : Mat C H) (mb1 : (⟨1, ![H]⟩ : Shape).Idx → EReal) (mw2 : Mat H H)
    (mb2 : (⟨1, ![H]⟩ : Shape).Idx → EReal) : LayerW K H C :=
  ⟨w1a, vec b1a, w2a, vec b2a, w1b, vec b1b, w2b, vec b2b, mw1, vec mb1, mw2, vec mb2⟩

/-- The rectifier's threshold in both programs: the extended real of the all-zero f32 word. -/
abbrev z0 : EReal := Ideal.ofBits .f32 0x00000000#32

/-- The joined row of two 128-wide branch outputs is 256 wide. -/
theorem h256 : 256 = 128 + 128 := rfl

/-- A two-layer perceptron on a row: dense, rectifier at `z`, dense. -/
def mlp {K H J : ℕ} (z : EReal) (w1 : Mat K H) (b1 : Fin H → EReal) (w2 : Mat H J) (b2 : Fin J → EReal)
    (h : Fin K → EReal) : Fin J → EReal :=
  dense (relu z (dense h w1 b1)) w2 b2

/-- The first layer on a node: both branches on `x + a`, joined, merged. -/
def layerRow {K H C : ℕ} (hC : C = H + H) (z : EReal) (W : LayerW K H C) (x a0 a1 : Fin K → EReal) : Fin H → EReal :=
  mlp z W.mw1 W.mb1 W.mw2 W.mb2
    (join hC (mlp z W.w1a W.b1a W.w2a W.b2a fun k => x k + a0 k) (mlp z W.w1b W.b1b W.w2b W.b2b fun k => x k + a1 k))

/-- The second layer on a node: as the first, each branch rectified before the join. -/
def layerRowR {K H C : ℕ} (hC : C = H + H) (z : EReal) (W : LayerW K H C) (x a0 a1 : Fin K → EReal) : Fin H → EReal :=
  mlp z W.mw1 W.mb1 W.mw2 W.mb2
    (join hC (relu z (mlp z W.w1a W.b1a W.w2a W.b2a fun k => x k + a0 k))
      (relu z (mlp z W.w1b W.b1b W.w2b W.b2b fun k => x k + a1 k)))

/-- The scalar head: the product of a row with the one column of an `[H, 1]` weight. -/
def head {H : ℕ} (w : Mat H 1) (h : Fin H → EReal) : EReal := ∑ k : Fin H, h k * w (ix2 k (0 : Fin 1))

/-! ## The layers on whole arrays: every node's row by the row function -/

/-- The first layer on all `N` nodes: entry `(n, q)` is the row function of node `n`'s three rows, at `q`. -/
def nodeLayer {N K H C : ℕ} (hC : C = H + H) (z : EReal) (W : LayerW K H C) (X A0 A1 : Mat N K) : Mat N H :=
  fun i => layerRow hC z W (rowOf X (i 0)) (rowOf A0 (i 0)) (rowOf A1 (i 0)) (i 1)

/-- The second layer on all `N` nodes. -/
def nodeLayerR {N K H C : ℕ} (hC : C = H + H) (z : EReal) (W : LayerW K H C) (X A0 A1 : Mat N K) : Mat N H :=
  fun i => layerRowR hC z W (rowOf X (i 0)) (rowOf A0 (i 0)) (rowOf A1 (i 0)) (i 1)

/-- The second layer followed by the scalar product with a weight ROW `[1, H]`, as a column `[N, 1]`. -/
def nodeScore {N K H C : ℕ} (hC : C = H + H) (z : EReal) (W : LayerW K H C) (lw : Mat 1 H) (X A0 A1 : Mat N K) : Mat N 1 :=
  fun i => ∑ k : Fin H, layerRowR hC z W (rowOf X (i 0)) (rowOf A0 (i 0)) (rowOf A1 (i 0)) k * lw (ix2 (0 : Fin 1) k)

/-! ## Real rows stay real -/

/-- Every entry of a row is a real number. -/
def RealRow {n : ℕ} (f : Fin n → EReal) : Prop := ∀ j, IsReal (f j)

/-- Every entry of a matrix is a real number. -/
def RealMat {K J : ℕ} (w : Mat K J) : Prop := ∀ i, IsReal (w i)

/-- Every weight of a layer is a real number. -/
structure LayerW.Real {K H C : ℕ} (W : LayerW K H C) : Prop where
  w1a : RealMat W.w1a
  b1a : RealRow W.b1a
  w2a : RealMat W.w2a
  b2a : RealRow W.b2a
  w1b : RealMat W.w1b
  b1b : RealRow W.b1b
  w2b : RealMat W.w2b
  b2b : RealRow W.b2b
  mw1 : RealMat W.mw1
  mb1 : RealRow W.mb1
  mw2 : RealMat W.mw2
  mb2 : RealRow W.mb2

theorem realRow_dense {K J : ℕ} {h : Fin K → EReal} {w : Mat K J} {b : Fin J → EReal}
    (hh : RealRow h) (hw : RealMat w) (hb : RealRow b) : RealRow (dense h w b) :=
  fun j => (isReal_sum _ _ fun k _ => (hh k).mul (hw _)).add (hb j)

theorem realRow_relu {J : ℕ} {z : EReal} {f : Fin J → EReal} (hz : IsReal z) (hf : RealRow f) : RealRow (relu z f) :=
  fun j => (hf j).max hz

theorem realRow_join {A B C : ℕ} (hC : C = A + B) {f : Fin A → EReal} {g : Fin B → EReal}
    (hf : RealRow f) (hg : RealRow g) : RealRow (join hC f g) := by
  intro k
  unfold join
  split
  · exact hf _
  · exact hg _

theorem realRow_add {K : ℕ} {x a : Fin K → EReal} (hx : RealRow x) (ha : RealRow a) : RealRow fun k => x k + a k :=
  fun k => (hx k).add (ha k)

theorem realRow_mlp {K H J : ℕ} {z : EReal} {w1 : Mat K H} {b1 : Fin H → EReal} {w2 : Mat H J} {b2 : Fin J → EReal}
    {h : Fin K → EReal} (hz : IsReal z) (hw1 : RealMat w1) (hb1 : RealRow b1) (hw2 : RealMat w2) (hb2 : RealRow b2)
    (hh : RealRow h) : RealRow (mlp z w1 b1 w2 b2 h) :=
  realRow_dense (realRow_relu hz (realRow_dense hh hw1 hb1)) hw2 hb2

theorem realRow_layerRow {K H C : ℕ} (hC : C = H + H) {z : EReal} {W : LayerW K H C} {x a0 a1 : Fin K → EReal}
    (hz : IsReal z) (hW : W.Real) (hx : RealRow x) (h0 : RealRow a0) (h1 : RealRow a1) :
    RealRow (layerRow hC z W x a0 a1) :=
  realRow_mlp hz hW.mw1 hW.mb1 hW.mw2 hW.mb2
    (realRow_join hC (realRow_mlp hz hW.w1a hW.b1a hW.w2a hW.b2a (realRow_add hx h0))
      (realRow_mlp hz hW.w1b hW.b1b hW.w2b hW.b2b (realRow_add hx h1)))

theorem realRow_layerRowR {K H C : ℕ} (hC : C = H + H) {z : EReal} {W : LayerW K H C} {x a0 a1 : Fin K → EReal}
    (hz : IsReal z) (hW : W.Real) (hx : RealRow x) (h0 : RealRow a0) (h1 : RealRow a1) :
    RealRow (layerRowR hC z W x a0 a1) :=
  realRow_mlp hz hW.mw1 hW.mb1 hW.mw2 hW.mb2
    (realRow_join hC (realRow_relu hz (realRow_mlp hz hW.w1a hW.b1a hW.w2a hW.b2a (realRow_add hx h0)))
      (realRow_relu hz (realRow_mlp hz hW.w1b hW.b1b hW.w2b hW.b2b (realRow_add hx h1))))

/-- The rectifier's threshold is the real number 0. -/
theorem isReal_z0 : IsReal z0 := by
  show IsReal (Ideal.ofBits .f32 0x00000000#32)
  rw [Ideal.ofBits_zero_f32]; exact isReal_zero

/-- Weights read off real arrays are real. -/
theorem LayerW.real_ofArrays {K H C : ℕ} {w1a : Mat K H} {b1a : (⟨1, ![H]⟩ : Shape).Idx → EReal} {w2a : Mat H H}
    {b2a : (⟨1, ![H]⟩ : Shape).Idx → EReal} {w1b : Mat K H} {b1b : (⟨1, ![H]⟩ : Shape).Idx → EReal} {w2b : Mat H H}
    {b2b : (⟨1, ![H]⟩ : Shape).Idx → EReal} {mw1 : Mat C H} {mb1 : (⟨1, ![H]⟩ : Shape).Idx → EReal} {mw2 : Mat H H}
    {mb2 : (⟨1, ![H]⟩ : Shape).Idx → EReal}
    (h1 : ∀ i, IsReal (w1a i)) (h2 : ∀ i, IsReal (b1a i)) (h3 : ∀ i, IsReal (w2a i)) (h4 : ∀ i, IsReal (b2a i))
    (h5 : ∀ i, IsReal (w1b i)) (h6 : ∀ i, IsReal (b1b i)) (h7 : ∀ i, IsReal (w2b i)) (h8 : ∀ i, IsReal (b2b i))
    (h9 : ∀ i, IsReal (mw1 i)) (h10 : ∀ i, IsReal (mb1 i)) (h11 : ∀ i, IsReal (mw2 i)) (h12 : ∀ i, IsReal (mb2 i)) :
    (LayerW.ofArrays w1a b1a w2a b2a w1b b1b w2b b2b mw1 mb1 mw2 mb2).Real :=
  ⟨h1, fun j => h2 _, h3, fun j => h4 _, h5, fun j => h6 _, h7, fun j => h8 _, h9, fun j => h10 _, h11, fun j => h12 _⟩

end Cert.Gin

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«158497_j67508295958860_2_alg».proof.Proof.LibRowLayers
import proofs.«158497_j67508295958860_2_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.KernelRows0.lean ====
/-
  The first kernel's body, read row by row over the extended reals.

  The body takes a [5000, 64] block of node features and the two blocks of neighbourhood sums, and computes for
  every row p: both branch perceptrons (dense, rectifier, dense) on the sums "features + aggregate", the two
  128-wide results side by side, and the merging perceptron on the 256-wide row. A change of float format does
  nothing to an extended real, a cast of a shape to itself is the identity, and a [128] bias vector viewed as
  one row and broadcast down the rows adds the same vector to every row; so row p of the block the body stores
  is the row function `layerRow` of rows p of the three input blocks.
-/
import proofs.«158497_j67508295958860_2_alg».proof.Proof.Gen.KernelIdeal.Skeleton
import proofs.«158497_j67508295958860_2_alg».proof.Proof.Spec
import proofs.«158497_j67508295958860_2_alg».proof.Proof.LibRowLayers
import proofs.«158497_j67508295958860_2_alg».proof.Proof.LibRowExtras
import proofs.«158497_j67508295958860_2_alg».proof.Proof.LibChebRows

noncomputable section

namespace Cert.GinKernel

open Cert.RowLayers Cert.Gin Cert.KernelIdeal Cert.KernelIdeal.Gen Idealize.ShloMosaic Idealize.ShloMosaic.ValueIdx

/-- The printed dimension numbers of the [5000, 64] × [64, 128] product say "rows times columns". -/
theorem rtc_64_128 : RowsTimesCols (a := 5000) (K := 64) (b := 128) dot_S5000x64_S64x128_S5000x128_1_0_0_1_n_n where
  rank := rfl
  size := rfl
  lhs0 := fun j q => by
    unfold DotDims.lhsIdx
    rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
    rfl
  lhs1 := fun j q => dot_S5000x64_S64x128_S5000x128_1_0_0_1_n_n.lhsIdx_val_of_single rfl j q
  rhs0 := fun j q => dot_S5000x64_S64x128_S5000x128_1_0_0_1_n_n.rhsIdx_val_of_single rfl j q
  rhs1 := fun j q => by
    unfold DotDims.rhsIdx
    rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
    rfl

/-- The printed dimension numbers of the [5000, 128] × [128, 128] product say "rows times columns". -/
theorem rtc_128_128 : RowsTimesCols (a := 5000) (K := 128) (b := 128) dot_S5000x128_S128x128_S5000x128_1_0_0_1_n_n where
  rank := rfl
  size := rfl
  lhs0 := fun j q => by
    unfold DotDims.lhsIdx
    rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
    rfl
  lhs1 := fun j q => dot_S5000x128_S128x128_S5000x128_1_0_0_1_n_n.lhsIdx_val_of_single rfl j q
  rhs0 := fun j q => dot_S5000x128_S128x128_S5000x128_1_0_0_1_n_n.rhsIdx_val_of_single rfl j q
  rhs1 := fun j q => by
    unfold DotDims.rhsIdx
    rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
    rfl

/-- The printed dimension numbers of the [5000, 256] × [256, 128] product say "rows times columns". -/
theorem rtc_256_128 : RowsTimesCols (a := 5000) (K := 256) (b := 128) dot_S5000x256_S256x128_S5000x128_1_0_0_1_n_n where
  rank := rfl
  size := rfl
  lhs0 := fun j q => by
    unfold DotDims.lhsIdx
    rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
    rfl
  lhs1 := fun j q => dot_S5000x256_S256x128_S5000x128_1_0_0_1_n_n.lhsIdx_val_of_single rfl j q
  rhs0 := fun j q => dot_S5000x256_S256x128_S5000x128_1_0_0_1_n_n.rhsIdx_val_of_single rfl j q
  rhs1 := fun j q => by
    unfold DotDims.rhsIdx
    rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
    rfl

section DenseK
variable {a K b : ℕ} {d : DotDims ⟨2, ![a, K]⟩ ⟨2, ![K, b]⟩ ⟨2, ![a, b]⟩} {φ₁ φ₂ : FTy}

/-- The dense layer as the kernel prints it: the weight block cast to its own shape, the bias vector viewed as a
    one-row matrix and broadcast down the rows. Row p of the result is the dense layer of row p of the input. -/
theorem rowOf_denseK (H : RowsTimesCols d) (prec : Option ContractPrecision)
    (h : FVec Ideal ⟨2, ![a, K]⟩ φ₁) (w : FVec Ideal ⟨2, ![K, b]⟩ φ₂) (hw : (⟨2, ![K, b]⟩ : Shape).ShapeCasts ⟨2, ![K, b]⟩)
    (bias : FVec Ideal ⟨1, ![b]⟩ .f32) (hc : (⟨1, ![b]⟩ : Shape).ShapeCasts ⟨2, ![1, b]⟩)
    (hB : (⟨2, ![1, b]⟩ : Shape).Broadcasts ⟨2, ![a, b]⟩) (p : Fin a) :
    rowOf (addf (matmul d prec h (shapeCast ⟨2, ![K, b]⟩ w hw) (constant (F := Ideal) ⟨2, ![a, b]⟩ .f32 0x00000000#32))
        (broadcastTo ⟨2, ![a, b]⟩ (shapeCast ⟨2, ![1, b]⟩ bias hc) hB)) p
      = dense (rowOf h p) w (vec bias) := by
  rw [rowOf_dense_device H, shapeCast_self, rowOf_shapeCast_lead]

end DenseK

/-- Row p of the first branch (dense, rectifier, dense, on features + first aggregate): the two-layer perceptron
    of the row x0[p] + x1[p]. -/
theorem rows0_a (x0 x1 : Vec Ideal S5000x64 .f32) (x3 : Vec Ideal S64x128 .bf16) (x4 : Vec Ideal S128 .f32)
    (x5 : Vec Ideal S128x128 .bf16) (x6 : Vec Ideal S128 .f32) (p : Fin 5000) :
    rowOf (k0_pay2 (F := Ideal) x0 x1 x3 x4 x5 x6) p
      = mlp z0 x3 (vec x4) x5 (vec x6) (fun k => rowOf x0 p k + rowOf x1 p k) := by
  simp only [k0_pay2]
  rw [rowOf_denseK rtc_128_128, rowOf_truncf, rowOf_maximumf_splat, rowOf_denseK rtc_64_128, rowOf_truncf, rowOf_addf, shapeCast_self]
  rfl

/-- Row p of the first half of the second branch (dense, rectifier, on features + second aggregate). -/
theorem rows0_b (x0 x2 : Vec Ideal S5000x64 .f32) (x7 : Vec Ideal S64x128 .bf16) (x8 : Vec Ideal S128 .f32) (p : Fin 5000) :
    rowOf (k0_pay3 (F := Ideal) x0 x2 x7 x8) p
      = relu z0 (dense (fun k => rowOf x0 p k + rowOf x2 p k) x7 (vec x8)) := by
  simp only [k0_pay3]
  rw [rowOf_truncf, rowOf_maximumf_splat, rowOf_denseK rtc_64_128, rowOf_truncf, rowOf_addf, shapeCast_self]
  rfl

/-- Row p of the block the first kernel's body stores is the first layer's row function of rows p of the node
    block and of the two aggregate blocks, with the twelve weight blocks as the layer's weights. -/
theorem rows0 (x0 x1 x2 : Vec Ideal S5000x64 .f32) (x3 : Vec Ideal S64x128 .bf16) (x4 : Vec Ideal S128 .f32)
    (x5 : Vec Ideal S128x128 .bf16) (x6 : Vec Ideal S128 .f32) (x7 : Vec Ideal S64x128 .bf16) (x8 : Vec Ideal S128 .f32)
    (x9 : Vec Ideal S128x128 .bf16) (x10 : Vec Ideal S128 .f32) (x11 : Vec Ideal S256x128 .bf16) (x12 : Vec Ideal S128 .f32)
    (x13 : Vec Ideal S128x128 .bf16) (x14 : Vec Ideal S128 .f32) (p : Fin 5000) :
    rowOf (k0_pay1 (F := Ideal) (k0_pay2 x0 x1 x3 x4 x5 x6) (k0_pay3 x0 x2 x7 x8) x9 x10 x11 x12 x13 x14) p
      = layerRow h256 z0 (LayerW.ofArrays x3 x4 x5 x6 x7 x8 x9 x10 x11 x12 x13 x14) (rowOf x0 p) (rowOf x1 p) (rowOf x2 p) := by
  simp only [k0_pay1]
  rw [rowOf_truncf, rowOf_denseK rtc_128_128, rowOf_truncf, rowOf_maximumf_splat, rowOf_denseK rtc_256_128,
    rowOf_concat_cols _ _ _ h256, rowOf_truncf, rowOf_truncf, rowOf_denseK rtc_128_128, rows0_a, rows0_b]
  rfl

end Cert.GinKernel

end
-- ==== Proof.KernelRows1.lean ====
/-
  The second kernel's body, read row by row over the extended reals.

  The body takes a [5000, 128] block of node features (stored in the short format, widened on reading) and the two
  blocks of neighbourhood sums, and computes for every row p: both branch perceptrons on the sums
  "features + aggregate", each rectified once more, the two 128-wide results side by side, the merging perceptron
  on the 256-wide row, and finally the scalar product of the 128-wide result with one weight row: the block times
  the weight row broadcast down the rows, summed along the lanes, the [5000] sums re-laid as a [5000, 1] column.
  So entry (p, 0) of the column the body stores is the sum over k of the row function `layerRowR` of rows p of
  the three input blocks at k, times the weight row's entry k.
-/
import proofs.«158497_j67508295958860_2_alg».proof.Proof.Gen.KernelIdeal.Skeleton
import proofs.«158497_j67508295958860_2_alg».proof.Proof.Spec
import proofs.«158497_j67508295958860_2_alg».proof.Proof.LibRowLayers
import proofs.«158497_j67508295958860_2_alg».proof.Proof.LibRowExtras
import proofs.«158497_j67508295958860_2_alg».proof.Proof.LibChebRows
import proofs.«158497_j67508295958860_2_alg».proof.Proof.KernelRows0

noncomputable section

namespace Cert.GinKernel

open Cert.RowLayers Cert.Gin Cert.KernelIdeal Cert.KernelIdeal.Gen Idealize.ShloMosaic Idealize.ShloMosaic.ValueIdx

/-- Widening the stored node block to the long format changes no row. -/
theorem rows1_x (x0 : Vec Ideal S5000x128 .bf16) (p : Fin 5000) : rowOf (k1_pay2 (F := Ideal) x0) p = rowOf x0 p := by
  simp only [k1_pay2]
  rw [shapeCast_self]
  rfl

/-- Row p of the first branch (dense, rectifier, dense, rectifier, on features + first aggregate). -/
theorem rows1_a (x0 : Vec Ideal S5000x128 .bf16) (x1 : Vec Ideal S5000x128 .f32) (x3 : Vec Ideal S128x128 .bf16)
    (x4 : Vec Ideal S128 .f32) (x5 : Vec Ideal S128x128 .bf16) (x6 : Vec Ideal S128 .f32) (p : Fin 5000) :
    rowOf (k1_pay3 (F := Ideal) x0 x1 x3 x4 x5 x6) p
      = relu z0 (mlp z0 x3 (vec x4) x5 (vec x6) (fun k => rowOf x0 p k + rowOf x1 p k)) := by
  simp only [k1_pay3]
  rw [rowOf_maximumf_splat, rowOf_denseK rtc_128_128, rowOf_truncf, rowOf_maximumf_splat, rowOf_denseK rtc_128_128,
    rowOf_truncf, rowOf_addf, shapeCast_self, rows1_x]
  rfl

/-- Row p of the first dense layer of the second branch (on features + second aggregate). -/
theorem rows1_b (x0 : Vec Ideal S5000x128 .bf16) (x2 : Vec Ideal S5000x128 .f32) (x7 : Vec Ideal S128x128 .bf16)
    (x8 : Vec Ideal S128 .f32) (p : Fin 5000) :
    rowOf (k1_pay4 (F := Ideal) x0 x2 x7 x8) p = dense (fun k => rowOf x0 p k + rowOf x2 p k) x7 (vec x8) := by
  simp only [k1_pay4]
  rw [rowOf_denseK rtc_128_128, rowOf_truncf, rowOf_addf, shapeCast_self, rows1_x]

/-- Entry (p, 0) of the column the second kernel's body stores is the scalar product of the second layer's row
    function, of rows p of the node block and of the two aggregate blocks, with the head's weight row. -/
theorem rows1 (x0 : Vec Ideal S5000x128 .bf16) (x1 x2 : Vec Ideal S5000x128 .f32) (x3 : Vec Ideal S128x128 .bf16)
    (x4 : Vec Ideal S128 .f32) (x5 : Vec Ideal S128x128 .bf16) (x6 : Vec Ideal S128 .f32) (x7 : Vec Ideal S128x128 .bf16)
    (x8 : Vec Ideal S128 .f32) (x9 : Vec Ideal S128x128 .bf16) (x10 : Vec Ideal S128 .f32) (x11 : Vec Ideal S256x128 .bf16)
    (x12 : Vec Ideal S128 .f32) (x13 : Vec Ideal S128x128 .bf16) (x14 : Vec Ideal S128 .f32) (x15 : Vec Ideal S1x128 .f32)
    (p : Fin 5000) :
    k1_pay1 (F := Ideal) (k1_pay3 x0 x1 x3 x4 x5 x6) (k1_pay4 x0 x2 x7 x8) (k1_pay5 (F := Ideal)) x9 x10 x11 x12 x13 x14 x15
        (ix2 p (0 : Fin 1))
      = ∑ k : Fin 128, layerRowR h256 z0 (LayerW.ofArrays x3 x4 x5 x6 x7 x8 x9 x10 x11 x12 x13 x14)
          (rowOf x0 p) (rowOf x1 p) (rowOf x2 p) k * x15 (ix2 (0 : Fin 1) k) := by
  simp only [k1_pay1, k1_pay5]
  rw [Cert.ChebRows.shapeCast_a_a1_apply]
  refine (Cert.ChebRows.multiReduction_add_row _ _ _ _ _ p).trans ?_
  refine Finset.sum_congr rfl fun k _ => ?_
  change rowOf (mulf _ _) p k = _
  rw [rowOf_mulf, rowOf_denseK rtc_128_128, rowOf_truncf, rowOf_maximumf_splat, rowOf_denseK rtc_256_128,
    rowOf_concat_cols _ _ _ h256, rowOf_truncf, rowOf_truncf, rowOf_maximumf_splat, rowOf_denseK rtc_128_128, rowOf_truncf,
    rowOf_maximumf_splat, rows1_a, rows1_b, rowOf_broadcastTo, shapeCast_self]
  rfl

end Cert.GinKernel

end
-- ==== Proof.KernelBlocks1.lean ====
/-
  From blocks to the array, second kernel. As for the first kernel the grid has 20 points, point t handed rows
  5000 t … 5000 t + 4999 of the first layer's output and of its two neighbourhood sums, the twelve weight arrays and the
  head's weight row whole. On row p of the block the body's one stored entry is the second layer's row function of node
  5000 t + p multiplied entry by entry with the head's row and summed, so what point t writes back is block t of ONE
  column: every node's score; the 20 blocks tile the output column.
-/
import proofs.«158497_j67508295958860_2_alg».proof.Proof.Gen.KernelIdeal.Frame
import proofs.«158497_j67508295958860_2_alg».proof.Proof.Spec
import proofs.«158497_j67508295958860_2_alg».proof.Proof.LibRowLayers
import proofs.«158497_j67508295958860_2_alg».proof.Proof.KernelRows1
import Idealize.ShloMosaic.Lib.Pipeline.Value
import Idealize.ShloMosaic.Lib.ValueIdx

set_option maxRecDepth 16384

noncomputable section

namespace Cert.GinKernel

open Cert.KernelIdeal Cert.KernelIdeal.Gen Cert.RowLayers Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a; rfl

/-- Window 0 is tiled by nodes: its block at grid point `t` is rows `5000 t … 5000 t + 4999` of its array. -/
theorem idx1_0 : ∀ t : Fin cfg1.N, win1_0.index t (0 : Fin 2) = t.val ∧ win1_0.index t (1 : Fin 2) = 0 :=
  (by decide +kernel : ∀ t : Fin grid1.N, _)
theorem blk1_0 (c : Dev nD) (t : Fin cfg1.N) (p : Fin 5000) (hn : t.val * 5000 + p.val < 100000) (k : Fin 128) :
    iblk1 V c 0 t (ix2 p k) = V c main_v38 (ix2 (⟨t.val * 5000 + p.val, hn⟩ : Fin 100000) k) := by
  obtain ⟨f0, f1⟩ := idx1_0 t
  show V c main_v38 (((cfg1.win 0).blk t).view.emb (ix2 p k)) = _
  refine congrArg (V c main_v38) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Window 1 is tiled by nodes: its block at grid point `t` is rows `5000 t … 5000 t + 4999` of its array. -/
theorem idx1_1 : ∀ t : Fin cfg1.N, win1_1.index t (0 : Fin 2) = t.val ∧ win1_1.index t (1 : Fin 2) = 0 :=
  (by decide +kernel : ∀ t : Fin grid1.N, _)
theorem blk1_1 (c : Dev nD) (t : Fin cfg1.N) (p : Fin 5000) (hn : t.val * 5000 + p.val < 100000) (k : Fin 128) :
    iblk1 V c 1 t (ix2 p k) = V c main_v53 (ix2 (⟨t.val * 5000 + p.val, hn⟩ : Fin 100000) k) := by
  obtain ⟨f0, f1⟩ := idx1_1 t
  show V c main_v53 (((cfg1.win 1).blk t).view.emb (ix2 p k)) = _
  refine congrArg (V c main_v53) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- Window 2 is tiled by nodes: its block at grid point `t` is rows `5000 t … 5000 t + 4999` of its array. -/
theorem idx1_2 : ∀ t : Fin cfg1.N, win1_2.index t (0 : Fin 2) = t.val ∧ win1_2.index t (1 : Fin 2) = 0 :=
  (by decide +kernel : ∀ t : Fin grid1.N, _)
theorem blk1_2 (c : Dev nD) (t : Fin cfg1.N) (p : Fin 5000) (hn : t.val * 5000 + p.val < 100000) (k : Fin 128) :
    iblk1 V c 2 t (ix2 p k) = V c main_v68 (ix2 (⟨t.val * 5000 + p.val, hn⟩ : Fin 100000) k) := by
  obtain ⟨f0, f1⟩ := idx1_2 t
  show V c main_v68 (((cfg1.win 2).blk t).view.emb (ix2 p k)) = _
  refine congrArg (V c main_v68) (funext fun a => Fin.ext ?_)
  match a with
  | ⟨0, _⟩ => show win1_2.index t (0 : Fin 2) * 5000 + 1 * p.val = t.val * 5000 + p.val; omega
  | ⟨1, _⟩ => show win1_2.index t (1 : Fin 2) * 128 + 1 * k.val = k.val; omega

/-- Window 3's block is its whole array at every grid point. -/
theorem idx1_3 : ∀ t : Fin cfg1.N, win1_3.index t (0 : Fin 2) = 0 ∧ win1_3.index t (1 : Fin 2) = 0 :=
  (by decide +kernel : ∀ t : Fin grid1.N, _)
theorem blk1_3 (c : Dev nD) (t : Fin cfg1.N) : (iblk1 V c 3 t : S128x128.Idx → EReal) = V c main_v69 := funext fun y => by
  obtain ⟨f0, f1⟩ := idx1_3 t
  show V c main_v69 (((cfg1.win 3).blk t).view.emb y) = V c main_v69 y
  refine congrArg (V c main_v69) (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4's block is its whole array at every grid point. -/
theorem idx1_4 : ∀ t : Fin cfg1.N, win1_4.index t (0 : Fin 1) = 0 :=
  (by decide +kernel : ∀ t : Fin grid1.N, _)
theorem blk1_4 (c : Dev nD) (t : Fin cfg1.N) : (iblk1 V c 4 t : S128.Idx → EReal) = V c main_arg17 := funext fun y => by
  have f0 := idx1_4 t
  show V c main_arg17 (((cfg1.win 4).blk t).view.emb y) = V c main_arg17 y
  refine congrArg (V c main_arg17) (funext fun a => Fin.ext ?_)
  match a with
  | ⟨0, _⟩ => show win1_4.index t (0 : Fin 1) * 128 + 1 * (y 0).val = (y 0).val; omega

/-- Window 5's block is its whole array at every grid point. -/
theorem idx1_5 : ∀ t : Fin cfg1.N, win1_5.index t (0 : Fin 2) = 0 ∧ win1_5.index t (1 : Fin 2) = 0 :=
  (by decide +kernel : ∀ t : Fin grid1.N, _)
theorem blk1_5 (c : Dev nD) (t : Fin cfg1.N) : (iblk1 V c 5 t : S128x128.Idx → EReal) = V c main_v70 := funext fun y => by
  obtain ⟨f0, f1⟩ := idx1_5 t
  show V c main_v70 (((cfg1.win 5).blk t).view.emb y) = V c main_v70 y
  refine congrArg (V c main_v70) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Window 6's block is its whole array at every grid point. -/
theorem idx1_6 : ∀ t : Fin cfg1.N, win1_6.index t (0 : Fin 1) = 0 :=
  (by decide +kernel : ∀ t : Fin grid1.N, _)
theorem blk1_6 (c : Dev nD) (t : Fin cfg1.N) : (iblk1 V c 6 t : S128.Idx → EReal) = V c main_arg19 := funext fun y => by
  have f0 := idx1_6 t
  show V c main_arg19 (((cfg1.win 6).blk t).view.emb y) = V c main_arg19 y
  refine congrArg (V c main_arg19) (funext fun a => Fin.ext ?_)
  match a with
  | ⟨0, _⟩ => show win1_6.index t (0 : Fin 1) * 128 + 1 * (y 0).val = (y 0).val; omega

/-- Window 7's block is its whole array at every grid point. -/
theorem idx1_7 : ∀ t : Fin cfg1.N, win1_7.index t (0 : Fin 2) = 0 ∧ win1_7.index t (1 : Fin 2) = 0 :=
  (by decide +kernel : ∀ t : Fin grid1.N, _)
theorem blk1_7 (c : Dev nD) (t : Fin cfg1.N) : (iblk1 V c 7 t : S128x128.Idx → EReal) = V c main_v71 := funext fun y => by
  obtain ⟨f0, f1⟩ := idx1_7 t
  show V c main_v71 (((cfg1.win 7).blk t).view.emb y) = V c main_v71 y
  refine congrArg (V c main_v71) (funext fun a => Fin.ext ?_)
  match a with
  | ⟨0, _⟩ => show win1_7.index t (0 : Fin 2) * 128 + 1 * (y 0).val = (y 0).val; omega
  | ⟨1, _⟩ => show win1_7.index t (1 : Fin 2) * 128 + 1 * (y 1).val = (y 1).val; omega

/-- Window 8's block is its whole array at every grid point. -/
theorem idx1_8 : ∀ t : Fin cfg1.N, win1_8.index t (0 : Fin 1) = 0 :=
  (by decide +kernel : ∀ t : Fin grid1.N, _)
theorem blk1_8 (c : Dev nD) (t : Fin cfg1.N) : (iblk1 V c 8 t : S128.Idx → EReal) = V c main_arg21 := funext fun y => by
  have f0 := idx1_8 t
  show V c main_arg21 (((cfg1.win 8).blk t).view.emb y) = V c main_arg21 y
  refine congrArg (V c main_arg21) (funext fun a => Fin.ext ?_)
  match a with
  | ⟨0, _⟩ => show win1_8.index t (0 : Fin 1) * 128 + 1 * (y 0).val = (y 0).val; omega

/-- Window 9's block is its whole array at every grid point. -/
theorem idx1_9 : ∀ t : Fin cfg1.N, win1_9.index t (0 : Fin 2) = 0 ∧ win1_9.index t (1 : Fin 2) = 0 :=
  (by decide +kernel : ∀ t : Fin grid1.N, _)
theorem blk1_9 (c : Dev nD) (t : Fin cfg1.N) : (iblk1 V c 9 t : S128x128.Idx → EReal) = V c main_v72 := funext fun y => by
  obtain ⟨f0, f1⟩ := idx1_9 t
  show V c main_v72 (((cfg1.win 9).blk t).view.emb y) = V c main_v72 y
  refine congrArg (V c main_v72) (funext fun a => Fin.ext ?_)
  match a with
  | ⟨0, _⟩ => show win1_9.index t (0 : Fin 2) * 128 + 1 * (y 0).val = (y 0).val; omega
  | ⟨1, _⟩ => show win1_9.index t (1 : Fin 2) * 128 + 1 * (y 1).val = (y 1).val; omega

/-- Window 10's block is its whole array at every grid point. -/
theorem idx1_10 : ∀ t : Fin cfg1.N, win1_10.index t (0 : Fin 1) = 0 :=
  (by decide +kernel : ∀ t : Fin grid1.N, _)
theorem blk1_10 (c : Dev nD) (t : Fin cfg1.N) : (iblk1 V c 10 t : S128.Idx → EReal) = V c main_arg23 := funext fun y => by
  have f0 := idx1_10 t
  show V c main_arg23 (((cfg1.win 10).blk t).view.emb y) = V c main_arg23 y
  refine congrArg (V c main_arg23) (funext fun a => Fin.ext ?_)
  match a with
  | ⟨0, _⟩ => show win1_10.index t (0 : Fin 1) * 128 + 1 * (y 0).val = (y 0).val; omega

/-- Window 11's block is its whole array at every grid point. -/
theorem idx1_11 : ∀ t : Fin cfg1.N, win1_11.index t (0 : Fin 2) = 0 ∧ win1_11.index t (1 : Fin 2) = 0 :=
  (by decide +kernel : ∀ t : Fin grid1.N, _)
theorem blk1_11 (c : Dev nD) (t : Fin cfg1.N) : (iblk1 V c 11 t : S256x128.Idx → EReal) = V c main_v73 := funext fun y => by
  obtain ⟨f0, f1⟩ := idx1_11 t
  show V c main_v73 (((cfg1.win 11).blk t).view.emb y) = V c main_v73 y
  refine congrArg (V c main_v73) (funext fun a => Fin.ext ?_)
  match a with
  | ⟨0, _⟩ => show win1_11.index t (0 : Fin 2) * 256 + 1 * (y 0).val = (y 0).val; omega
  | ⟨1, _⟩ => show win1_11.index t (1 : Fin 2) * 128 + 1 * (y 1).val = (y 1).val; omega

/-- Window 12's block is its whole array at every grid point. -/
theorem idx1_12 : ∀ t : Fin cfg1.N, win1_12.index t (0 : Fin 1) = 0 :=
  (by decide +kernel : ∀ t : Fin grid1.N, _)
theorem blk1_12 (c : Dev nD) (t : Fin cfg1.N) : (iblk1 V c 12 t : S128.Idx → EReal) = V c main_arg25 := funext fun y => by
  have f0 := idx1_12 t
  show V c main_arg25 (((cfg1.win 12).blk t).view.emb y) = V c main_arg25 y
  refine congrArg (V c main_arg25) (funext fun a => Fin.ext ?_)
  match a with
  | ⟨0, _⟩ => show win1_12.index t (0 : Fin 1) * 128 + 1 * (y 0).val = (y 0).val; omega

/-- Window 13's block is its whole array at every grid point. -/
theorem idx1_13 : ∀ t : Fin cfg1.N, win1_13.index t (0 : Fin 2) = 0 ∧ win1_13.index t (1 : Fin 2) = 0 :=
  (by decide +kernel : ∀ t : Fin grid1.N, _)
theorem blk1_13 (c : Dev nD) (t : Fin cfg1.N) : (iblk1 V c 13 t : S128x128.Idx → EReal) = V c main_v74 := funext fun y => by
  obtain ⟨f0, f1⟩ := idx1_13 t
  show V c main_v74 (((cfg1.win 13).blk t).view.emb y) = V c main_v74 y
  refine congrArg (V c main_v74) (funext fun a => Fin.ext ?_)
  match a with
  | ⟨0, _⟩ => show win1_13.index t (0 : Fin 2) * 128 + 1 * (y 0).val = (y 0).val; omega
  | ⟨1, _⟩ => show win1_13.index t (1 : Fin 2) * 128 + 1 * (y 1).val = (y 1).val; omega

/-- Window 14's block is its whole array at every grid point. -/
theorem idx1_14 : ∀ t : Fin cfg1.N, win1_14.index t (0 : Fin 1) = 0 :=
  (by decide +kernel : ∀ t : Fin grid1.N, _)
theorem blk1_14 (c : Dev nD) (t : Fin cfg1.N) : (iblk1 V c 14 t : S128.Idx → EReal) = V c main_arg27 := funext fun y => by
  have f0 := idx1_14 t
  show V c main_arg27 (((cfg1.win 14).blk t).view.emb y) = V c main_arg27 y
  refine congrArg (V c main_arg27) (funext fun a => Fin.ext ?_)
  match a with
  | ⟨0, _⟩ => show win1_14.index t (0 : Fin 1) * 128 + 1 * (y 0).val = (y 0).val; omega

/-- Window 15's block is its whole array at every grid point. -/
theorem idx1_15 : ∀ t : Fin cfg1.N, win1_15.index t (0 : Fin 2) = 0 ∧ win1_15.index t (1 : Fin 2) = 0 :=
  (by decide +kernel : ∀ t : Fin grid1.N, _)
theorem blk1_15 (c : Dev nD) (t : Fin cfg1.N) : (iblk1 V c 15 t : S1x128.Idx → EReal) = V c main_v75 := funext fun y => by
  obtain ⟨f0, f1⟩ := idx1_15 t
  show V c main_v75 (((cfg1.win 15).blk t).view.emb y) = V c main_v75 y
  refine congrArg (V c main_v75) (funext fun a => Fin.ext ?_)
  match a with
  | ⟨0, _⟩ => show win1_15.index t (0 : Fin 2) * 1 + 1 * (y 0).val = (y 0).val; omega
  | ⟨1, _⟩ => show win1_15.index t (1 : Fin 2) * 128 + 1 * (y 1).val = (y 1).val; omega

/-- The output window is tiled by nodes like the node inputs. -/
theorem idx1_16 : ∀ t : Fin cfg1.N, win1_16.index t (0 : Fin 2) = t.val ∧ win1_16.index t (1 : Fin 2) = 0 :=
  (by decide +kernel : ∀ t : Fin grid1.N, _)
theorem emb1_16 (t : Fin cfg1.N) (p : Fin 5000) (hn : t.val * 5000 + p.val < 100000) (q : Fin 1) :
    ((cfg1.win 16).blk t).view.emb (ix2 p q) = ix2 (⟨t.val * 5000 + p.val, hn⟩ : Fin 100000) q := by
  obtain ⟨f0, f1⟩ := idx1_16 t
  refine funext fun a => Fin.ext ?_
  match a with
  | ⟨0, _⟩ => show win1_16.index t (0 : Fin 2) * 5000 + 1 * p.val = t.val * 5000 + p.val; omega
  | ⟨1, _⟩ => show win1_16.index t (1 : Fin 2) * 1 + 1 * q.val = q.val; omega

/-- What the second kernel leaves in its output array, as a function of the arrays it finds: the second layer on every
    node followed by the scalar product with the head's weight row. -/
abbrev K1 (c : Dev nD) : Mat 100000 1 :=
  nodeScore h256 z0 (LayerW.ofArrays (V c main_v69) (V c main_arg17) (V c main_v70) (V c main_arg19) (V c main_v71) (V c main_arg21) (V c main_v72) (V c main_arg23) (V c main_v73) (V c main_arg25) (V c main_v74) (V c main_arg27)) (V c main_v75) (V c main_v38) (V c main_v53) (V c main_v68)

set_option maxHeartbeats 1600000 in
/-- What grid point `t` writes back is block `t` of that array. -/
theorem flushed1 (c : Dev nD) (t : Fin cfg1.N) :
    (dat1 (F := Ideal) V c).flushed 16 t = ((cfg1.win 16).blk t).view.read (Elt Ideal) (K1 V c) := by
  show (cfg1.win 16).cut (grid1.coords t) ((dat1 V c).after 16 t) = _
  rw [after1_16]
  unfold out1_16
  rw [View.canon_unit_zero hz2_1]
  simp only [View.ld_unit_zero (S := S5000x64) hz2_1, View.ld_unit_zero (S := S5000x128) hz2_1, View.ld_unit_zero (S := S64x128) hz2_1, View.ld_unit_zero (S := S128) hz1_1,
    View.ld_unit_zero (S := S128x128) hz2_1, View.ld_unit_zero (S := S256x128) hz2_1, View.ld_unit_zero (S := S1x128) hz2_1]
  have ht : t.val < 20 := t.isLt
  funext j
  obtain ⟨p, q, rfl⟩ : ∃ (p : Fin 5000) (q : Fin 1), j = ix2 p q := ⟨j 0, j 1, eq_ix2 j⟩
  have hp : p.val < 5000 := p.isLt
  have hn : t.val * 5000 + p.val < 100000 := by omega
  show _ = K1 V c (((cfg1.win 16).blk t).view.emb (ix2 p q))
  rw [emb1_16 t p hn q]
  obtain rfl : q = 0 := Subsingleton.elim _ _
  refine (rows1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) p).trans ?_
  rw [blk1_3 V c t, blk1_4 V c t, blk1_5 V c t, blk1_6 V c t, blk1_7 V c t, blk1_8 V c t, blk1_9 V c t, blk1_10 V c t, blk1_11 V c t,
    blk1_12 V c t, blk1_13 V c t, blk1_14 V c t, blk1_15 V c t,
    show rowOf (iblk1 V c 0 t) p = rowOf (V c main_v38) (⟨t.val * 5000 + p.val, hn⟩ : Fin 100000) from funext (blk1_0 V c t p hn),
    show rowOf (iblk1 V c 1 t) p = rowOf (V c main_v53) (⟨t.val * 5000 + p.val, hn⟩ : Fin 100000) from funext (blk1_1 V c t p hn),
    show rowOf (iblk1 V c 2 t) p = rowOf (V c main_v68) (⟨t.val * 5000 + p.val, hn⟩ : Fin 100000) from funext (blk1_2 V c t p hn)]
  rfl

/-- An index of the output array is in grid point `t`'s block iff each coordinate is in the block's range on its axis. -/
theorem mem_blk1 (t : Fin cfg1.N) (i : S100000x1.Idx) :
    i ∈ ((cfg1.win 16).blk t).view.set ↔ ∀ a : Fin 2, win1_16.index t a * S5000x1.size a ≤ (i a).val ∧ (i a).val < win1_16.index t a * S5000x1.size a + S5000x1.size a := by
  show i ∈ ((View.whole main_v76).slice (win1_16.rect t)).set ↔ _
  rw [View.set_slice_whole, Rect.mem_set_unit]
  exact Iff.rfl

/-- Every node's row is in some grid point's block: node `n` is in block `n / 5000`. -/
theorem cover1 (i : S100000x1.Idx) : ∃ t : Fin cfg1.N, (cfg1.win 16).flush t = true ∧ i ∈ ((cfg1.win 16).blk t).view.set := by
  have hi0 : (i 0).val < 100000 := (i 0).isLt
  have hi1 : (i 1).val < 1 := (i 1).isLt
  have ht : (i 0).val / 5000 < 20 := by omega
  obtain ⟨f0, f1⟩ := idx1_16 (⟨(i 0).val / 5000, ht⟩ : Fin cfg1.N)
  refine ⟨(⟨(i 0).val / 5000, ht⟩ : Fin cfg1.N), flush1_16 _, ?_⟩
  rw [mem_blk1]
  intro a
  match a with
  | ⟨0, _⟩ =>
    show win1_16.index _ (0 : Fin 2) * 5000 ≤ (i 0).val ∧ (i 0).val < win1_16.index _ (0 : Fin 2) * 5000 + 5000
    rw [f0]; show (i 0).val / 5000 * 5000 ≤ (i 0).val ∧ (i 0).val < (i 0).val / 5000 * 5000 + 5000; omega
  | ⟨1, _⟩ =>
    show win1_16.index _ (1 : Fin 2) * 1 ≤ (i 1).val ∧ (i 1).val < win1_16.index _ (1 : Fin 2) * 1 + 1
    rw [f1]; omega

/-- THE ARRAY after the kernel's grid: the layer on every node. -/
theorem final1 (c : Dev nD) : (dat1 (F := Ideal) V c).arrAt 16 cfg1.N = K1 V c :=
  (dat1 (F := Ideal) V c).arrAt_eq_of_cover 16 (K1 V c) (fun t _ => flushed1 V c t) (cover1)

end Cert.GinKernel
end
-- ==== Proof.KernelBlocks0.lean ====
/-
  From blocks to the array, first kernel. The grid has 20 points; point t is handed rows 5000 t … 5000 t + 4999 of the
  node features and of the two neighbourhood sums, and the twelve weight arrays whole. Its body's result on row p of
  the block is the first layer's row function of node 5000 t + p (the payload read row by row), so what point t
  writes back is block t of ONE array, the first layer on every node; the 20 blocks tile the output array.
-/
import proofs.«158497_j67508295958860_2_alg».proof.Proof.Gen.KernelIdeal.Frame
import proofs.«158497_j67508295958860_2_alg».proof.Proof.Spec
import proofs.«158497_j67508295958860_2_alg».proof.Proof.LibRowLayers
import proofs.«158497_j67508295958860_2_alg».proof.Proof.KernelRows0
import Idealize.ShloMosaic.Lib.Pipeline.Value
import Idealize.ShloMosaic.Lib.ValueIdx

set_option maxRecDepth 16384

noncomputable section

namespace Cert.GinKernel

open Cert.KernelIdeal Cert.KernelIdeal.Gen Cert.RowLayers Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2_0 : (![0, 0] : Fin 2 → Nat) = fun _ => 0 := funext fun a => by fin_cases a <;> rfl
theorem hz1_0 : (![0] : Fin 1 → Nat) = fun _ => 0 := funext fun a => by fin_cases a; rfl

/-- Window 0 is tiled by nodes: its block at grid point `t` is rows `5000 t … 5000 t + 4999` of its array. -/
theorem idx0_0 : ∀ t : Fin cfg0.N, win0_0.index t (0 : Fin 2) = t.val ∧ win0_0.index t (1 : Fin 2) = 0 :=
  (by decide +kernel : ∀ t : Fin grid0.N, _)
theorem blk0_0 (c : Dev nD) (t : Fin cfg0.N) (p : Fin 5000) (hn : t.val * 5000 + p.val < 100000) (k : Fin 64) :
    iblk0 V c 0 t (ix2 p k) = V c main_arg0 (ix2 (⟨t.val * 5000 + p.val, hn⟩ : Fin 100000) k) := by
  obtain ⟨f0, f1⟩ := idx0_0 t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

/-- Window 1 is tiled by nodes: its block at grid point `t` is rows `5000 t … 5000 t + 4999` of its array. -/
theorem idx0_1 : ∀ t : Fin cfg0.N, win0_1.index t (0 : Fin 2) = t.val ∧ win0_1.index t (1 : Fin 2) = 0 :=
  (by decide +kernel : ∀ t : Fin grid0.N, _)
theorem blk0_1 (c : Dev nD) (t : Fin cfg0.N) (p : Fin 5000) (hn : t.val * 5000 + p.val < 100000) (k : Fin 64) :
    iblk0 V c 1 t (ix2 p k) = V c main_v15 (ix2 (⟨t.val * 5000 + p.val, hn⟩ : Fin 100000) k) := by
  obtain ⟨f0, f1⟩ := idx0_1 t
  show V c main_v15 (((cfg0.win 1).blk t).view.emb (ix2 p k)) = _
  refine congrArg (V c main_v15) (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * k.val = k.val; omega

/-- Window 2 is tiled by nodes: its block at grid point `t` is rows `5000 t … 5000 t + 4999` of its array. -/
theorem idx0_2 : ∀ t : Fin cfg0.N, win0_2.index t (0 : Fin 2) = t.val ∧ win0_2.index t (1 : Fin 2) = 0 :=
  (by decide +kernel : ∀ t : Fin grid0.N, _)
theorem blk0_2 (c : Dev nD) (t : Fin cfg0.N) (p : Fin 5000) (hn : t.val * 5000 + p.val < 100000) (k : Fin 64) :
    iblk0 V c 2 t (ix2 p k) = V c main_v31 (ix2 (⟨t.val * 5000 + p.val, hn⟩ : Fin 100000) k) := by
  obtain ⟨f0, f1⟩ := idx0_2 t
  show V c main_v31 (((cfg0.win 2).blk t).view.emb (ix2 p k)) = _
  refine congrArg (V c main_v31) (funext fun a => Fin.ext ?_)
  match a with
  | ⟨0, _⟩ => show win0_2.index t (0 : Fin 2) * 5000 + 1 * p.val = t.val * 5000 + p.val; omega
  | ⟨1, _⟩ => show win0_2.index t (1 : Fin 2) * 64 + 1 * k.val = k.val; omega

/-- Window 3's block is its whole array at every grid point. -/
theorem idx0_3 : ∀ t : Fin cfg0.N, win0_3.index t (0 : Fin 2) = 0 ∧ win0_3.index t (1 : Fin 2) = 0 :=
  (by decide +kernel : ∀ t : Fin grid0.N, _)
theorem blk0_3 (c : Dev nD) (t : Fin cfg0.N) : (iblk0 V c 3 t : S64x128.Idx → EReal) = V c main_v32 := funext fun y => by
  obtain ⟨f0, f1⟩ := idx0_3 t
  show V c main_v32 (((cfg0.win 3).blk t).view.emb y) = V c main_v32 y
  refine congrArg (V c main_v32) (funext fun a => Fin.ext ?_)
  match a with
  | ⟨0, _⟩ => show win0_3.index t (0 : Fin 2) * 64 + 1 * (y 0).val = (y 0).val; omega
  | ⟨1, _⟩ => show win0_3.index t (1 : Fin 2) * 128 + 1 * (y 1).val = (y 1).val; omega

/-- Window 4's block is its whole array at every grid point. -/
theorem idx0_4 : ∀ t : Fin cfg0.N, win0_4.index t (0 : Fin 1) = 0 :=
  (by decide +kernel : ∀ t : Fin grid0.N, _)
theorem blk0_4 (c : Dev nD) (t : Fin cfg0.N) : (iblk0 V c 4 t : S128.Idx → EReal) = V c main_arg5 := funext fun y => by
  have f0 := idx0_4 t
  show V c main_arg5 (((cfg0.win 4).blk t).view.emb y) = V c main_arg5 y
  refine congrArg (V c main_arg5) (funext fun a => Fin.ext ?_)
  match a with
  | ⟨0, _⟩ => show win0_4.index t (0 : Fin 1) * 128 + 1 * (y 0).val = (y 0).val; omega

/-- Window 5's block is its whole array at every grid point. -/
theorem idx0_5 : ∀ t : Fin cfg0.N, win0_5.index t (0 : Fin 2) = 0 ∧ win0_5.index t (1 : Fin 2) = 0 :=
  (by decide +kernel : ∀ t : Fin grid0.N, _)
theorem blk0_5 (c : Dev nD) (t : Fin cfg0.N) : (iblk0 V c 5 t : S128x128.Idx → EReal) = V c main_v33 := funext fun y => by
  obtain ⟨f0, f1⟩ := idx0_5 t
  show V c main_v33 (((cfg0.win 5).blk t).view.emb y) = V c main_v33 y
  refine congrArg (V c main_v33) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block is its whole array at every grid point. -/
theorem idx0_6 : ∀ t : Fin cfg0.N, win0_6.index t (0 : Fin 1) = 0 :=
  (by decide +kernel : ∀ t : Fin grid0.N, _)
theorem blk0_6 (c : Dev nD) (t : Fin cfg0.N) : (iblk0 V c 6 t : S128.Idx → EReal) = V c main_arg7 := funext fun y => by
  have f0 := idx0_6 t
  show V c main_arg7 (((cfg0.win 6).blk t).view.emb y) = V c main_arg7 y
  refine congrArg (V c main_arg7) (funext fun a => Fin.ext ?_)
  match a with
  | ⟨0, _⟩ => show win0_6.index t (0 : Fin 1) * 128 + 1 * (y 0).val = (y 0).val; omega

/-- Window 7's block is its whole array at every grid point. -/
theorem idx0_7 : ∀ t : Fin cfg0.N, win0_7.index t (0 : Fin 2) = 0 ∧ win0_7.index t (1 : Fin 2) = 0 :=
  (by decide +kernel : ∀ t : Fin grid0.N, _)
theorem blk0_7 (c : Dev nD) (t : Fin cfg0.N) : (iblk0 V c 7 t : S64x128.Idx → EReal) = V c main_v34 := funext fun y => by
  obtain ⟨f0, f1⟩ := idx0_7 t
  show V c main_v34 (((cfg0.win 7).blk t).view.emb y) = V c main_v34 y
  refine congrArg (V c main_v34) (funext fun a => Fin.ext ?_)
  match a with
  | ⟨0, _⟩ => show win0_7.index t (0 : Fin 2) * 64 + 1 * (y 0).val = (y 0).val; omega
  | ⟨1, _⟩ => show win0_7.index t (1 : Fin 2) * 128 + 1 * (y 1).val = (y 1).val; omega

/-- Window 8's block is its whole array at every grid point. -/
theorem idx0_8 : ∀ t : Fin cfg0.N, win0_8.index t (0 : Fin 1) = 0 :=
  (by decide +kernel : ∀ t : Fin grid0.N, _)
theorem blk0_8 (c : Dev nD) (t : Fin cfg0.N) : (iblk0 V c 8 t : S128.Idx → EReal) = V c main_arg9 := funext fun y => by
  have f0 := idx0_8 t
  show V c main_arg9 (((cfg0.win 8).blk t).view.emb y) = V c main_arg9 y
  refine congrArg (V c main_arg9) (funext fun a => Fin.ext ?_)
  match a with
  | ⟨0, _⟩ => show win0_8.index t (0 : Fin 1) * 128 + 1 * (y 0).val = (y 0).val; omega

/-- Window 9's block is its whole array at every grid point. -/
theorem idx0_9 : ∀ t : Fin cfg0.N, win0_9.index t (0 : Fin 2) = 0 ∧ win0_9.index t (1 : Fin 2) = 0 :=
  (by decide +kernel : ∀ t : Fin grid0.N, _)
theorem blk0_9 (c : Dev nD) (t : Fin cfg0.N) : (iblk0 V c 9 t : S128x128.Idx → EReal) = V c main_v35 := funext fun y => by
  obtain ⟨f0, f1⟩ := idx0_9 t
  show V c main_v35 (((cfg0.win 9).blk t).view.emb y) = V c main_v35 y
  refine congrArg (V c main_v35) (funext fun a => Fin.ext ?_)
  match a with
  | ⟨0, _⟩ => show win0_9.index t (0 : Fin 2) * 128 + 1 * (y 0).val = (y 0).val; omega
  | ⟨1, _⟩ => show win0_9.index t (1 : Fin 2) * 128 + 1 * (y 1).val = (y 1).val; omega

/-- Window 10's block is its whole array at every grid point. -/
theorem idx0_10 : ∀ t : Fin cfg0.N, win0_10.index t (0 : Fin 1) = 0 :=
  (by decide +kernel : ∀ t : Fin grid0.N, _)
theorem blk0_10 (c : Dev nD) (t : Fin cfg0.N) : (iblk0 V c 10 t : S128.Idx → EReal) = V c main_arg11 := funext fun y => by
  have f0 := idx0_10 t
  show V c main_arg11 (((cfg0.win 10).blk t).view.emb y) = V c main_arg11 y
  refine congrArg (V c main_arg11) (funext fun a => Fin.ext ?_)
  match a with
  | ⟨0, _⟩ => show win0_10.index t (0 : Fin 1) * 128 + 1 * (y 0).val = (y 0).val; omega

/-- Window 11's block is its whole array at every grid point. -/
theorem idx0_11 : ∀ t : Fin cfg0.N, win0_11.index t (0 : Fin 2) = 0 ∧ win0_11.index t (1 : Fin 2) = 0 :=
  (by decide +kernel : ∀ t : Fin grid0.N, _)
theorem blk0_11 (c : Dev nD) (t : Fin cfg0.N) : (iblk0 V c 11 t : S256x128.Idx → EReal) = V c main_v36 := funext fun y => by
  obtain ⟨f0, f1⟩ := idx0_11 t
  show V c main_v36 (((cfg0.win 11).blk t).view.emb y) = V c main_v36 y
  refine congrArg (V c main_v36) (funext fun a => Fin.ext ?_)
  match a with
  | ⟨0, _⟩ => show win0_11.index t (0 : Fin 2) * 256 + 1 * (y 0).val = (y 0).val; omega
  | ⟨1, _⟩ => show win0_11.index t (1 : Fin 2) * 128 + 1 * (y 1).val = (y 1).val; omega

/-- Window 12's block is its whole array at every grid point. -/
theorem idx0_12 : ∀ t : Fin cfg0.N, win0_12.index t (0 : Fin 1) = 0 :=
  (by decide +kernel : ∀ t : Fin grid0.N, _)
theorem blk0_12 (c : Dev nD) (t : Fin cfg0.N) : (iblk0 V c 12 t : S128.Idx → EReal) = V c main_arg13 := funext fun y => by
  have f0 := idx0_12 t
  show V c main_arg13 (((cfg0.win 12).blk t).view.emb y) = V c main_arg13 y
  refine congrArg (V c main_arg13) (funext fun a => Fin.ext ?_)
  match a with
  | ⟨0, _⟩ => show win0_12.index t (0 : Fin 1) * 128 + 1 * (y 0).val = (y 0).val; omega

/-- Window 13's block is its whole array at every grid point. -/
theorem idx0_13 : ∀ t : Fin cfg0.N, win0_13.index t (0 : Fin 2) = 0 ∧ win0_13.index t (1 : Fin 2) = 0 :=
  (by decide +kernel : ∀ t : Fin grid0.N, _)
theorem blk0_13 (c : Dev nD) (t : Fin cfg0.N) : (iblk0 V c 13 t : S128x128.Idx → EReal) = V c main_v37 := funext fun y => by
  obtain ⟨f0, f1⟩ := idx0_13 t
  show V c main_v37 (((cfg0.win 13).blk t).view.emb y) = V c main_v37 y
  refine congrArg (V c main_v37) (funext fun a => Fin.ext ?_)
  match a with
  | ⟨0, _⟩ => show win0_13.index t (0 : Fin 2) * 128 + 1 * (y 0).val = (y 0).val; omega
  | ⟨1, _⟩ => show win0_13.index t (1 : Fin 2) * 128 + 1 * (y 1).val = (y 1).val; omega

/-- Window 14's block is its whole array at every grid point. -/
theorem idx0_14 : ∀ t : Fin cfg0.N, win0_14.index t (0 : Fin 1) = 0 :=
  (by decide +kernel : ∀ t : Fin grid0.N, _)
theorem blk0_14 (c : Dev nD) (t : Fin cfg0.N) : (iblk0 V c 14 t : S128.Idx → EReal) = V c main_arg15 := funext fun y => by
  have f0 := idx0_14 t
  show V c main_arg15 (((cfg0.win 14).blk t).view.emb y) = V c main_arg15 y
  refine congrArg (V c main_arg15) (funext fun a => Fin.ext ?_)
  match a with
  | ⟨0, _⟩ => show win0_14.index t (0 : Fin 1) * 128 + 1 * (y 0).val = (y 0).val; omega

/-- The output window is tiled by nodes like the node inputs. -/
theorem idx0_15 : ∀ t : Fin cfg0.N, win0_15.index t (0 : Fin 2) = t.val ∧ win0_15.index t (1 : Fin 2) = 0 :=
  (by decide +kernel : ∀ t : Fin grid0.N, _)
theorem emb0_15 (t : Fin cfg0.N) (p : Fin 5000) (hn : t.val * 5000 + p.val < 100000) (q : Fin 128) :
    ((cfg0.win 15).blk t).view.emb (ix2 p q) = ix2 (⟨t.val * 5000 + p.val, hn⟩ : Fin 100000) q := by
  obtain ⟨f0, f1⟩ := idx0_15 t
  refine funext fun a => Fin.ext ?_
  match a with
  | ⟨0, _⟩ => show win0_15.index t (0 : Fin 2) * 5000 + 1 * p.val = t.val * 5000 + p.val; omega
  | ⟨1, _⟩ => show win0_15.index t (1 : Fin 2) * 128 + 1 * q.val = q.val; omega

/-- What the first kernel leaves in its output array, as a function of the arrays it finds: the first layer on every node. -/
abbrev K0 (c : Dev nD) : Mat 100000 128 :=
  nodeLayer h256 z0 (LayerW.ofArrays (V c main_v32) (V c main_arg5) (V c main_v33) (V c main_arg7) (V c main_v34) (V c main_arg9) (V c main_v35) (V c main_arg11) (V c main_v36) (V c main_arg13) (V c main_v37) (V c main_arg15)) (V c main_arg0) (V c main_v15) (V c main_v31)

/-- What grid point `t` writes back is block `t` of that array. -/
theorem flushed0 (c : Dev nD) (t : Fin cfg0.N) :
    (dat0 (F := Ideal) V c).flushed 15 t = ((cfg0.win 15).blk t).view.read (Elt Ideal) (K0 V c) := by
  show (cfg0.win 15).cut (grid0.coords t) ((dat0 V c).after 15 t) = _
  rw [after0_15]
  unfold out0_15
  rw [View.canon_unit_zero hz2_0]
  simp only [View.ld_unit_zero (S := S5000x64) hz2_0, View.ld_unit_zero (S := S5000x128) hz2_0, View.ld_unit_zero (S := S64x128) hz2_0, View.ld_unit_zero (S := S128) hz1_0,
    View.ld_unit_zero (S := S128x128) hz2_0, View.ld_unit_zero (S := S256x128) hz2_0, View.ld_unit_zero (S := S1x128) hz2_0]
  have ht : t.val < 20 := t.isLt
  funext j
  obtain ⟨p, q, rfl⟩ : ∃ (p : Fin 5000) (q : Fin 128), j = ix2 p q := ⟨j 0, j 1, eq_ix2 j⟩
  have hp : p.val < 5000 := p.isLt
  have hn : t.val * 5000 + p.val < 100000 := by omega
  show _ = K0 V c (((cfg0.win 15).blk t).view.emb (ix2 p q))
  rw [emb0_15 t p hn q]
  refine (congrFun (rows0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) p) q).trans ?_
  rw [blk0_3 V c t, blk0_4 V c t, blk0_5 V c t, blk0_6 V c t, blk0_7 V c t, blk0_8 V c t, blk0_9 V c t, blk0_10 V c t, blk0_11 V c t,
    blk0_12 V c t, blk0_13 V c t, blk0_14 V c t,
    show rowOf (iblk0 V c 0 t) p = rowOf (V c main_arg0) (⟨t.val * 5000 + p.val, hn⟩ : Fin 100000) from funext (blk0_0 V c t p hn),
    show rowOf (iblk0 V c 1 t) p = rowOf (V c main_v15) (⟨t.val * 5000 + p.val, hn⟩ : Fin 100000) from funext (blk0_1 V c t p hn),
    show rowOf (iblk0 V c 2 t) p = rowOf (V c main_v31) (⟨t.val * 5000 + p.val, hn⟩ : Fin 100000) from funext (blk0_2 V c t p hn)]
  rfl

/-- An index of the output array is in grid point `t`'s block iff each coordinate is in the block's range on its axis. -/
theorem mem_blk0 (t : Fin cfg0.N) (i : S100000x128.Idx) :
    i ∈ ((cfg0.win 15).blk t).view.set ↔ ∀ a : Fin 2, win0_15.index t a * S5000x128.size a ≤ (i a).val ∧ (i a).val < win0_15.index t a * S5000x128.size a + S5000x128.size a := by
  show i ∈ ((View.whole main_v38).slice (win0_15.rect t)).set ↔ _
  rw [View.set_slice_whole, Rect.mem_set_unit]
  exact Iff.rfl

/-- Every node's row is in some grid point's block: node `n` is in block `n / 5000`. -/
theorem cover0 (i : S100000x128.Idx) : ∃ t : Fin cfg0.N, (cfg0.win 15).flush t = true ∧ i ∈ ((cfg0.win 15).blk t).view.set := by
  have hi0 : (i 0).val < 100000 := (i 0).isLt
  have hi1 : (i 1).val < 128 := (i 1).isLt
  have ht : (i 0).val / 5000 < 20 := by omega
  obtain ⟨f0, f1⟩ := idx0_15 (⟨(i 0).val / 5000, ht⟩ : Fin cfg0.N)
  refine ⟨(⟨(i 0).val / 5000, ht⟩ : Fin cfg0.N), flush0_15 _, ?_⟩
  rw [mem_blk0]
  intro a
  match a with
  | ⟨0, _⟩ =>
    show win0_15.index _ (0 : Fin 2) * 5000 ≤ (i 0).val ∧ (i 0).val < win0_15.index _ (0 : Fin 2) * 5000 + 5000
    rw [f0]; show (i 0).val / 5000 * 5000 ≤ (i 0).val ∧ (i 0).val < (i 0).val / 5000 * 5000 + 5000; omega
  | ⟨1, _⟩ =>
    show win0_15.index _ (1 : Fin 2) * 128 ≤ (i 1).val ∧ (i 1).val < win0_15.index _ (1 : Fin 2) * 128 + 128
    rw [f1]; omega

/-- THE ARRAY after the kernel's grid: the layer on every node. -/
theorem final0 (c : Dev nD) : (dat0 (F := Ideal) V c).arrAt 15 cfg0.N = K0 V c :=
  (dat0 (F := Ideal) V c).arrAt_eq_of_cover 15 (K0 V c) (fun t _ => flushed0 V c t) (cover0)

end Cert.GinKernel
end
-- ==== Proof.KernelHost0.lean ====
/-
  The kernel program's first stretch of host operations, over the extended reals.

  Before the first kernel region the program prepares, on the host, what the region reads: the neighbourhood sum
  of the feature table over each of the two edge sets (every edge reads its source node's row, rounded to the
  narrow float format and widened again, and adds it into its target node's row of a zero table), and the weight
  matrices rounded to the narrow format. This file names the neighbourhood sum as a function of the table and the
  edge list (`aggK64`), evaluates the stretch at any entry contents, and reads the fifteen arrays the region finds
  from the launch contents (no operation writes an argument).
-/
import proofs.«158497_j67508295958860_2_alg».proof.Proof.Gen.KernelIdeal.Frame
import Idealize.ShloMosaic.PureOps.Ideal
import Idealize.ShloMosaic.Lib.StableHlo.Run

noncomputable section

namespace Cert.GinKernel

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## The neighbourhood sum as the host computes it -/

/-- Row `r` of the edge list as a vector of 1000000 node numbers. -/
def edgeRow0 (ei : IVec S2x1000000 32) : IVec S1000000 32 :=
  shapeCast S1000000 (extractStridedSlice S1x1000000 ![0, 0] ei slices_S2x1000000_S1x1000000_0_0) shapeCasts_S1x1000000_S1000000

/-- Row 1 of the edge list as a vector of 1000000 node numbers. -/
def edgeRow1 (ei : IVec S2x1000000 32) : IVec S1000000 32 :=
  shapeCast S1000000 (extractStridedSlice S1x1000000 ![1, 0] ei slices_S2x1000000_S1x1000000_1_0) shapeCasts_S1x1000000_S1000000

/-- The node every edge reads from, as a column: row 0 of the edge list, a negative number moved up by the number
    of nodes. -/
def edgeSrc (ei : IVec S2x1000000 32) : IVec S1000000x1 32 :=
  broadcastInDim S1000000x1 ![0] bcast_S1000000_S1000000x1_0
    (select (cmpi .slt (edgeRow0 ei) (broadcastInDim S1000000 ![] bcast_S_S1000000 (constantI S_ 32 0#32)))
      (addi (edgeRow0 ei) (broadcastInDim S1000000 ![] bcast_S_S1000000 (constantI S_ 32 100000#32)))
      (edgeRow0 ei))

/-- The node every edge adds into, as a column: row 1 of the edge list. -/
def edgeDst (ei : IVec S2x1000000 32) : IVec S1000000x1 32 :=
  broadcastInDim S1000000x1 ![0] bcast_S1000000_S1000000x1_0 (edgeRow1 ei)

/-- The neighbourhood sum of a 64-wide feature table: every edge reads its source node's row, rounded to the
    narrow format and widened again, and adds it into its target node's row of a zero table. -/
def aggK64 (X : FVec Ideal S100000x64 .f32) (ei : IVec S2x1000000 32) : FVec Ideal S100000x64 .f32 :=
  Host.scatterAdd scatter_S100000x64_S1000000x1_S1000000x64_1_0_0_1
    (broadcastInDim S100000x64 ![] bcast_S_S100000x64 (constant (F := Ideal) S_ .f32 0x00000000#32))
    (edgeDst ei)
    (extf .f32 (Host.gather gather_S100000x64_S1000000x1_S1000000x64_1_0_n_n_0_1_164
      (truncf .bf16 X bitsLt_bf16_f32) (edgeSrc ei)) bitsLt_bf16_f32)

/-! ## The first stretch of host operations at any entry contents -/

/-- The neighbourhood sum over the first edge set, from the feature table and the first edge list. -/
theorem after_hostOps0_v15 (V : Valuation τ sig (Elt Ideal)) :
    StableHlo.after hostOps0 V (Proc.devRef .tc main_v15)
      = aggK64 (V (Proc.devRef .tc main_arg0)) (V (Proc.devRef .tc main_arg1)) := by
  after_results_simp
  rfl

/-- The neighbourhood sum over the second edge set, from the feature table and the second edge list. -/
theorem after_hostOps0_v31 (V : Valuation τ sig (Elt Ideal)) :
    StableHlo.after hostOps0 V (Proc.devRef .tc main_v31)
      = aggK64 (V (Proc.devRef .tc main_arg0)) (V (Proc.devRef .tc main_arg2)) := by
  after_results_simp
  rfl

/-! ### The weight matrices rounded to the narrow format -/

theorem after_hostOps0_v32 (V : Valuation τ sig (Elt Ideal)) :
    StableHlo.after hostOps0 V (Proc.devRef .tc main_v32)
      = (truncf .bf16 (V (Proc.devRef .tc main_arg4) : FVec Ideal S64x128 .f32) bitsLt_bf16_f32 : FVec Ideal S64x128 .bf16) := by
  after_results_simp

theorem after_hostOps0_v33 (V : Valuation τ sig (Elt Ideal)) :
    StableHlo.after hostOps0 V (Proc.devRef .tc main_v33)
      = (truncf .bf16 (V (Proc.devRef .tc main_arg6) : FVec Ideal S128x128 .f32) bitsLt_bf16_f32 : FVec Ideal S128x128 .bf16) := by
  after_results_simp

theorem after_hostOps0_v34 (V : Valuation τ sig (Elt Ideal)) :
    StableHlo.after hostOps0 V (Proc.devRef .tc main_v34)
      = (truncf .bf16 (V (Proc.devRef .tc main_arg8) : FVec Ideal S64x128 .f32) bitsLt_bf16_f32 : FVec Ideal S64x128 .bf16) := by
  after_results_simp

theorem after_hostOps0_v35 (V : Valuation τ sig (Elt Ideal)) :
    StableHlo.after hostOps0 V (Proc.devRef .tc main_v35)
      = (truncf .bf16 (V (Proc.devRef .tc main_arg10) : FVec Ideal S128x128 .f32) bitsLt_bf16_f32 : FVec Ideal S128x128 .bf16) := by
  after_results_simp

theorem after_hostOps0_v36 (V : Valuation τ sig (Elt Ideal)) :
    StableHlo.after hostOps0 V (Proc.devRef .tc main_v36)
      = (truncf .bf16 (V (Proc.devRef .tc main_arg12) : FVec Ideal S256x128 .f32) bitsLt_bf16_f32 : FVec Ideal S256x128 .bf16) := by
  after_results_simp

theorem after_hostOps0_v37 (V : Valuation τ sig (Elt Ideal)) :
    StableHlo.after hostOps0 V (Proc.devRef .tc main_v37)
      = (truncf .bf16 (V (Proc.devRef .tc main_arg14) : FVec Ideal S128x128 .f32) bitsLt_bf16_f32 : FVec Ideal S128x128 .bf16) := by
  after_results_simp

/-! ### The arrays no operation of the stretch writes -/

theorem after_hostOps0_main_arg0 (V : Valuation τ sig (Elt Ideal)) :
    StableHlo.after hostOps0 V (Proc.devRef .tc main_arg0) = V (Proc.devRef .tc main_arg0) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

theorem after_hostOps0_main_arg5 (V : Valuation τ sig (Elt Ideal)) :
    StableHlo.after hostOps0 V (Proc.devRef .tc main_arg5) = V (Proc.devRef .tc main_arg5) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

theorem after_hostOps0_main_arg7 (V : Valuation τ sig (Elt Ideal)) :
    StableHlo.after hostOps0 V (Proc.devRef .tc main_arg7) = V (Proc.devRef .tc main_arg7) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

theorem after_hostOps0_main_arg9 (V : Valuation τ sig (Elt Ideal)) :
    StableHlo.after hostOps0 V (Proc.devRef .tc main_arg9) = V (Proc.devRef .tc main_arg9) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

theorem after_hostOps0_main_arg11 (V : Valuation τ sig (Elt Ideal)) :
    StableHlo.after hostOps0 V (Proc.devRef .tc main_arg11) = V (Proc.devRef .tc main_arg11) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

theorem after_hostOps0_main_arg13 (V : Valuation τ sig (Elt Ideal)) :
    StableHlo.after hostOps0 V (Proc.devRef .tc main_arg13) = V (Proc.devRef .tc main_arg13) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

theorem after_hostOps0_main_arg15 (V : Valuation τ sig (Elt Ideal)) :
    StableHlo.after hostOps0 V (Proc.devRef .tc main_arg15) = V (Proc.devRef .tc main_arg15) :=
  StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

/-! ## What the first kernel region finds: fifteen arrays, from the launch contents -/

/-- The feature table as launched. -/
theorem V1_main_arg0 : V1 m ρ c main_arg0 = m ((c : Thread nD τ).loc main_arg0) := after_hostOps0_main_arg0 (W0 m ρ c)

/-- The neighbourhood sum of the launched feature table over the first edge set. -/
theorem V1_main_v15 : V1 m ρ c main_v15 = aggK64 (m ((c : Thread nD τ).loc main_arg0)) (m ((c : Thread nD τ).loc main_arg1)) :=
  after_hostOps0_v15 (W0 m ρ c)

/-- The neighbourhood sum of the launched feature table over the second edge set. -/
theorem V1_main_v31 : V1 m ρ c main_v31 = aggK64 (m ((c : Thread nD τ).loc main_arg0)) (m ((c : Thread nD τ).loc main_arg2)) :=
  after_hostOps0_v31 (W0 m ρ c)

/-- The launched weight matrix of argument 4, rounded to the narrow format. -/
theorem V1_main_v32 : V1 m ρ c main_v32 = (truncf .bf16 (m ((c : Thread nD τ).loc main_arg4) : FVec Ideal S64x128 .f32) bitsLt_bf16_f32 : FVec Ideal S64x128 .bf16) :=
  after_hostOps0_v32 (W0 m ρ c)

/-- The launched weight matrix of argument 6, rounded to the narrow format. -/
theorem V1_main_v33 : V1 m ρ c main_v33 = (truncf .bf16 (m ((c : Thread nD τ).loc main_arg6) : FVec Ideal S128x128 .f32) bitsLt_bf16_f32 : FVec Ideal S128x128 .bf16) :=
  after_hostOps0_v33 (W0 m ρ c)

/-- The launched weight matrix of argument 8, rounded to the narrow format. -/
theorem V1_main_v34 : V1 m ρ c main_v34 = (truncf .bf16 (m ((c : Thread nD τ).loc main_arg8) : FVec Ideal S64x128 .f32) bitsLt_bf16_f32 : FVec Ideal S64x128 .bf16) :=
  after_hostOps0_v34 (W0 m ρ c)

/-- The launched weight matrix of argument 10, rounded to the narrow format. -/
theorem V1_main_v35 : V1 m ρ c main_v35 = (truncf .bf16 (m ((c : Thread nD τ).loc main_arg10) : FVec Ideal S128x128 .f32) bitsLt_bf16_f32 : FVec Ideal S128x128 .bf16) :=
  after_hostOps0_v35 (W0 m ρ c)

/-- The launched weight matrix of argument 12, rounded to the narrow format. -/
theorem V1_main_v36 : V1 m ρ c main_v36 = (truncf .bf16 (m ((c : Thread nD τ).loc main_arg12) : FVec Ideal S256x128 .f32) bitsLt_bf16_f32 : FVec Ideal S256x128 .bf16) :=
  after_hostOps0_v36 (W0 m ρ c)

/-- The launched weight matrix of argument 14, rounded to the narrow format. -/
theorem V1_main_v37 : V1 m ρ c main_v37 = (truncf .bf16 (m ((c : Thread nD τ).loc main_arg14) : FVec Ideal S128x128 .f32) bitsLt_bf16_f32 : FVec Ideal S128x128 .bf16) :=
  after_hostOps0_v37 (W0 m ρ c)

/-- The bias vector of argument 5 as launched. -/
theorem V1_main_arg5 : V1 m ρ c main_arg5 = m ((c : Thread nD τ).loc main_arg5) := after_hostOps0_main_arg5 (W0 m ρ c)

/-- The bias vector of argument 7 as launched. -/
theorem V1_main_arg7 : V1 m ρ c main_arg7 = m ((c : Thread nD τ).loc main_arg7) := after_hostOps0_main_arg7 (W0 m ρ c)

/-- The bias vector of argument 9 as launched. -/
theorem V1_main_arg9 : V1 m ρ c main_arg9 = m ((c : Thread nD τ).loc main_arg9) := after_hostOps0_main_arg9 (W0 m ρ c)

/-- The bias vector of argument 11 as launched. -/
theorem V1_main_arg11 : V1 m ρ c main_arg11 = m ((c : Thread nD τ).loc main_arg11) := after_hostOps0_main_arg11 (W0 m ρ c)

/-- The bias vector of argument 13 as launched. -/
theorem V1_main_arg13 : V1 m ρ c main_arg13 = m ((c : Thread nD τ).loc main_arg13) := after_hostOps0_main_arg13 (W0 m ρ c)

/-- The bias vector of argument 15 as launched. -/
theorem V1_main_arg15 : V1 m ρ c main_arg15 = m ((c : Thread nD τ).loc main_arg15) := after_hostOps0_main_arg15 (W0 m ρ c)

end Cert.GinKernel

end
-- ==== Proof.KernelValue0.lean ====
/-
  The first kernel's output array in terms of the launch memory: the arrays the first kernel finds are the node
  features, their two neighbourhood sums (computed by the host operations before it) and the weights, so its output
  is the first layer on every node, a function of the program's arguments alone.
-/
import proofs.«158497_j67508295958860_2_alg».proof.Proof.KernelBlocks0
import proofs.«158497_j67508295958860_2_alg».proof.Proof.KernelHost0

set_option maxRecDepth 16384

noncomputable section

namespace Cert.GinKernel

open Cert.KernelIdeal Cert.KernelIdeal.Gen Cert.RowLayers Cert.Gin
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The first layer on every node, from the program's arguments as the kernel program computes it. -/
def layer1K : Mat 100000 128 :=
  nodeLayer h256 z0 (LayerW.ofArrays (truncf .bf16 ((m ((c : Thread nD τ).loc main_arg4)) : FVec Ideal S64x128 .f32) bitsLt_bf16_f32 : FVec Ideal S64x128 .bf16) (m ((c : Thread nD τ).loc main_arg5)) (truncf .bf16 ((m ((c : Thread nD τ).loc main_arg6)) : FVec Ideal S128x128 .f32) bitsLt_bf16_f32 : FVec Ideal S128x128 .bf16) (m ((c : Thread nD τ).loc main_arg7)) (truncf .bf16 ((m ((c : Thread nD τ).loc main_arg8)) : FVec Ideal S64x128 .f32) bitsLt_bf16_f32 : FVec Ideal S64x128 .bf16) (m ((c : Thread nD τ).loc main_arg9)) (truncf .bf16 ((m ((c : Thread nD τ).loc main_arg10)) : FVec Ideal S128x128 .f32) bitsLt_bf16_f32 : FVec Ideal S128x128 .bf16) (m ((c : Thread nD τ).loc main_arg11)) (truncf .bf16 ((m ((c : Thread nD τ).loc main_arg12)) : FVec Ideal S256x128 .f32) bitsLt_bf16_f32 : FVec Ideal S256x128 .bf16) (m ((c : Thread nD τ).loc main_arg13)) (truncf .bf16 ((m ((c : Thread nD τ).loc main_arg14)) : FVec Ideal S128x128 .f32) bitsLt_bf16_f32 : FVec Ideal S128x128 .bf16) (m ((c : Thread nD τ).loc main_arg15)))
    (m ((c : Thread nD τ).loc main_arg0)) (aggK64 (m ((c : Thread nD τ).loc main_arg0)) (m ((c : Thread nD τ).loc main_arg1))) (aggK64 (m ((c : Thread nD τ).loc main_arg0)) (m ((c : Thread nD τ).loc main_arg2)))

/-- What the first kernel leaves in its output array. -/
theorem layer1_arr : (dat0 (F := Ideal) (V1 m ρ) c).arrAt 15 cfg0.N = layer1K m c := by
  rw [final0 (V1 m ρ) c]
  show nodeLayer h256 z0 (LayerW.ofArrays (V1 m ρ c main_v32) (V1 m ρ c main_arg5) (V1 m ρ c main_v33) (V1 m ρ c main_arg7) (V1 m ρ c main_v34) (V1 m ρ c main_arg9) (V1 m ρ c main_v35) (V1 m ρ c main_arg11) (V1 m ρ c main_v36) (V1 m ρ c main_arg13) (V1 m ρ c main_v37) (V1 m ρ c main_arg15)) (V1 m ρ c main_arg0) (V1 m ρ c main_v15) (V1 m ρ c main_v31) = _
  rw [V1_main_v32 m ρ c, V1_main_arg5 m ρ c, V1_main_v33 m ρ c, V1_main_arg7 m ρ c, V1_main_v34 m ρ c, V1_main_arg9 m ρ c, V1_main_v35 m ρ c,
    V1_main_arg11 m ρ c, V1_main_v36 m ρ c, V1_main_arg13 m ρ c, V1_main_v37 m ρ c, V1_main_arg15 m ρ c, V1_main_arg0 m ρ c, V1_main_v15 m ρ c,
    V1_main_v31 m ρ c]
  rfl

end Cert.GinKernel

end
-- ==== Proof.KernelHost1.lean ====
/-
  The kernel program's second stretch of host operations, over the extended reals.

  Between the two kernel regions the program prepares, on the host, what the second region reads: the
  neighbourhood sum of the first region's output (a table in the narrow float format) over each of the two edge
  sets, the second layer's weight matrices rounded to the narrow format, and the head's weight column laid out as
  a row. This file names the neighbourhood sum (`aggK128`), evaluates the stretch at any entry contents, and reads
  the sixteen arrays the second region finds from the launch contents and the first region's output.
-/
import proofs.«158497_j67508295958860_2_alg».proof.Proof.Gen.KernelIdeal.Frame
import proofs.«158497_j67508295958860_2_alg».proof.Proof.KernelHost0
import Idealize.ShloMosaic.PureOps.Ideal
import Idealize.ShloMosaic.Lib.StableHlo.Run

noncomputable section

namespace Cert.GinKernel

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## The neighbourhood sum of the first region's output -/

/-- The neighbourhood sum of a 128-wide table held in the narrow format: every edge reads its source node's row,
    widened, and adds it into its target node's row of a zero table. -/
def aggK128 (Hh : FVec Ideal S100000x128 .bf16) (ei : IVec S2x1000000 32) : FVec Ideal S100000x128 .f32 :=
  Host.scatterAdd scatter_S100000x128_S1000000x1_S1000000x128_1_0_0_1
    (broadcastInDim S100000x128 ![] bcast_S_S100000x128 (constant (F := Ideal) S_ .f32 0x00000000#32))
    (edgeDst ei)
    (extf .f32 (Host.gather gather_S100000x128_S1000000x1_S1000000x128_1_0_n_n_0_1_1128 Hh (edgeSrc ei)) bitsLt_bf16_f32)

/-! ## The second stretch of host operations at any entry contents -/

/-- The neighbourhood sum of the first region's output over the first edge set. -/
theorem after_hostOps1_v53 (V : Valuation τ sig (Elt Ideal)) :
    StableHlo.after hostOps1 V (Proc.devRef .tc main_v53)
      = aggK128 (V (Proc.devRef .tc main_v38)) (V (Proc.devRef .tc main_arg1)) := by
  after_results_simp
  rfl

/-- The neighbourhood sum of the first region's output over the second edge set. -/
theorem after_hostOps1_v68 (V : Valuation τ sig (Elt Ideal)) :
    StableHlo.after hostOps1 V (Proc.devRef .tc main_v68)
      = aggK128 (V (Proc.devRef .tc main_v38)) (V (Proc.devRef .tc main_arg2)) := by
  after_results_simp
  rfl

/-- The head's weight column laid out as a row. -/
theorem after_hostOps1_v75 (V : Valuation τ sig (Elt Ideal)) :
    StableHlo.after hostOps1 V (Proc.devRef .tc main_v75)
      = (shapeCast S1x128 (V (Proc.devRef .tc main_arg28) : FVec Ideal S128x1 .f32) shapeCasts_S128x1_S1x128 : FVec Ideal S1x128 .f32) := by
  after_results_simp
  rfl

/-! ### The weight matrices rounded to the narrow format -/

theorem after_hostOps1_v69 (V : Valuation τ sig (Elt Ideal)) :
    StableHlo.after hostOps1 V (Proc.devRef .tc main_v69)
      = (truncf .bf16 (V (Proc.devRef .tc main_arg16) : FVec Ideal S128x128 .f32) bitsLt_bf16_f32 : FVec Ideal S128x128 .bf16) := by
  after_results_simp

theorem after_hostOps1_v70 (V : Valuation τ sig (Elt Ideal)) :
    StableHlo.after hostOps1 V (Proc.devRef .tc main_v70)
      = (truncf .bf16 (V (Proc.devRef .tc main_arg18) : FVec Ideal S128x128 .f32) bitsLt_bf16_f32 : FVec Ideal S128x128 .bf16) := by
  after_results_simp

theorem after_hostOps1_v71 (V : Valuation τ sig (Elt Ideal)) :
    StableHlo.after hostOps1 V (Proc.devRef .tc main_v71)
      = (truncf .bf16 (V (Proc.devRef .tc main_arg20) : FVec Ideal S128x128 .f32) bitsLt_bf16_f32 : FVec Ideal S128x128 .bf16) := by
  after_results_simp

theorem after_hostOps1_v72 (V : Valuation τ sig (Elt Ideal)) :
    StableHlo.after hostOps1 V (Proc.devRef .tc main_v72)
      = (truncf .bf16 (V (Proc.devRef .tc main_arg22) : FVec Ideal S128x128 .f32) bitsLt_bf16_f32 : FVec Ideal S128x128 .bf16) := by
  after_results_simp

theorem after_hostOps1_v73 (V : Valuation τ sig (Elt Ideal)) :
    StableHlo.after hostOps1 V (Proc.devRef .tc main_v73)
      = (truncf .bf16 (V (Proc.devRef .tc main_arg24) : FVec Ideal S256x128 .f32) bitsLt_bf16_f32 : FVec Ideal S256x128 .bf16) := by
  after_results_simp

theorem after_hostOps1_v74 (V : Valuation τ sig (Elt Ideal)) :
    StableHlo.after hostOps1 V (Proc.devRef .tc main_v74)
      = (truncf .bf16 (V (Proc.devRef .tc main_arg26) : FVec Ideal S128x128 .f32) bitsLt_bf16_f32 : FVec Ideal S128x128 .bf16) := by
  after_results_simp

/-! ### The arrays no operation of the stretch writes -/

theorem after_hostOps1_main_v38 (V : Valuation τ sig (Elt Ideal)) :
    StableHlo.after hostOps1 V (Proc.devRef .tc main_v38) = V (Proc.devRef .tc main_v38) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

theorem after_hostOps1_main_arg17 (V : Valuation τ sig (Elt Ideal)) :
    StableHlo.after hostOps1 V (Proc.devRef .tc main_arg17) = V (Proc.devRef .tc main_arg17) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

theorem after_hostOps1_main_arg19 (V : Valuation τ sig (Elt Ideal)) :
    StableHlo.after hostOps1 V (Proc.devRef .tc main_arg19) = V (Proc.devRef .tc main_arg19) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

theorem after_hostOps1_main_arg21 (V : Valuation τ sig (Elt Ideal)) :
    StableHlo.after hostOps1 V (Proc.devRef .tc main_arg21) = V (Proc.devRef .tc main_arg21) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

theorem after_hostOps1_main_arg23 (V : Valuation τ sig (Elt Ideal)) :
    StableHlo.after hostOps1 V (Proc.devRef .tc main_arg23) = V (Proc.devRef .tc main_arg23) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

theorem after_hostOps1_main_arg25 (V : Valuation τ sig (Elt Ideal)) :
    StableHlo.after hostOps1 V (Proc.devRef .tc main_arg25) = V (Proc.devRef .tc main_arg25) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

theorem after_hostOps1_main_arg27 (V : Valuation τ sig (Elt Ideal)) :
    StableHlo.after hostOps1 V (Proc.devRef .tc main_arg27) = V (Proc.devRef .tc main_arg27) :=
  StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))

/-! ## At the first region's exit: the arguments as launched, the region's output as its write-backs leave it -/

theorem W2_main_arg1 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg1) := rfl

theorem W2_main_arg2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg2) := rfl

theorem W2_main_arg16 : W2 m ρ c (Proc.devRef .tc main_arg16) = m ((c : Thread nD τ).loc main_arg16) :=
  calc W2 m ρ c (Proc.devRef .tc main_arg16)
    _ = W1 m ρ c (Proc.devRef .tc main_arg16) := W2_of_ne m ρ c main_arg16 (by decide)
    _ = W0 m ρ c (Proc.devRef .tc main_arg16) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg16) := rfl

theorem W2_main_arg18 : W2 m ρ c (Proc.devRef .tc main_arg18) = m ((c : Thread nD τ).loc main_arg18) :=
  calc W2 m ρ c (Proc.devRef .tc main_arg18)
    _ = W1 m ρ c (Proc.devRef .tc main_arg18) := W2_of_ne m ρ c main_arg18 (by decide)
    _ = W0 m ρ c (Proc.devRef .tc main_arg18) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg18) := rfl

theorem W2_main_arg20 : W2 m ρ c (Proc.devRef .tc main_arg20) = m ((c : Thread nD τ).loc main_arg20) :=
  calc W2 m ρ c (Proc.devRef .tc main_arg20)
    _ = W1 m ρ c (Proc.devRef .tc main_arg20) := W2_of_ne m ρ c main_arg20 (by decide)
    _ = W0 m ρ c (Proc.devRef .tc main_arg20) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg20) := rfl

theorem W2_main_arg22 : W2 m ρ c (Proc.devRef .tc main_arg22) = m ((c : Thread nD τ).loc main_arg22) :=
  calc W2 m ρ c (Proc.devRef .tc main_arg22)
    _ = W1 m ρ c (Proc.devRef .tc main_arg22) := W2_of_ne m ρ c main_arg22 (by decide)
    _ = W0 m ρ c (Proc.devRef .tc main_arg22) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg22) := rfl

theorem W2_main_arg24 : W2 m ρ c (Proc.devRef .tc main_arg24) = m ((c : Thread nD τ).loc main_arg24) :=
  calc W2 m ρ c (Proc.devRef .tc main_arg24)
    _ = W1 m ρ c (Proc.devRef .tc main_arg24) := W2_of_ne m ρ c main_arg24 (by decide)
    _ = W0 m ρ c (Proc.devRef .tc main_arg24) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg24) := rfl

theorem W2_main_arg26 : W2 m ρ c (Proc.devRef .tc main_arg26) = m ((c : Thread nD τ).loc main_arg26) :=
  calc W2 m ρ c (Proc.devRef .tc main_arg26)
    _ = W1 m ρ c (Proc.devRef .tc main_arg26) := W2_of_ne m ρ c main_arg26 (by decide)
    _ = W0 m ρ c (Proc.devRef .tc main_arg26) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg26) := rfl

theorem W2_main_arg17 : W2 m ρ c (Proc.devRef .tc main_arg17) = m ((c : Thread nD τ).loc main_arg17) :=
  calc W2 m ρ c (Proc.devRef .tc main_arg17)
    _ = W1 m ρ c (Proc.devRef .tc main_arg17) := W2_of_ne m ρ c main_arg17 (by decide)
    _ = W0 m ρ c (Proc.devRef .tc main_arg17) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg17) := rfl

theorem W2_main_arg19 : W2 m ρ c (Proc.devRef .tc main_arg19) = m ((c : Thread nD τ).loc main_arg19) :=
  calc W2 m ρ c (Proc.devRef .tc main_arg19)
    _ = W1 m ρ c (Proc.devRef .tc main_arg19) := W2_of_ne m ρ c main_arg19 (by decide)
    _ = W0 m ρ c (Proc.devRef .tc main_arg19) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg19) := rfl

theorem W2_main_arg21 : W2 m ρ c (Proc.devRef .tc main_arg21) = m ((c : Thread nD τ).loc main_arg21) :=
  calc W2 m ρ c (Proc.devRef .tc main_arg21)
    _ = W1 m ρ c (Proc.devRef .tc main_arg21) := W2_of_ne m ρ c main_arg21 (by decide)
    _ = W0 m ρ c (Proc.devRef .tc main_arg21) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg21) := rfl

theorem W2_main_arg23 : W2 m ρ c (Proc.devRef .tc main_arg23) = m ((c : Thread nD τ).loc main_arg23) :=
  calc W2 m ρ c (Proc.devRef .tc main_arg23)
    _ = W1 m ρ c (Proc.devRef .tc main_arg23) := W2_of_ne m ρ c main_arg23 (by decide)
    _ = W0 m ρ c (Proc.devRef .tc main_arg23) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg23) := rfl

theorem W2_main_arg25 : W2 m ρ c (Proc.devRef .tc main_arg25) = m ((c : Thread nD τ).loc main_arg25) :=
  calc W2 m ρ c (Proc.devRef .tc main_arg25)
    _ = W1 m ρ c (Proc.devRef .tc main_arg25) := W2_of_ne m ρ c main_arg25 (by decide)
    _ = W0 m ρ c (Proc.devRef .tc main_arg25) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg25) := rfl

theorem W2_main_arg27 : W2 m ρ c (Proc.devRef .tc main_arg27) = m ((c : Thread nD τ).loc main_arg27) :=
  calc W2 m ρ c (Proc.devRef .tc main_arg27)
    _ = W1 m ρ c (Proc.devRef .tc main_arg27) := W2_of_ne m ρ c main_arg27 (by decide)
    _ = W0 m ρ c (Proc.devRef .tc main_arg27) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg27) := rfl

theorem W2_main_arg28 : W2 m ρ c (Proc.devRef .tc main_arg28) = m ((c : Thread nD τ).loc main_arg28) :=
  calc W2 m ρ c (Proc.devRef .tc main_arg28)
    _ = W1 m ρ c (Proc.devRef .tc main_arg28) := W2_of_ne m ρ c main_arg28 (by decide)
    _ = W0 m ρ c (Proc.devRef .tc main_arg28) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg28) := rfl

/-- The first kernel region's output array, at its exit, is what the pipeline's write-backs leave. -/
theorem W2_main_v38 : W2 m ρ c (Proc.devRef .tc main_v38) = (dat0 (V1 m ρ) c).arrAt 15 cfg0.N :=
  W2_arr m ρ c 15

/-! ## What the second kernel region finds: sixteen arrays, from the launch contents and the first region's output -/

/-- The first region's output, untouched by the host operations in between. -/
theorem V3_main_v38 : V3 m ρ c main_v38 = (dat0 (V1 m ρ) c).arrAt 15 cfg0.N :=
  (after_hostOps1_main_v38 (W2 m ρ c)).trans (W2_main_v38 m ρ c)

/-- The neighbourhood sum of the first region's output over the first edge set. -/
theorem V3_main_v53 : V3 m ρ c main_v53 = aggK128 ((dat0 (V1 m ρ) c).arrAt 15 cfg0.N) (m ((c : Thread nD τ).loc main_arg1)) := by
  show StableHlo.after hostOps1 (W2 m ρ c) (Proc.devRef .tc main_v53) = _
  rw [after_hostOps1_v53, W2_main_v38, W2_main_arg1]

/-- The neighbourhood sum of the first region's output over the second edge set. -/
theorem V3_main_v68 : V3 m ρ c main_v68 = aggK128 ((dat0 (V1 m ρ) c).arrAt 15 cfg0.N) (m ((c : Thread nD τ).loc main_arg2)) := by
  show StableHlo.after hostOps1 (W2 m ρ c) (Proc.devRef .tc main_v68) = _
  rw [after_hostOps1_v68, W2_main_v38, W2_main_arg2]

/-- The launched weight matrix of argument 16, rounded to the narrow format. -/
theorem V3_main_v69 : V3 m ρ c main_v69 = (truncf .bf16 (m ((c : Thread nD τ).loc main_arg16) : FVec Ideal S128x128 .f32) bitsLt_bf16_f32 : FVec Ideal S128x128 .bf16) := by
  show StableHlo.after hostOps1 (W2 m ρ c) (Proc.devRef .tc main_v69) = _
  rw [after_hostOps1_v69, W2_main_arg16]

/-- The launched weight matrix of argument 18, rounded to the narrow format. -/
theorem V3_main_v70 : V3 m ρ c main_v70 = (truncf .bf16 (m ((c : Thread nD τ).loc main_arg18) : FVec Ideal S128x128 .f32) bitsLt_bf16_f32 : FVec Ideal S128x128 .bf16) := by
  show StableHlo.after hostOps1 (W2 m ρ c) (Proc.devRef .tc main_v70) = _
  rw [after_hostOps1_v70, W2_main_arg18]

/-- The launched weight matrix of argument 20, rounded to the narrow format. -/
theorem V3_main_v71 : V3 m ρ c main_v71 = (truncf .bf16 (m ((c : Thread nD τ).loc main_arg20) : FVec Ideal S128x128 .f32) bitsLt_bf16_f32 : FVec Ideal S128x128 .bf16) := by
  show StableHlo.after hostOps1 (W2 m ρ c) (Proc.devRef .tc main_v71) = _
  rw [after_hostOps1_v71, W2_main_arg20]

/-- The launched weight matrix of argument 22, rounded to the narrow format. -/
theorem V3_main_v72 : V3 m ρ c main_v72 = (truncf .bf16 (m ((c : Thread nD τ).loc main_arg22) : FVec Ideal S128x128 .f32) bitsLt_bf16_f32 : FVec Ideal S128x128 .bf16) := by
  show StableHlo.after hostOps1 (W2 m ρ c) (Proc.devRef .tc main_v72) = _
  rw [after_hostOps1_v72, W2_main_arg22]

/-- The launched weight matrix of argument 24, rounded to the narrow format. -/
theorem V3_main_v73 : V3 m ρ c main_v73 = (truncf .bf16 (m ((c : Thread nD τ).loc main_arg24) : FVec Ideal S256x128 .f32) bitsLt_bf16_f32 : FVec Ideal S256x128 .bf16) := by
  show StableHlo.after hostOps1 (W2 m ρ c) (Proc.devRef .tc main_v73) = _
  rw [after_hostOps1_v73, W2_main_arg24]

/-- The launched weight matrix of argument 26, rounded to the narrow format. -/
theorem V3_main_v74 : V3 m ρ c main_v74 = (truncf .bf16 (m ((c : Thread nD τ).loc main_arg26) : FVec Ideal S128x128 .f32) bitsLt_bf16_f32 : FVec Ideal S128x128 .bf16) := by
  show StableHlo.after hostOps1 (W2 m ρ c) (Proc.devRef .tc main_v74) = _
  rw [after_hostOps1_v74, W2_main_arg26]

/-- The bias vector of argument 17 as launched. -/
theorem V3_main_arg17 : V3 m ρ c main_arg17 = m ((c : Thread nD τ).loc main_arg17) :=
  (after_hostOps1_main_arg17 (W2 m ρ c)).trans (W2_main_arg17 m ρ c)

/-- The bias vector of argument 19 as launched. -/
theorem V3_main_arg19 : V3 m ρ c main_arg19 = m ((c : Thread nD τ).loc main_arg19) :=
  (after_hostOps1_main_arg19 (W2 m ρ c)).trans (W2_main_arg19 m ρ c)

/-- The bias vector of argument 21 as launched. -/
theorem V3_main_arg21 : V3 m ρ c main_arg21 = m ((c : Thread nD τ).loc main_arg21) :=
  (after_hostOps1_main_arg21 (W2 m ρ c)).trans (W2_main_arg21 m ρ c)

/-- The bias vector of argument 23 as launched. -/
theorem V3_main_arg23 : V3 m ρ c main_arg23 = m ((c : Thread nD τ).loc main_arg23) :=
  (after_hostOps1_main_arg23 (W2 m ρ c)).trans (W2_main_arg23 m ρ c)

/-- The bias vector of argument 25 as launched. -/
theorem V3_main_arg25 : V3 m ρ c main_arg25 = m ((c : Thread nD τ).loc main_arg25) :=
  (after_hostOps1_main_arg25 (W2 m ρ c)).trans (W2_main_arg25 m ρ c)

/-- The bias vector of argument 27 as launched. -/
theorem V3_main_arg27 : V3 m ρ c main_arg27 = m ((c : Thread nD τ).loc main_arg27) :=
  (after_hostOps1_main_arg27 (W2 m ρ c)).trans (W2_main_arg27 m ρ c)

/-- The head's launched weight column laid out as a row. -/
theorem V3_main_v75 : V3 m ρ c main_v75 = (shapeCast S1x128 (m ((c : Thread nD τ).loc main_arg28) : FVec Ideal S128x1 .f32) shapeCasts_S128x1_S1x128 : FVec Ideal S1x128 .f32) := by
  show StableHlo.after hostOps1 (W2 m ρ c) (Proc.devRef .tc main_v75) = _
  rw [after_hostOps1_v75, W2_main_arg28]

end Cert.GinKernel

end
-- ==== Proof.KernelHost2.lean ====
/-
  The kernel program's last stretch of host operations, over the extended reals.

  After the second kernel region the program adds the nodes' scores up graph by graph (a scatter-add of the
  region's output column at the graph numbers into a zero column), adds the bias and drops the unit axis. The
  result buffer at the program's return is that term of three arrays: the graph numbers and the bias as launched
  (no operation and no region writes an argument), and the second region's output as its write-backs leave it.
-/
import proofs.«158497_j67508295958860_2_alg».proof.Proof.Gen.KernelIdeal.Frame
import Idealize.ShloMosaic.PureOps.Ideal
import Idealize.ShloMosaic.Lib.StableHlo.Run

noncomputable section

namespace Cert.GinKernel

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- No host operation and no kernel region writes this argument before the last stretch: it still holds its launch contents. -/
theorem W4_main_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg3) := rfl

/-- No host operation and no kernel region writes this argument before the last stretch: it still holds its launch contents. -/
theorem W4_main_arg29 : W4 m ρ c (Proc.devRef .tc main_arg29) = m ((c : Thread nD τ).loc main_arg29) :=
  calc W4 m ρ c (Proc.devRef .tc main_arg29)
    _ = W3 m ρ c (Proc.devRef .tc main_arg29) := W4_of_ne m ρ c main_arg29 (by decide)
    _ = W2 m ρ c (Proc.devRef .tc main_arg29) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = W1 m ρ c (Proc.devRef .tc main_arg29) := W2_of_ne m ρ c main_arg29 (by decide)
    _ = W0 m ρ c (Proc.devRef .tc main_arg29) := StableHlo.after_of_forall_not_mem _ _ (List.forall_iff_forall_mem.mp (by
      simp only [hostOps0, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
    _ = m ((c : Thread nD τ).loc main_arg29) := rfl

/-- The last stretch of host operations at any entry contents `V`: the column found at the second kernel region's
    output is added up graph by graph into a zero column, the bias is added, and the unit axis is dropped. -/
theorem after_hostOps2_v83 (V : Valuation τ sig (Elt Ideal)) :
    StableHlo.after hostOps2 V (Proc.devRef .tc main_v83)
      = shapeCast S128
          (addf
            (Host.scatterAdd scatter_S128x1_S100000x1_S100000x1_1_0_0_1
              (broadcastInDim S128x1 ![] bcast_S_S128x1 (constant (F := Ideal) S_ .f32 0x00000000#32))
              (broadcastInDim S100000x1 ![0] bcast_S100000_S100000x1_0 (V (Proc.devRef .tc main_arg3)))
              (V (Proc.devRef .tc main_v76)))
            (broadcastInDim S128x1 ![0, 1] bcast_S1x1_S128x1_0_1
              (broadcastInDim S1x1 ![1] bcast_S1_S1x1_1 (V (Proc.devRef .tc main_arg29)))))
          shapeCasts_S128x1_S128 := by
  after_results
  rfl

/-- The second kernel region's output array, at its exit, is what the pipeline's write-backs leave. -/
theorem W4_main_v76 : W4 m ρ c (Proc.devRef .tc main_v76) = (dat1 (V3 m ρ) c).arrAt 16 cfg1.N :=
  W4_arr m ρ c 16

/-- The pooled output of the whole program, from the launch contents of the graph numbers and the bias and the
    second kernel region's output column. -/
theorem host_out :
    W5 m ρ c (Proc.devRef .tc main_v83)
      = shapeCast S128
          (addf
            (Host.scatterAdd scatter_S128x1_S100000x1_S100000x1_1_0_0_1
              (broadcastInDim S128x1 ![] bcast_S_S128x1 (constant (F := Ideal) S_ .f32 0x00000000#32))
              (broadcastInDim S100000x1 ![0] bcast_S100000_S100000x1_0 (m ((c : Thread nD τ).loc main_arg3)))
              ((dat1 (V3 m ρ) c).arrAt 16 cfg1.N))
            (broadcastInDim S128x1 ![0, 1] bcast_S1x1_S128x1_0_1
              (broadcastInDim S1x1 ![1] bcast_S1_S1x1_1 (m ((c : Thread nD τ).loc main_arg29)))))
          shapeCasts_S128x1_S128 := by
  show StableHlo.after hostOps2 (W4 m ρ c) (Proc.devRef .tc main_v83) = _
  rw [after_hostOps2_v83, W4_main_arg3, W4_main_arg29, W4_main_v76]

end Cert.GinKernel

end
-- ==== Proof.LibRowGatherScatter.lean ====
/-
  Rows of a table gathered and scatter-added along an edge list, read at one entry.

  A table [N, C] indexed by a column [E, 1] of integer row numbers:
  * the gather of whole rows (x[idx]): entry (e, q) of the result is the table at row idx[e] — read as a
    signed integer and clamped into [0, N-1] — and column q;
  * the accumulating scatter of whole rows at the extended reals (segment_sum): entry (n, q) of the result
    is the operand's plus the sum, over the edges e whose row number read as a signed integer is exactly n,
    of the update at (e, q); an edge whose number is outside [0, N) adds nothing.
  In both the column is carried through untouched, so the operations act on each column of the table by itself,
  whatever the number C of columns: this is what lets one wide table stand for two narrow ones side by side.
-/
import Idealize.ShloMosaic.Lib.ValueIdx
import Idealize.ShloMosaic.PureOps.Ideal.Laws

noncomputable section

open scoped BigOperators

namespace Idealize.ShloMosaic.RowOps

open Idealize.ShloMosaic Idealize.ShloMosaic.ValueIdx

/-! ## The gather of whole rows -/

section Gather
variable {α : Type}

/-- The dimension numbers of x[idx] for a table [N, C] and row numbers [E, 1]: the row axis is collapsed and
    addressed by the one component of the start index, the column axis is the offset axis, slices are 1 × C. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row edge e reads: its row number as a signed integer, clamped into [0, N-1]. -/
def gatherRow {N E w : Nat} (hN : 0 < N) (idx : IVec ⟨2, ![E, 1]⟩ w) (e : Fin E) : Fin N :=
  ⟨min (idx (ix2 e (0 : Fin 1))).toInt.toNat (N - 1), by omega⟩

/-- THE GATHER AT (e, q): the table at edge e's row and the same column q. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (gatherRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    have ho : (rowGatherDims N E C wf).offCoord (ix2 e q) 1 = q.val := by
      unfold GatherDims.offCoord
      rw [dif_pos ((GatherDims.mem_sKept (rowGatherDims N E C wf) 1).mpr ⟨(by decide : (1 : Fin 2) ∉ ([0] : List (Fin 2))), List.not_mem_nil⟩)]
      rfl
    rw [hs, ho]; omega

end Gather

/-! ## The accumulating scatter of whole rows, at the extended reals -/

section Scatter

/-- The dimension numbers of segment_sum of rows [E, C] into a table [N, C] at row numbers [E, 1]: the row
    axis is inserted and addressed by the one component of the scatter index, the column axis is the window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (idx : IVec ⟨2, ![E, 1]⟩ w) (e : Fin E) (q' : Fin C) :
    (rowScatterDims N E C wf).start (ix2 e q') idx 1 = 0 := by
  unfold ScatterDims.start
  rw [dif_neg (show ¬ (1 : Fin 2) ∈ ([0] : List (Fin 2)) by decide)]

theorem window_row (e : Fin E) (q' : Fin C) : (rowScatterDims N E C wf).window (ix2 e q') 0 = 0 := by
  unfold ScatterDims.window
  rw [dif_neg (show ¬ (0 : Fin 2) ∈ (rowScatterDims N E C wf).sKept by simp [ScatterDims.sKept, Shape.kept, List.mem_filter, List.mem_finRange])]

theorem window_col (e : Fin E) (q' : Fin C) : (rowScatterDims N E C wf).window (ix2 e q') 1 = q'.val := by
  unfold ScatterDims.window
  rw [dif_pos (show (1 : Fin 2) ∈ (rowScatterDims N E C wf).sKept by simp [ScatterDims.sKept, Shape.kept, List.mem_filter, List.mem_finRange])]
  rfl

/-- WHERE AN UPDATE LANDS: the update at (e, q') lands on (n, q) exactly when edge e's row number, read as a
    signed integer, is n, and the columns agree. -/
theorem resultIdx?_rows (idx : IVec ⟨2, ![E, 1]⟩ w) (e : Fin E) (q' : Fin C) (n : Fin N) (q : Fin C) :
    (rowScatterDims N E C wf).resultIdx? (ix2 e q') idx = some (ix2 n q)
      ↔ (idx (ix2 e (0 : Fin 1))).toInt = (n.val : ℤ) ∧ q' = q := by
  have h0 := start_row wf idx e q'
  have h1 := start_col wf idx e q'
  have w0 := window_row wf e q'
  have w1 := window_col wf e q'
  unfold ScatterDims.resultIdx?
  split
  · rename_i h
    rw [Option.some.injEq]
    constructor
    · intro hf
      have e0 := congrArg (fun f => (f 0).val) hf
      have e1 := congrArg (fun f => (f 1).val) hf
      have b0 := h 0
      rw [h0, w0] at b0
      have e0' : ((rowScatterDims N E C wf).start (ix2 e q') idx 0 + ((rowScatterDims N E C wf).window (ix2 e q') 0 : ℤ)).toNat = n.val := e0
      have e1' : ((rowScatterDims N E C wf).start (ix2 e q') idx 1 + ((rowScatterDims N E C wf).window (ix2 e q') 1 : ℤ)).toNat = q.val := e1
      rw [h0, w0] at e0'
      rw [h1, w1] at e1'
      refine ⟨by omega, Fin.ext (by omega)⟩
    · rintro ⟨hr, rfl⟩
      funext a; refine Fin.ext ?_
      match a with
      | ⟨0, _⟩ =>
        show ((rowScatterDims N E C wf).start (ix2 e q') idx 0 + ((rowScatterDims N E C wf).window (ix2 e q') 0 : ℤ)).toNat = n.val
        rw [h0, w0]; omega
      | ⟨1, _⟩ =>
        show ((rowScatterDims N E C wf).start (ix2 e q') idx 1 + ((rowScatterDims N E C wf).window (ix2 e q') 1 : ℤ)).toNat = q'.val
        rw [h1, w1]; omega
  · rename_i h
    constructor
    · intro hf; exact absurd hf (by simp)
    · rintro ⟨hr, rfl⟩
      exfalso; apply h
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < (N : ℤ)
        rw [h0, w0]; have := n.isLt; omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < (C : ℤ)
        rw [h1, w1]; have := q'.isLt; omega

/-- THE ACCUMULATING SCATTER AT (n, q), over the extended reals: the operand's entry plus the sum, over the edges
    whose row number is n, of the update's entry in the same column. -/
theorem scatterAdd_rows_apply {φ : FTy} (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := φ) (rowScatterDims N E C wf) x idx upd (ix2 n q)
      = x (ix2 n q) + ∑ e ∈ Finset.univ.filter (fun e : Fin E => (idx (ix2 e (0 : Fin 1))).toInt = (n.val : ℤ)), upd (ix2 e q) := by
  show x (ix2 n q) + ∑ j ∈ Finset.univ.filter (fun j => (rowScatterDims N E C wf).resultIdx? j idx = some (ix2 n q)), upd j = _
  congr 1
  rw [Finset.sum_filter, sum_idx2, Finset.sum_filter]
  refine Finset.sum_congr rfl fun e _ => ?_
  simp only [resultIdx?_rows wf idx e _ n q]
  by_cases he : (idx (ix2 e (0 : Fin 1))).toInt = (n.val : ℤ)
  · simp only [he, true_and, if_true]
    rw [Finset.sum_ite_eq' Finset.univ q (fun b => upd (ix2 e b))]
    simp
  · simp only [he, false_and, if_false]
    exact Finset.sum_const_zero

end Scatter

end Idealize.ShloMosaic.RowOps

end
-- ==== Proof.KernelTail.lean ====
/-
  The pooling tail of the kernel program, read at one index over the extended reals.

  The per-node scores, a [100000, 1] column, are summed per graph: a scatter with addition into a [128, 1] column
  of zeros, at the row numbers the [100000, 1] column of graph numbers gives. Entry (g, 0) of the result is the
  zero plus the sum of the scores of the nodes whose graph number, read as a signed integer, is g. One bias
  scalar, a [1] vector viewed [1, 1] and broadcast to [128, 1], is added to every entry, and the column is re-laid
  as a [128] vector: its entry g is the column's entry (g, 0). The head's weight column [128, 1], re-laid as a row
  [1, 128], reads at (0, k) the column's entry (k, 0).
-/
import proofs.«158497_j67508295958860_2_alg».proof.Proof.Gen.KernelIdeal
import proofs.«158497_j67508295958860_2_alg».proof.Proof.Spec
import proofs.«158497_j67508295958860_2_alg».proof.Proof.LibRowGatherScatter
import Idealize.ShloMosaic.Lib.ValueLayout
import Idealize.ShloMosaic.Lib.Pipeline.Value

noncomputable section

namespace Cert.GinKernel

open Cert.KernelIdeal Cert.KernelIdeal.Facts₀ Cert.Gin Idealize.ShloMosaic Idealize.ShloMosaic.ValueIdx

/-- A [128, 1] column re-laid as a [128] vector reads, at g, the column's entry (g, 0). -/
theorem column_as_vector {α : Type} (x : S128x1.Idx → α) (g : Fin 128) :
    shapeCast S128 x shapeCasts_S128x1_S128 (ix1 g) = x (ix2 g (0 : Fin 1)) :=
  shapeCast_apply x shapeCasts_S128x1_S128 _ _ (by
    rw [Shape.rowMajor_val_two, Shape.rowMajor_val_one]
    show g.val * 1 + 0 = g.val
    rw [Nat.mul_one, Nat.add_zero])

/-- The bias scalar viewed [1, 1] and broadcast to [128, 1] is the scalar at every entry. -/
theorem bias_column {α : Type} (b : S1.Idx → α) (i : S128x1.Idx) :
    broadcastInDim S128x1 ![0, 1] bcast_S1x1_S128x1_0_1 (broadcastInDim S1x1 ![1] bcast_S1_S1x1_1 b) i = b (ix1 (0 : Fin 1)) := by
  rw [broadcastInDim_apply ![0, 1] bcast_S1x1_S128x1_0_1 _ i (ix2 (0 : Fin 1) (0 : Fin 1)) (fun a => by
        match a with
        | ⟨0, _⟩ => show (0 : ℕ) = if (1 : ℕ) = 1 then 0 else (i 0).val; rw [if_pos rfl]
        | ⟨1, _⟩ => show (0 : ℕ) = if (1 : ℕ) = 1 then 0 else (i 1).val; rw [if_pos rfl]),
      broadcastInDim_apply ![1] bcast_S1_S1x1_1 b (ix2 (0 : Fin 1) (0 : Fin 1)) (ix1 (0 : Fin 1)) (fun a => by
        match a with
        | ⟨0, _⟩ => show (0 : ℕ) = if (1 : ℕ) = 1 then 0 else 0; rw [if_pos rfl])]

/-- Entry g of the pooled vector: the zero, plus the scores of the nodes of graph g, plus the bias scalar. -/
theorem tail_read (P : FVec Ideal S100000x1 .f32) (idxB : IVec S100000x1 32) (b29 : FVec Ideal S1 .f32) (g : Fin 128) :
    shapeCast S128 (addf (Host.scatterAdd (F := Ideal) scatter_S128x1_S100000x1_S100000x1_1_0_0_1
          (broadcastInDim S128x1 ![] bcast_S_S128x1 (constant (F := Ideal) S_ .f32 0x00000000#32)) idxB P)
        (broadcastInDim S128x1 ![0, 1] bcast_S1x1_S128x1_0_1 (broadcastInDim S1x1 ![1] bcast_S1_S1x1_1 b29)))
      shapeCasts_S128x1_S128 (ix1 g)
      = (z0 + ∑ n ∈ Finset.univ.filter (fun n : Fin 100000 => (idxB (ix2 n (0 : Fin 1))).toInt = (g.val : ℤ)), P (ix2 n (0 : Fin 1)))
        + b29 (ix1 (0 : Fin 1)) := by
  rw [column_as_vector]
  show Host.scatterAdd (F := Ideal) scatter_S128x1_S100000x1_S100000x1_1_0_0_1
        (broadcastInDim S128x1 ![] bcast_S_S128x1 (constant (F := Ideal) S_ .f32 0x00000000#32)) idxB P (ix2 g (0 : Fin 1))
      + broadcastInDim S128x1 ![0, 1] bcast_S1x1_S128x1_0_1 (broadcastInDim S1x1 ![1] bcast_S1_S1x1_1 b29) (ix2 g (0 : Fin 1)) = _
  rw [bias_column]
  refine congrArg (· + b29 (ix1 (0 : Fin 1))) ?_
  exact RowOps.scatterAdd_rows_apply (φ := .f32) scatter_S128x1_S100000x1_S100000x1_1_0_0_1.wf
    (broadcastInDim S128x1 ![] bcast_S_S128x1 (constant (F := Ideal) S_ .f32 0x00000000#32)) idxB P g (0 : Fin 1)

/-- The head's weight column [128, 1] re-laid as a row [1, 128] reads, at (0, k), the column's entry (k, 0). -/
theorem headRow_read (a28 : FVec Ideal S128x1 .f32) (k : Fin 128) :
    shapeCast S1x128 a28 shapeCasts_S128x1_S1x128 (ix2 (0 : Fin 1) k) = a28 (ix2 k (0 : Fin 1)) :=
  shapeCast_apply a28 shapeCasts_S128x1_S1x128 _ _ (by
    rw [Shape.rowMajor_val_two, Shape.rowMajor_val_two]
    show k.val * 1 + 0 = 0 * 128 + k.val
    omega)

end Cert.GinKernel

end
-- ==== Proof.KernelValue1.lean ====
/-
  The kernel program's result in terms of the launch memory. The second kernel finds the first layer's output, its two
  neighbourhood sums (computed by the host operations between the kernels), the second layer's weights and the head's
  weight column laid out as a row; its output column is every node's score. The host operations after it pool the
  scores over the graphs (a scatter-add at the graph numbers) and add the bias. So entry g of the result is
  0 + (the sum of the scores of the nodes of graph g) + bias, a function of the program's arguments alone.
-/
import proofs.«158497_j67508295958860_2_alg».proof.Proof.KernelBlocks1
import proofs.«158497_j67508295958860_2_alg».proof.Proof.KernelValue0
import proofs.«158497_j67508295958860_2_alg».proof.Proof.KernelHost1
import proofs.«158497_j67508295958860_2_alg».proof.Proof.KernelHost2
import proofs.«158497_j67508295958860_2_alg».proof.Proof.KernelTail

set_option maxRecDepth 16384

noncomputable section

namespace Cert.GinKernel

open Cert.KernelIdeal Cert.KernelIdeal.Gen Cert.RowLayers Cert.Gin
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Every node's score, from the program's arguments as the kernel program computes it. -/
def scoreK : Mat 100000 1 :=
  nodeScore h256 z0 (LayerW.ofArrays (truncf .bf16 ((m ((c : Thread nD τ).loc main_arg16)) : FVec Ideal S128x128 .f32) bitsLt_bf16_f32 : FVec Ideal S128x128 .bf16) (m ((c : Thread nD τ).loc main_arg17)) (truncf .bf16 ((m ((c : Thread nD τ).loc main_arg18)) : FVec Ideal S128x128 .f32) bitsLt_bf16_f32 : FVec Ideal S128x128 .bf16) (m ((c : Thread nD τ).loc main_arg19)) (truncf .bf16 ((m ((c : Thread nD τ).loc main_arg20)) : FVec Ideal S128x128 .f32) bitsLt_bf16_f32 : FVec Ideal S128x128 .bf16) (m ((c : Thread nD τ).loc main_arg21)) (truncf .bf16 ((m ((c : Thread nD τ).loc main_arg22)) : FVec Ideal S128x128 .f32) bitsLt_bf16_f32 : FVec Ideal S128x128 .bf16) (m ((c : Thread nD τ).loc main_arg23)) (truncf .bf16 ((m ((c : Thread nD τ).loc main_arg24)) : FVec Ideal S256x128 .f32) bitsLt_bf16_f32 : FVec Ideal S256x128 .bf16) (m ((c : Thread nD τ).loc main_arg25)) (truncf .bf16 ((m ((c : Thread nD τ).loc main_arg26)) : FVec Ideal S128x128 .f32) bitsLt_bf16_f32 : FVec Ideal S128x128 .bf16) (m ((c : Thread nD τ).loc main_arg27)))
    (shapeCast S1x128 ((m ((c : Thread nD τ).loc main_arg28)) : FVec Ideal S128x1 .f32) shapeCasts_S128x1_S1x128 : FVec Ideal S1x128 .f32)
    (layer1K m c) (aggK128 (layer1K m c) (m ((c : Thread nD τ).loc main_arg1))) (aggK128 (layer1K m c) (m ((c : Thread nD τ).loc main_arg2)))

set_option maxHeartbeats 1600000 in
/-- What the second kernel leaves in its output column. -/
theorem score_arr : (dat1 (F := Ideal) (V3 m ρ) c).arrAt 16 cfg1.N = scoreK m c := by
  rw [final1 (V3 m ρ) c]
  show nodeScore h256 z0 (LayerW.ofArrays (V3 m ρ c main_v69) (V3 m ρ c main_arg17) (V3 m ρ c main_v70) (V3 m ρ c main_arg19) (V3 m ρ c main_v71) (V3 m ρ c main_arg21) (V3 m ρ c main_v72) (V3 m ρ c main_arg23) (V3 m ρ c main_v73) (V3 m ρ c main_arg25) (V3 m ρ c main_v74) (V3 m ρ c main_arg27)) (V3 m ρ c main_v75) (V3 m ρ c main_v38) (V3 m ρ c main_v53) (V3 m ρ c main_v68) = _
  rw [V3_main_v69 m ρ c, V3_main_arg17 m ρ c, V3_main_v70 m ρ c, V3_main_arg19 m ρ c, V3_main_v71 m ρ c, V3_main_arg21 m ρ c, V3_main_v72 m ρ c,
    V3_main_arg23 m ρ c, V3_main_v73 m ρ c, V3_main_arg25 m ρ c, V3_main_v74 m ρ c, V3_main_arg27 m ρ c, V3_main_v75 m ρ c, V3_main_v38 m ρ c,
    V3_main_v53 m ρ c, V3_main_v68 m ρ c, layer1_arr m ρ c]
  rfl

/-- THE RESULT of the kernel program at graph `g`: zero plus the scores of the graph's nodes, plus the bias. -/
theorem out_read (g : Fin 128) :
    W5 m ρ c (Proc.devRef .tc main_v83) (ix1 g)
      = (z0 + ∑ n ∈ Finset.univ.filter (fun n : Fin 100000 =>
            ((broadcastInDim S100000x1 ![0] bcast_S100000_S100000x1_0 (m ((c : Thread nD τ).loc main_arg3)) : IVec S100000x1 32) (ix2 n (0 : Fin 1))).toInt = (g.val : ℤ)),
          scoreK m c (ix2 n (0 : Fin 1))) + (m ((c : Thread nD τ).loc main_arg29)) (ix1 (0 : Fin 1)) := by
  rw [host_out m ρ c, score_arr m ρ c]
  exact tail_read _ _ _ g

end Cert.GinKernel

end
-- ==== Proof.RefOut.lean ====
/-
  The reference network's pooled output, read one graph at a time, over the extended reals.

  After the second layer the reference adds the rows of each graph into a `[128, 128]` table (a scatter-add of
  the nodes' rows at their graph numbers into zeros), multiplies the table by a weight column, adds a bias and
  drops the unit axis. Entry `g` of the result is therefore the scalar product of (zero plus the sum of the rows
  of the nodes of graph `g`) with the weight column, plus the bias.
-/
import proofs.«158497_j67508295958860_2_alg».proof.Proof.Gen.ReferenceIdeal.Read
import proofs.«158497_j67508295958860_2_alg».proof.Proof.Spec
import proofs.«158497_j67508295958860_2_alg».proof.Proof.LibRowLayers
import proofs.«158497_j67508295958860_2_alg».proof.Proof.LibRowExtras
import proofs.«158497_j67508295958860_2_alg».proof.Proof.LibRowGatherScatter

noncomputable section

namespace Cert.GinRef

open Cert.ReferenceIdeal Cert.ReferenceIdeal.Read Cert.RowLayers Cert.Gin Idealize.ShloMosaic Idealize.ShloMosaic.ValueIdx

/-- The `[128, 128] × [128, 1]` product sums over the shared axis of extent 128. -/
theorem rtc_out : RowsTimesCols dot_S128x128_S128x1_S128x1_1_0_0_1_n_n :=
  ⟨rfl, rfl, lhs_main_v121_0, lhs_main_v121_1, rhs_main_v121_0, rhs_main_v121_1⟩

/-- Entry `(g, k)` of the pooled table: zero plus the sum, over the nodes whose graph number is `g`, of entry `k`
    of the node's second-layer row. -/
theorem ref_pool (x0 : (⟨S100000x64, .f32⟩ : BufTy).Contents (Elt Ideal)) (x1 x2 : (⟨S2x1000000, .i32⟩ : BufTy).Contents (Elt Ideal))
    (x3 : (⟨S100000, .i32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S256x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal))
    (x16 : (⟨S128x128, .f32⟩ : BufTy).Contents (Elt Ideal)) (x17 : (⟨S128, .f32⟩ : BufTy).Contents (Elt Ideal))
    (x18 : (⟨S128x128, .f32⟩ : BufTy).Contents (Elt Ideal)) (x19 : (⟨S128, .f32⟩ : BufTy).Contents (Elt Ideal))
    (x20 : (⟨S128x128, .f32⟩ : BufTy).Contents (Elt Ideal)) (x21 : (⟨S128, .f32⟩ : BufTy).Contents (Elt Ideal))
    (x22 : (⟨S128x128, .f32⟩ : BufTy).Contents (Elt Ideal)) (x23 : (⟨S128, .f32⟩ : BufTy).Contents (Elt Ideal))
    (x24 : (⟨S256x128, .f32⟩ : BufTy).Contents (Elt Ideal)) (x25 : (⟨S128, .f32⟩ : BufTy).Contents (Elt Ideal))
    (x26 : (⟨S128x128, .f32⟩ : BufTy).Contents (Elt Ideal)) (x27 : (⟨S128, .f32⟩ : BufTy).Contents (Elt Ideal)) (g k : Fin 128) :
    val_main_v120 (F := Ideal) x0 x1 x2 x3 x4 x5 x6 x7 x8 x9 x10 x11 x12 x13 x14 x15 x16 x17 x18 x19 x20 x21 x22 x23 x24 x25 x26 x27 (ix2 g k)
      = z0 + ∑ n ∈ Finset.univ.filter (fun n : Fin 100000 =>
            ((val_main_v119 (F := Ideal) x3) (ix2 n (0 : Fin 1))).toInt = (g.val : ℤ)),
          (val_main_v117 (F := Ideal) x0 x1 x2 x4 x5 x6 x7 x8 x9 x10 x11 x12 x13 x14 x15 x16 x17 x18 x19 x20 x21 x22 x23 x24 x25 x26 x27) (ix2 n k) := by
  unfold val_main_v120
  exact RowOps.scatterAdd_rows_apply (φ := .f32) scatter_S128x128_S100000x1_S100000x128_1_0_0_1.wf
    (val_main_v118 (F := Ideal)) (val_main_v119 (F := Ideal) x3) (val_main_v117 (F := Ideal) x0 x1 x2 x4 x5 x6 x7 x8 x9 x10 x11 x12 x13 x14 x15 x16 x17 x18 x19 x20 x21 x22 x23 x24 x25 x26 x27) g k

/-- Entry `g` of the reference's result: the scalar product of graph `g`'s pooled row with the weight column, plus
    the bias. -/
theorem ref_out (x0 : (⟨S100000x64, .f32⟩ : BufTy).Contents (Elt Ideal)) (x1 x2 : (⟨S2x1000000, .i32⟩ : BufTy).Contents (Elt Ideal))
    (x3 : (⟨S100000, .i32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S256x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal))
    (x16 : (⟨S128x128, .f32⟩ : BufTy).Contents (Elt Ideal)) (x17 : (⟨S128, .f32⟩ : BufTy).Contents (Elt Ideal))
    (x18 : (⟨S128x128, .f32⟩ : BufTy).Contents (Elt Ideal)) (x19 : (⟨S128, .f32⟩ : BufTy).Contents (Elt Ideal))
    (x20 : (⟨S128x128, .f32⟩ : BufTy).Contents (Elt Ideal)) (x21 : (⟨S128, .f32⟩ : BufTy).Contents (Elt Ideal))
    (x22 : (⟨S128x128, .f32⟩ : BufTy).Contents (Elt Ideal)) (x23 : (⟨S128, .f32⟩ : BufTy).Contents (Elt Ideal))
    (x24 : (⟨S256x128, .f32⟩ : BufTy).Contents (Elt Ideal)) (x25 : (⟨S128, .f32⟩ : BufTy).Contents (Elt Ideal))
    (x26 : (⟨S128x128, .f32⟩ : BufTy).Contents (Elt Ideal)) (x27 : (⟨S128, .f32⟩ : BufTy).Contents (Elt Ideal))
    (x28 : (⟨S128x1, .f32⟩ : BufTy).Contents (Elt Ideal)) (x29 : (⟨S1, .f32⟩ : BufTy).Contents (Elt Ideal)) (g : Fin 128) :
    val_main_v125 (F := Ideal) x0 x1 x2 x3 x4 x5 x6 x7 x8 x9 x10 x11 x12 x13 x14 x15 x16 x17 x18 x19 x20 x21 x22 x23 x24 x25 x26 x27 x28 x29 (ix1 g)
      = (∑ k : Fin 128, (z0 + ∑ n ∈ Finset.univ.filter (fun n : Fin 100000 =>
            ((val_main_v119 (F := Ideal) x3) (ix2 n (0 : Fin 1))).toInt = (g.val : ℤ)),
          (val_main_v117 (F := Ideal) x0 x1 x2 x4 x5 x6 x7 x8 x9 x10 x11 x12 x13 x14 x15 x16 x17 x18 x19 x20 x21 x22 x23 x24 x25 x26 x27) (ix2 n k)) * x28 (ix2 k (0 : Fin 1)))
        + x29 (ix1 (0 : Fin 1)) := by
  have hi : idx_main_v125 (ix1 g) = ix2 g (0 : Fin 1) := funext fun a => Fin.ext (by
    match a with
    | ⟨0, _⟩ => exact Nat.div_one _
    | ⟨1, _⟩ => rfl)
  have hb : val_main_v123 (F := Ideal) x29 (ix2 g (0 : Fin 1)) = x29 (ix1 (0 : Fin 1)) := by
    rw [val_main_v123_apply, val_main_v122_apply]
    exact congrArg x29 (funext fun a => Fin.ext (by
      match a with
      | ⟨0, _⟩ => rfl))
  have hd : val_main_v121 (F := Ideal) x0 x1 x2 x3 x4 x5 x6 x7 x8 x9 x10 x11 x12 x13 x14 x15 x16 x17 x18 x19 x20 x21 x22 x23 x24 x25 x26 x27 x28 (ix2 g (0 : Fin 1))
      = ∑ k : Fin 128, val_main_v120 (F := Ideal) x0 x1 x2 x3 x4 x5 x6 x7 x8 x9 x10 x11 x12 x13 x14 x15 x16 x17 x18 x19 x20 x21 x22 x23 x24 x25 x26 x27 (ix2 g k) * x28 (ix2 k (0 : Fin 1)) := by
    unfold val_main_v121
    exact congrFun (rowOf_dotGeneral rtc_out none _ x28 g) (0 : Fin 1)
  rw [val_main_v125_apply, hi]
  show val_main_v121 (F := Ideal) x0 x1 x2 x3 x4 x5 x6 x7 x8 x9 x10 x11 x12 x13 x14 x15 x16 x17 x18 x19 x20 x21 x22 x23 x24 x25 x26 x27 x28 (ix2 g (0 : Fin 1)) + val_main_v123 (F := Ideal) x29 (ix2 g (0 : Fin 1)) = _
  rw [hd, hb]
  simp only [ref_pool]

end Cert.GinRef

end
-- ==== Proof.RefRows.lean ====
/-
  The reference network, read one node at a time, over the extended reals.

  The reference computes each layer on whole arrays: a sum of the feature table and a neighbourhood sum, a matrix
  product plus a bias row broadcast down the rows, a maximum with a zero array, a concatenation along the columns.
  Each of these treats every row alone, so row `r` of a layer's output is the layer's row function (`layerRow`,
  `layerRowR`) of row `r` of the feature table and of the two neighbourhood sums. The last part reads the pooled
  output: entry `g` is the scalar product of the sum of the rows of graph `g` with the weight column, plus the bias.
-/
import proofs.«158497_j67508295958860_2_alg».proof.Proof.Gen.ReferenceIdeal.Read
import proofs.«158497_j67508295958860_2_alg».proof.Proof.Spec
import proofs.«158497_j67508295958860_2_alg».proof.Proof.LibRowLayers
import proofs.«158497_j67508295958860_2_alg».proof.Proof.LibRowExtras
import proofs.«158497_j67508295958860_2_alg».proof.Proof.LibRowGatherScatter

noncomputable section

namespace Cert.GinRef

open Cert.ReferenceIdeal Cert.ReferenceIdeal.Read Cert.RowLayers Cert.Gin Idealize.ShloMosaic Idealize.ShloMosaic.ValueIdx

/-! ## The three matrix products contract rows with columns -/

/-- The `[100000, 64] × [64, 128]` product sums over the shared axis of extent 64. -/
theorem rtc_64_128 : RowsTimesCols dot_S100000x64_S64x128_S100000x128_1_0_0_1_n_n :=
  ⟨rfl, rfl, lhs_main_v15_0, lhs_main_v15_1, rhs_main_v15_0, rhs_main_v15_1⟩

/-- The `[100000, 128] × [128, 128]` product sums over the shared axis of extent 128. -/
theorem rtc_128_128 : RowsTimesCols dot_S100000x128_S128x128_S100000x128_1_0_0_1_n_n :=
  ⟨rfl, rfl, lhs_main_v20_0, lhs_main_v20_1, rhs_main_v20_0, rhs_main_v20_1⟩

/-- The `[100000, 256] × [256, 128]` product sums over the shared axis of extent 256. -/
theorem rtc_256_128 : RowsTimesCols dot_S100000x256_S256x128_S100000x128_1_0_0_1_n_n :=
  ⟨rfl, rfl, lhs_main_v49_0, lhs_main_v49_1, rhs_main_v49_0, rhs_main_v49_1⟩

/-! ## The first layer, on a row -/

/-- Row `r` of the first layer's output is the layer's row function of row `r` of the feature table and of the two
    neighbourhood sums: both branches apply dense, rectifier, dense to `x + a`, the results are set side by side and
    go through the merging perceptron. -/
theorem ref_layer1 (x0 : (⟨S100000x64, .f32⟩ : BufTy).Contents (Elt Ideal)) (x1 x2 : (⟨S2x1000000, .i32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S256x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal)) (r : Fin 100000) :
    rowOf (val_main_v57 (F := Ideal) x0 x1 x2 x4 x5 x6 x7 x8 x9 x10 x11 x12 x13 x14 x15) r
      = layerRow h256 z0 (LayerW.ofArrays x4 x5 x6 x7 x8 x9 x10 x11 x12 x13 x14 x15) (rowOf x0 r)
          (rowOf (val_main_v13 (F := Ideal) x0 x1) r) (rowOf (val_main_v37 (F := Ideal) x0 x2) r) := by
  unfold val_main_v57 val_main_v56 val_main_v55 val_main_v54 val_main_v53 val_main_call2_v0 val_main_call2_cst
    val_main_v52 val_main_v51 val_main_v50 val_main_v49 val_main_v48
    val_main_v47 val_main_v46 val_main_v45 val_main_v44 val_main_v43 val_main_call1_v0 val_main_call1_cst
    val_main_v42 val_main_v41 val_main_v40 val_main_v39 val_main_v38
    val_main_v23 val_main_v22 val_main_v21 val_main_v20 val_main_v19 val_main_call0_v0 val_main_call0_cst
    val_main_v18 val_main_v17 val_main_v16 val_main_v15 val_main_v14
  rw [rowOf_dense_host rtc_128_128, rowOf_maximumf_const, rowOf_dense_host rtc_256_128,
    rowOf_concat_cols _ _ _ h256,
    rowOf_dense_host rtc_128_128, rowOf_maximumf_const, rowOf_dense_host rtc_64_128, rowOf_addf,
    rowOf_dense_host rtc_128_128, rowOf_maximumf_const, rowOf_dense_host rtc_64_128, rowOf_addf]
  rfl

/-! ## The second layer, on a row -/

/-- Row `r` of the second layer's output is the second layer's row function of row `r` of the first layer's output
    `H` and of the two neighbourhood sums of `H`: as the first layer, with each branch rectified before the join. -/
theorem ref_layer2 (x0 : (⟨S100000x64, .f32⟩ : BufTy).Contents (Elt Ideal)) (x1 x2 : (⟨S2x1000000, .i32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S256x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal))
    (x16 : (⟨S128x128, .f32⟩ : BufTy).Contents (Elt Ideal)) (x17 : (⟨S128, .f32⟩ : BufTy).Contents (Elt Ideal))
    (x18 : (⟨S128x128, .f32⟩ : BufTy).Contents (Elt Ideal)) (x19 : (⟨S128, .f32⟩ : BufTy).Contents (Elt Ideal))
    (x20 : (⟨S128x128, .f32⟩ : BufTy).Contents (Elt Ideal)) (x21 : (⟨S128, .f32⟩ : BufTy).Contents (Elt Ideal))
    (x22 : (⟨S128x128, .f32⟩ : BufTy).Contents (Elt Ideal)) (x23 : (⟨S128, .f32⟩ : BufTy).Contents (Elt Ideal))
    (x24 : (⟨S256x128, .f32⟩ : BufTy).Contents (Elt Ideal)) (x25 : (⟨S128, .f32⟩ : BufTy).Contents (Elt Ideal))
    (x26 : (⟨S128x128, .f32⟩ : BufTy).Contents (Elt Ideal)) (x27 : (⟨S128, .f32⟩ : BufTy).Contents (Elt Ideal)) (r : Fin 100000) :
    rowOf (val_main_v117 (F := Ideal) x0 x1 x2 x4 x5 x6 x7 x8 x9 x10 x11 x12 x13 x14 x15 x16 x17 x18 x19 x20 x21 x22 x23 x24 x25 x26 x27) r
      = layerRowR h256 z0 (LayerW.ofArrays x16 x17 x18 x19 x20 x21 x22 x23 x24 x25 x26 x27)
          (rowOf (val_main_v57 (F := Ideal) x0 x1 x2 x4 x5 x6 x7 x8 x9 x10 x11 x12 x13 x14 x15) r)
          (rowOf (val_main_v71 (F := Ideal) x0 x1 x2 x4 x5 x6 x7 x8 x9 x10 x11 x12 x13 x14 x15) r)
          (rowOf (val_main_v96 (F := Ideal) x0 x1 x2 x4 x5 x6 x7 x8 x9 x10 x11 x12 x13 x14 x15) r) := by
  unfold val_main_v117 val_main_v116 val_main_v115 val_main_v114 val_main_v113 val_main_call7_v0 val_main_call7_cst
    val_main_v112 val_main_v111 val_main_v110 val_main_v109 val_main_v108
    val_main_v107 val_main_call6_v0 val_main_call6_cst val_main_v106 val_main_v105 val_main_v104 val_main_v103
    val_main_v102 val_main_call5_v0 val_main_call5_cst val_main_v101 val_main_v100 val_main_v99 val_main_v98 val_main_v97
    val_main_v82 val_main_call4_v0 val_main_call4_cst val_main_v81 val_main_v80 val_main_v79 val_main_v78
    val_main_v77 val_main_call3_v0 val_main_call3_cst val_main_v76 val_main_v75 val_main_v74 val_main_v73 val_main_v72
  simp only [rowOf_dense_host rtc_128_128, rowOf_maximumf_const, rowOf_dense_host rtc_256_128,
    rowOf_concat_cols _ _ _ h256]
  rw [rowOf_addf, rowOf_addf]
  rfl

end Cert.GinRef

end
-- ==== Proof.AggReal.lean ====
import proofs.«158497_j67508295958860_2_alg».proof.Proof.Gen.ReferenceIdeal
import proofs.«158497_j67508295958860_2_alg».proof.Proof.LibRowGatherScatter
import proofs.«158497_j67508295958860_2_alg».proof.Proof.LibDenseEdges

/-!
# A neighbourhood sum of a real table is real

The aggregate of a table `X : [N, C]` over an edge list is the accumulating scatter, into a table `Z`, at the
target row numbers, of the rows of `X` gathered at the source row numbers. Entry `(n, q)` of it is
`Z (n, q) + ∑ X (row e, q)` over the edges `e` whose target is `n`: a finite sum of entries of `X` added to an entry
of `Z`. So it is a real number as soon as all entries of `X` and `Z` are.
-/

noncomputable section

namespace Cert.GinAgg

open Cert.ReferenceIdeal Cert.DenseEdges Idealize.ShloMosaic Idealize.ShloMosaic.RowOps
open Idealize.ShloMosaic.ValueIdx

/-- For any table height `N > 0`, edge count `E` and width `C`: every entry of the scatter-add into a real table
    `Z` of the rows gathered from a real table `X` is real. -/
theorem agg_real {N E C w : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (X Z : (⟨2, ![N, C]⟩ : Shape).Idx → EReal) (idxS idxT : IVec ⟨2, ![E, 1]⟩ w)
    (hX : ∀ i, IsReal (X i)) (hZ : ∀ i, IsReal (Z i)) (i : (⟨2, ![N, C]⟩ : Shape).Idx) :
    IsReal (Host.scatterAdd (F := Ideal) (φ := .f32) (rowScatterDims N E C wfs) Z idxT
      (Host.gather (rowGatherDims N E C wfg) X idxS) i) := by
  obtain ⟨n, q, rfl⟩ : ∃ (n : Fin N) (q : Fin C), i = ix2 n q := ⟨i 0, i 1, eq_ix2 i⟩
  rw [scatterAdd_rows_apply]
  refine (hZ _).add (isReal_sum _ _ fun e _ => ?_)
  rw [gather_rows_apply hN]
  exact hX _

/-- The printed gather record for width 64 is the gather of whole rows. -/
theorem gather64_eq : gather_S100000x64_S1000000x1_S1000000x64_1_0_n_n_0_1_164
    = rowGatherDims 100000 1000000 64 gather_S100000x64_S1000000x1_S1000000x64_1_0_n_n_0_1_164.wf := rfl

/-- The printed scatter record for width 64 is the accumulating scatter of whole rows. -/
theorem scatter64_eq : scatter_S100000x64_S1000000x1_S1000000x64_1_0_0_1
    = rowScatterDims 100000 1000000 64 scatter_S100000x64_S1000000x1_S1000000x64_1_0_0_1.wf := rfl

/-- The printed gather record for width 128 is the gather of whole rows. -/
theorem gather128_eq : gather_S100000x128_S1000000x1_S1000000x128_1_0_n_n_0_1_1128
    = rowGatherDims 100000 1000000 128 gather_S100000x128_S1000000x1_S1000000x128_1_0_n_n_0_1_1128.wf := rfl

/-- The printed scatter record for width 128 is the accumulating scatter of whole rows. -/
theorem scatter128_eq : scatter_S100000x128_S1000000x1_S1000000x128_1_0_0_1
    = rowScatterDims 100000 1000000 128 scatter_S100000x128_S1000000x1_S1000000x128_1_0_0_1.wf := rfl

/-- Width 64: the neighbourhood sum of a real table `X`, accumulated into a real table `Z`, is real. -/
theorem agg64_real (X : FVec Ideal S100000x64 .f32) (Z : FVec Ideal S100000x64 .f32)
    (idxS idxT : IVec S1000000x1 32) (hX : ∀ i, IsReal (X i)) (hZ : ∀ i, IsReal (Z i)) (i : S100000x64.Idx) :
    IsReal (Host.scatterAdd (F := Ideal) (φ := .f32) scatter_S100000x64_S1000000x1_S1000000x64_1_0_0_1 Z idxT
      (Host.gather gather_S100000x64_S1000000x1_S1000000x64_1_0_n_n_0_1_164 X idxS) i) := by
  rw [gather64_eq, scatter64_eq]
  exact agg_real (by decide) _ _ X Z idxS idxT hX hZ i

/-- Width 128: the neighbourhood sum of a real table `X`, accumulated into a real table `Z`, is real. -/
theorem agg128_real (X : FVec Ideal S100000x128 .f32) (Z : FVec Ideal S100000x128 .f32)
    (idxS idxT : IVec S1000000x1 32) (hX : ∀ i, IsReal (X i)) (hZ : ∀ i, IsReal (Z i)) (i : S100000x128.Idx) :
    IsReal (Host.scatterAdd (F := Ideal) (φ := .f32) scatter_S100000x128_S1000000x1_S1000000x128_1_0_0_1 Z idxT
      (Host.gather gather_S100000x128_S1000000x1_S1000000x128_1_0_n_n_0_1_1128 X idxS) i) := by
  rw [gather128_eq, scatter128_eq]
  exact agg_real (by decide) _ _ X Z idxS idxT hX hZ i

end Cert.GinAgg
-- ==== Proof.RefReal.lean ====
import proofs.«158497_j67508295958860_2_alg».proof.Proof.RefRows
import proofs.«158497_j67508295958860_2_alg».proof.Proof.AggReal
import proofs.«158497_j67508295958860_2_alg».proof.Proof.Spec

/-!
# The reference's layer outputs are real

When every entry of the feature table and of the weight arrays is a real number, so is every entry of the
reference's first-layer output and of its second-layer output. Row `r` of a layer's output is the layer's row
function of row `r` of the layer's input table and of the two neighbourhood sums of that table; the row function
only adds, multiplies, takes finite sums and maxima with the real threshold 0, which all keep real numbers real;
and a neighbourhood sum of a real table, accumulated from the zero table, is real.
-/

noncomputable section

namespace Cert.GinRef

open Cert.ReferenceIdeal Cert.ReferenceIdeal.Read Cert.RowLayers Cert.Gin Cert.DenseEdges Cert.GinAgg
open Idealize.ShloMosaic Idealize.ShloMosaic.ValueIdx

/-! ## The zero tables the sums are accumulated into -/

/-- Every entry of the first layer's first zero table is the real number 0. -/
theorem real_v11 (i : S100000x64.Idx) : IsReal (val_main_v11 (F := Ideal) i) := by
  rw [val_main_v11_apply, val_main_cst_apply]; exact isReal_z0

/-- Every entry of the first layer's second zero table is the real number 0. -/
theorem real_v35 (i : S100000x64.Idx) : IsReal (val_main_v35 (F := Ideal) i) := by
  rw [val_main_v35_apply, val_main_cst_3_apply]; exact isReal_z0

/-- Every entry of the second layer's first zero table is the real number 0. -/
theorem real_v69 (i : S100000x128.Idx) : IsReal (val_main_v69 (F := Ideal) i) := by
  rw [val_main_v69_apply, val_main_cst_6_apply]; exact isReal_z0

/-- Every entry of the second layer's second zero table is the real number 0. -/
theorem real_v94 (i : S100000x128.Idx) : IsReal (val_main_v94 (F := Ideal) i) := by
  rw [val_main_v94_apply, val_main_cst_9_apply]; exact isReal_z0

/-! ## The first layer -/

/-- The neighbourhood sum of a real feature table over the first edge list is real. -/
theorem real_v13 (x0 : (⟨S100000x64, .f32⟩ : BufTy).Contents (Elt Ideal)) (x1 : (⟨S2x1000000, .i32⟩ : BufTy).Contents (Elt Ideal))
    (h0 : ∀ i : S100000x64.Idx, IsReal (x0 i)) (i : S100000x64.Idx) : IsReal (val_main_v13 (F := Ideal) x0 x1 i) := by
  unfold val_main_v13 val_main_v8
  exact agg64_real x0 _ _ _ h0 real_v11 i

/-- The neighbourhood sum of a real feature table over the second edge list is real. -/
theorem real_v37 (x0 : (⟨S100000x64, .f32⟩ : BufTy).Contents (Elt Ideal)) (x2 : (⟨S2x1000000, .i32⟩ : BufTy).Contents (Elt Ideal))
    (h0 : ∀ i : S100000x64.Idx, IsReal (x0 i)) (i : S100000x64.Idx) : IsReal (val_main_v37 (F := Ideal) x0 x2 i) := by
  unfold val_main_v37 val_main_v32
  exact agg64_real x0 _ _ _ h0 real_v35 i

/-- THE FIRST LAYER'S OUTPUT IS REAL: with a real feature table and real first-layer weights, every entry of the
    first layer's output is a real number. -/
theorem real_layer1
    (x0 : (⟨S100000x64, .f32⟩ : BufTy).Contents (Elt Ideal)) (x1 x2 : (⟨S2x1000000, .i32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S256x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal))
    (h0 : ∀ i : S100000x64.Idx, IsReal (x0 i)) (h4 : ∀ i : S64x128.Idx, IsReal (x4 i)) (h5 : ∀ i : S128.Idx, IsReal (x5 i))
    (h6 : ∀ i : S128x128.Idx, IsReal (x6 i)) (h7 : ∀ i : S128.Idx, IsReal (x7 i)) (h8 : ∀ i : S64x128.Idx, IsReal (x8 i))
    (h9 : ∀ i : S128.Idx, IsReal (x9 i)) (h10 : ∀ i : S128x128.Idx, IsReal (x10 i)) (h11 : ∀ i : S128.Idx, IsReal (x11 i))
    (h12 : ∀ i : S256x128.Idx, IsReal (x12 i)) (h13 : ∀ i : S128.Idx, IsReal (x13 i)) (h14 : ∀ i : S128x128.Idx, IsReal (x14 i))
    (h15 : ∀ i : S128.Idx, IsReal (x15 i)) :
    ∀ i : S100000x128.Idx, IsReal (val_main_v57 (F := Ideal) x0 x1 x2 x4 x5 x6 x7 x8 x9 x10 x11 x12 x13 x14 x15 i) := by
  intro i
  obtain ⟨r, q, rfl⟩ : ∃ (r : Fin 100000) (q : Fin 128), i = ix2 r q := ⟨i 0, i 1, eq_ix2 i⟩
  show IsReal (rowOf (val_main_v57 (F := Ideal) x0 x1 x2 x4 x5 x6 x7 x8 x9 x10 x11 x12 x13 x14 x15) r q)
  rw [ref_layer1]
  exact realRow_layerRow h256 isReal_z0
    (LayerW.real_ofArrays h4 h5 h6 h7 h8 h9 h10 h11 h12 h13 h14 h15)
    (fun k => h0 _) (fun k => real_v13 x0 x1 h0 _) (fun k => real_v37 x0 x2 h0 _) q

/-! ## The second layer -/

/-- The neighbourhood sum of the (real) first-layer output over the first edge list is real. -/
theorem real_v71
    (x0 : (⟨S100000x64, .f32⟩ : BufTy).Contents (Elt Ideal)) (x1 x2 : (⟨S2x1000000, .i32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S256x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal))
    (h0 : ∀ i : S100000x64.Idx, IsReal (x0 i)) (h4 : ∀ i : S64x128.Idx, IsReal (x4 i)) (h5 : ∀ i : S128.Idx, IsReal (x5 i))
    (h6 : ∀ i : S128x128.Idx, IsReal (x6 i)) (h7 : ∀ i : S128.Idx, IsReal (x7 i)) (h8 : ∀ i : S64x128.Idx, IsReal (x8 i))
    (h9 : ∀ i : S128.Idx, IsReal (x9 i)) (h10 : ∀ i : S128x128.Idx, IsReal (x10 i)) (h11 : ∀ i : S128.Idx, IsReal (x11 i))
    (h12 : ∀ i : S256x128.Idx, IsReal (x12 i)) (h13 : ∀ i : S128.Idx, IsReal (x13 i)) (h14 : ∀ i : S128x128.Idx, IsReal (x14 i))
    (h15 : ∀ i : S128.Idx, IsReal (x15 i))
    (i : S100000x128.Idx) : IsReal (val_main_v71 (F := Ideal) x0 x1 x2 x4 x5 x6 x7 x8 x9 x10 x11 x12 x13 x14 x15 i) := by
  unfold val_main_v71 val_main_v66
  exact agg128_real _ _ _ _
    (real_layer1 x0 x1 x2 x4 x5 x6 x7 x8 x9 x10 x11 x12 x13 x14 x15 h0 h4 h5 h6 h7 h8 h9 h10 h11 h12 h13 h14 h15) real_v69 i

/-- The neighbourhood sum of the (real) first-layer output over the second edge list is real. -/
theorem real_v96
    (x0 : (⟨S100000x64, .f32⟩ : BufTy).Contents (Elt Ideal)) (x1 x2 : (⟨S2x1000000, .i32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S256x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal))
    (h0 : ∀ i : S100000x64.Idx, IsReal (x0 i)) (h4 : ∀ i : S64x128.Idx, IsReal (x4 i)) (h5 : ∀ i : S128.Idx, IsReal (x5 i))
    (h6 : ∀ i : S128x128.Idx, IsReal (x6 i)) (h7 : ∀ i : S128.Idx, IsReal (x7 i)) (h8 : ∀ i : S64x128.Idx, IsReal (x8 i))
    (h9 : ∀ i : S128.Idx, IsReal (x9 i)) (h10 : ∀ i : S128x128.Idx, IsReal (x10 i)) (h11 : ∀ i : S128.Idx, IsReal (x11 i))
    (h12 : ∀ i : S256x128.Idx, IsReal (x12 i)) (h13 : ∀ i : S128.Idx, IsReal (x13 i)) (h14 : ∀ i : S128x128.Idx, IsReal (x14 i))
    (h15 : ∀ i : S128.Idx, IsReal (x15 i))
    (i : S100000x128.Idx) : IsReal (val_main_v96 (F := Ideal) x0 x1 x2 x4 x5 x6 x7 x8 x9 x10 x11 x12 x13 x14 x15 i) := by
  unfold val_main_v96 val_main_v91
  exact agg128_real _ _ _ _
    (real_layer1 x0 x1 x2 x4 x5 x6 x7 x8 x9 x10 x11 x12 x13 x14 x15 h0 h4 h5 h6 h7 h8 h9 h10 h11 h12 h13 h14 h15) real_v94 i

/-- THE SECOND LAYER'S OUTPUT IS REAL: with a real feature table and real weights of both layers, every entry of
    the second layer's output is a real number. -/
theorem real_layer2
    (x0 : (⟨S100000x64, .f32⟩ : BufTy).Contents (Elt Ideal)) (x1 x2 : (⟨S2x1000000, .i32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S256x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal))
    (x16 : (⟨S128x128, .f32⟩ : BufTy).Contents (Elt Ideal)) (x17 : (⟨S128, .f32⟩ : BufTy).Contents (Elt Ideal))
    (x18 : (⟨S128x128, .f32⟩ : BufTy).Contents (Elt Ideal)) (x19 : (⟨S128, .f32⟩ : BufTy).Contents (Elt Ideal))
    (x20 : (⟨S128x128, .f32⟩ : BufTy).Contents (Elt Ideal)) (x21 : (⟨S128, .f32⟩ : BufTy).Contents (Elt Ideal))
    (x22 : (⟨S128x128, .f32⟩ : BufTy).Contents (Elt Ideal)) (x23 : (⟨S128, .f32⟩ : BufTy).Contents (Elt Ideal))
    (x24 : (⟨S256x128, .f32⟩ : BufTy).Contents (Elt Ideal)) (x25 : (⟨S128, .f32⟩ : BufTy).Contents (Elt Ideal))
    (x26 : (⟨S128x128, .f32⟩ : BufTy).Contents (Elt Ideal)) (x27 : (⟨S128, .f32⟩ : BufTy).Contents (Elt Ideal))
    (h0 : ∀ i : S100000x64.Idx, IsReal (x0 i)) (h4 : ∀ i : S64x128.Idx, IsReal (x4 i)) (h5 : ∀ i : S128.Idx, IsReal (x5 i))
    (h6 : ∀ i : S128x128.Idx, IsReal (x6 i)) (h7 : ∀ i : S128.Idx, IsReal (x7 i)) (h8 : ∀ i : S64x128.Idx, IsReal (x8 i))
    (h9 : ∀ i : S128.Idx, IsReal (x9 i)) (h10 : ∀ i : S128x128.Idx, IsReal (x10 i)) (h11 : ∀ i : S128.Idx, IsReal (x11 i))
    (h12 : ∀ i : S256x128.Idx, IsReal (x12 i)) (h13 : ∀ i : S128.Idx, IsReal (x13 i)) (h14 : ∀ i : S128x128.Idx, IsReal (x14 i))
    (h15 : ∀ i : S128.Idx, IsReal (x15 i)) (h16 : ∀ i, IsReal (x16 i)) (h17 : ∀ i, IsReal (x17 i)) (h18 : ∀ i, IsReal (x18 i))
    (h19 : ∀ i, IsReal (x19 i)) (h20 : ∀ i, IsReal (x20 i)) (h21 : ∀ i, IsReal (x21 i)) (h22 : ∀ i, IsReal (x22 i))
    (h23 : ∀ i, IsReal (x23 i)) (h24 : ∀ i, IsReal (x24 i)) (h25 : ∀ i, IsReal (x25 i)) (h26 : ∀ i, IsReal (x26 i))
    (h27 : ∀ i, IsReal (x27 i)) :
    ∀ i : S100000x128.Idx, IsReal (val_main_v117 (F := Ideal) x0 x1 x2 x4 x5 x6 x7 x8 x9 x10 x11 x12 x13 x14 x15 x16 x17 x18 x19 x20 x21 x22 x23 x24 x25 x26 x27 i) := by
  intro i
  obtain ⟨r, q, rfl⟩ : ∃ (r : Fin 100000) (q : Fin 128), i = ix2 r q := ⟨i 0, i 1, eq_ix2 i⟩
  show IsReal (rowOf (val_main_v117 (F := Ideal) x0 x1 x2 x4 x5 x6 x7 x8 x9 x10 x11 x12 x13 x14 x15 x16 x17 x18 x19 x20 x21 x22 x23 x24 x25 x26 x27) r q)
  rw [ref_layer2]
  exact realRow_layerRowR h256 isReal_z0
    (LayerW.real_ofArrays h16 h17 h18 h19 h20 h21 h22 h23 h24 h25 h26 h27)
    (fun k => real_layer1 x0 x1 x2 x4 x5 x6 x7 x8 x9 x10 x11 x12 x13 x14 x15 h0 h4 h5 h6 h7 h8 h9 h10 h11 h12 h13 h14 h15 _)
    (fun k => real_v71 x0 x1 x2 x4 x5 x6 x7 x8 x9 x10 x11 x12 x13 x14 x15 h0 h4 h5 h6 h7 h8 h9 h10 h11 h12 h13 h14 h15 _)
    (fun k => real_v96 x0 x1 x2 x4 x5 x6 x7 x8 x9 x10 x11 x12 x13 x14 x15 h0 h4 h5 h6 h7 h8 h9 h10 h11 h12 h13 h14 h15 _) q

end Cert.GinRef
-- ==== Proof.LibPoolHead.lean ====
/-
  Pooling the per-node scalar products against the scalar product of the pooled rows.

  Nodes n of a finite set S carry rows h_n of width H, and w is a column of width H.  A linear head gives node n
  the score ∑_k h_n(k) · w(k); pooling adds the scores over S.  Pooling first gives the row whose entry k is
  ∑_{n ∈ S} h_n(k), and the head of that row is ∑_k (∑_{n ∈ S} h_n(k)) · w(k).  The two agree: exchange the two
  finite sums, then a product distributes over a finite sum,  (∑_n h_n(k)) · w(k) = ∑_n h_n(k) · w(k).
  On the extended reals that last step needs every entry to be a real number (with +∞ beside −∞ among the
  h_n(k), or an infinite w(k) against entries that cancel, the two sides differ), so the identity is stated for
  real-valued data.  Both sides carry the leading  0 + …  of an accumulation that starts from zero.
-/
import Idealize.ShloMosaic.PureOps.Ideal.Laws
import proofs.«158497_j67508295958860_2_alg».proof.Proof.LibDenseEdges

noncomputable section

open scoped BigOperators

namespace Cert.PoolHead

open Cert.DenseEdges

/-- POOLING COMMUTES WITH A LINEAR HEAD, for real-valued rows `h n` and a real-valued column `w`: the sum over the
    nodes `n ∈ S` of the scalar products `∑ k, h n k * w k` is the scalar product of the pooled row
    `k ↦ ∑ n ∈ S, h n k` with `w` (each side accumulated from zero). -/
theorem pool_head {ι : Type*} {H : ℕ} (S : Finset ι) (h : ι → Fin H → EReal) (w : Fin H → EReal)
    (hh : ∀ n k, IsReal (h n k)) (hw : ∀ k, IsReal (w k)) :
    (0 : EReal) + ∑ n ∈ S, ∑ k : Fin H, h n k * w k = ∑ k : Fin H, ((0 : EReal) + ∑ n ∈ S, h n k) * w k := by
  choose hr hhr using hh
  choose wr hwr using hw
  simp only [zero_add, hhr, hwr, ← EReal.coe_mul, ← coe_sum]
  rw [Finset.sum_comm]
  simp only [Finset.sum_mul]

end Cert.PoolHead
-- ==== Proof.RefPooled.lean ====
import proofs.«158497_j67508295958860_2_alg».proof.Proof.RefOut
import proofs.«158497_j67508295958860_2_alg».proof.Proof.RefRows
import proofs.«158497_j67508295958860_2_alg».proof.Proof.RefReal
import proofs.«158497_j67508295958860_2_alg».proof.Proof.LibPoolHead
import proofs.«158497_j67508295958860_2_alg».proof.Proof.Spec

/-!
# The reference's result as a pooling of per-node scores

The reference pools the second layer's rows over the nodes of each graph and then takes the scalar product of the
pooled row with the head's weight column. For real-valued data that is the same as first taking, at every node,
the scalar product of the node's second-layer row with the weights (the node's score) and then pooling the
scores: a product distributes over a finite sum of real numbers. The second-layer rows are real because the
feature table and the weights are.
-/

noncomputable section

open scoped BigOperators

namespace Cert.GinRef

open Cert.ReferenceIdeal Cert.ReferenceIdeal.Read Cert.RowLayers Cert.Gin Cert.DenseEdges
open Idealize.ShloMosaic Idealize.ShloMosaic.ValueIdx

/-- THE REFERENCE'S RESULT, NODE BY NODE: for a real feature table and real weights, entry `g` of the reference's
    result is the sum, over the nodes whose graph number is `g`, of the node scores (second layer, then the scalar
    product with the head's weights written as a row `lw`), accumulated from zero, plus the head's bias. -/
theorem ref_out_nodes
    (x0 : (⟨S100000x64, .f32⟩ : BufTy).Contents (Elt Ideal)) (x1 x2 : (⟨S2x1000000, .i32⟩ : BufTy).Contents (Elt Ideal))
    (x3 : (⟨S100000, .i32⟩ : BufTy).Contents (Elt Ideal))
    (x4 : (⟨S64x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S64x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S256x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal))
    (x16 : (⟨S128x128, .f32⟩ : BufTy).Contents (Elt Ideal)) (x17 : (⟨S128, .f32⟩ : BufTy).Contents (Elt Ideal))
    (x18 : (⟨S128x128, .f32⟩ : BufTy).Contents (Elt Ideal)) (x19 : (⟨S128, .f32⟩ : BufTy).Contents (Elt Ideal))
    (x20 : (⟨S128x128, .f32⟩ : BufTy).Contents (Elt Ideal)) (x21 : (⟨S128, .f32⟩ : BufTy).Contents (Elt Ideal))
    (x22 : (⟨S128x128, .f32⟩ : BufTy).Contents (Elt Ideal)) (x23 : (⟨S128, .f32⟩ : BufTy).Contents (Elt Ideal))
    (x24 : (⟨S256x128, .f32⟩ : BufTy).Contents (Elt Ideal)) (x25 : (⟨S128, .f32⟩ : BufTy).Contents (Elt Ideal))
    (x26 : (⟨S128x128, .f32⟩ : BufTy).Contents (Elt Ideal)) (x27 : (⟨S128, .f32⟩ : BufTy).Contents (Elt Ideal))
    (x28 : (⟨S128x1, .f32⟩ : BufTy).Contents (Elt Ideal)) (x29 : (⟨S1, .f32⟩ : BufTy).Contents (Elt Ideal))
    (h0 : ∀ i : S100000x64.Idx, IsReal (x0 i)) (h4 : ∀ i : S64x128.Idx, IsReal (x4 i)) (h5 : ∀ i : S128.Idx, IsReal (x5 i))
    (h6 : ∀ i : S128x128.Idx, IsReal (x6 i)) (h7 : ∀ i : S128.Idx, IsReal (x7 i)) (h8 : ∀ i : S64x128.Idx, IsReal (x8 i))
    (h9 : ∀ i : S128.Idx, IsReal (x9 i)) (h10 : ∀ i : S128x128.Idx, IsReal (x10 i)) (h11 : ∀ i : S128.Idx, IsReal (x11 i))
    (h12 : ∀ i : S256x128.Idx, IsReal (x12 i)) (h13 : ∀ i : S128.Idx, IsReal (x13 i)) (h14 : ∀ i : S128x128.Idx, IsReal (x14 i))
    (h15 : ∀ i : S128.Idx, IsReal (x15 i)) (h16 : ∀ i : S128x128.Idx, IsReal (x16 i)) (h17 : ∀ i : S128.Idx, IsReal (x17 i))
    (h18 : ∀ i : S128x128.Idx, IsReal (x18 i)) (h19 : ∀ i : S128.Idx, IsReal (x19 i)) (h20 : ∀ i : S128x128.Idx, IsReal (x20 i))
    (h21 : ∀ i : S128.Idx, IsReal (x21 i)) (h22 : ∀ i : S128x128.Idx, IsReal (x22 i)) (h23 : ∀ i : S128.Idx, IsReal (x23 i))
    (h24 : ∀ i : S256x128.Idx, IsReal (x24 i)) (h25 : ∀ i : S128.Idx, IsReal (x25 i)) (h26 : ∀ i : S128x128.Idx, IsReal (x26 i))
    (h27 : ∀ i : S128.Idx, IsReal (x27 i))
    (h28 : ∀ i : S128x1.Idx, IsReal (x28 i))
    (lw : Cert.Gin.Mat 1 128) (hlw : ∀ k : Fin 128, lw (ix2 (0 : Fin 1) k) = x28 (ix2 k (0 : Fin 1))) (g : Fin 128) :
    val_main_v125 (F := Ideal) x0 x1 x2 x3 x4 x5 x6 x7 x8 x9 x10 x11 x12 x13 x14 x15 x16 x17 x18 x19 x20 x21 x22 x23 x24 x25 x26 x27 x28 x29 (ix1 g)
      = (z0 + ∑ n ∈ Finset.univ.filter (fun n : Fin 100000 =>
            ((val_main_v119 (F := Ideal) x3) (ix2 n (0 : Fin 1))).toInt = (g.val : ℤ)),
            nodeScore h256 z0 (LayerW.ofArrays x16 x17 x18 x19 x20 x21 x22 x23 x24 x25 x26 x27) lw
              (val_main_v57 (F := Ideal) x0 x1 x2 x4 x5 x6 x7 x8 x9 x10 x11 x12 x13 x14 x15)
              (val_main_v71 (F := Ideal) x0 x1 x2 x4 x5 x6 x7 x8 x9 x10 x11 x12 x13 x14 x15)
              (val_main_v96 (F := Ideal) x0 x1 x2 x4 x5 x6 x7 x8 x9 x10 x11 x12 x13 x14 x15) (ix2 n (0 : Fin 1)))
        + x29 (ix1 (0 : Fin 1)) := by
  rw [ref_out]
  refine congrArg (· + x29 (ix1 (0 : Fin 1))) ?_
  have hz : z0 = (0 : EReal) := Ideal.ofBits_zero_f32
  have hp := Cert.PoolHead.pool_head
    (Finset.univ.filter (fun n : Fin 100000 =>
            ((val_main_v119 (F := Ideal) x3) (ix2 n (0 : Fin 1))).toInt = (g.val : ℤ)))
    (fun n k => (val_main_v117 (F := Ideal) x0 x1 x2 x4 x5 x6 x7 x8 x9 x10 x11 x12 x13 x14 x15 x16 x17 x18 x19 x20 x21 x22 x23 x24 x25 x26 x27) (ix2 n k))
    (fun k => x28 (ix2 k (0 : Fin 1)))
    (fun n k => real_layer2 x0 x1 x2 x4 x5 x6 x7 x8 x9 x10 x11 x12 x13 x14 x15 x16 x17 x18 x19 x20 x21 x22 x23 x24 x25 x26 x27 h0 h4 h5 h6 h7 h8 h9 h10 h11 h12 h13 h14 h15 h16 h17 h18 h19 h20 h21 h22 h23 h24 h25 h26 h27 _)
    (fun k => h28 _)
  calc (∑ k : Fin 128, (z0 + ∑ n ∈ Finset.univ.filter (fun n : Fin 100000 =>
            ((val_main_v119 (F := Ideal) x3) (ix2 n (0 : Fin 1))).toInt = (g.val : ℤ)),
          (val_main_v117 (F := Ideal) x0 x1 x2 x4 x5 x6 x7 x8 x9 x10 x11 x12 x13 x14 x15 x16 x17 x18 x19 x20 x21 x22 x23 x24 x25 x26 x27) (ix2 n k)) * x28 (ix2 k (0 : Fin 1)))
      = ∑ k : Fin 128, ((0 : EReal) + ∑ n ∈ Finset.univ.filter (fun n : Fin 100000 =>
            ((val_main_v119 (F := Ideal) x3) (ix2 n (0 : Fin 1))).toInt = (g.val : ℤ)),
          (val_main_v117 (F := Ideal) x0 x1 x2 x4 x5 x6 x7 x8 x9 x10 x11 x12 x13 x14 x15 x16 x17 x18 x19 x20 x21 x22 x23 x24 x25 x26 x27) (ix2 n k)) * x28 (ix2 k (0 : Fin 1)) := by rw [hz]
    _ = (0 : EReal) + ∑ n ∈ Finset.univ.filter (fun n : Fin 100000 =>
            ((val_main_v119 (F := Ideal) x3) (ix2 n (0 : Fin 1))).toInt = (g.val : ℤ)),
          ∑ k : Fin 128, (val_main_v117 (F := Ideal) x0 x1 x2 x4 x5 x6 x7 x8 x9 x10 x11 x12 x13 x14 x15 x16 x17 x18 x19 x20 x21 x22 x23 x24 x25 x26 x27) (ix2 n k) * x28 (ix2 k (0 : Fin 1)) := hp.symm
    _ = _ := by
      refine congrArg₂ (· + ·) hz.symm (Finset.sum_congr rfl fun n _ => ?_)
      · show _ = ∑ k : Fin 128, layerRowR h256 z0 (LayerW.ofArrays x16 x17 x18 x19 x20 x21 x22 x23 x24 x25 x26 x27)
            (rowOf (val_main_v57 (F := Ideal) x0 x1 x2 x4 x5 x6 x7 x8 x9 x10 x11 x12 x13 x14 x15) n)
            (rowOf (val_main_v71 (F := Ideal) x0 x1 x2 x4 x5 x6 x7 x8 x9 x10 x11 x12 x13 x14 x15) n)
            (rowOf (val_main_v96 (F := Ideal) x0 x1 x2 x4 x5 x6 x7 x8 x9 x10 x11 x12 x13 x14 x15) n) k * lw (ix2 (0 : Fin 1) k)
        refine Finset.sum_congr rfl fun k _ => ?_
        rw [hlw k, ← congrFun (ref_layer2 x0 x1 x2 x4 x5 x6 x7 x8 x9 x10 x11 x12 x13 x14 x15 x16 x17 x18 x19 x20 x21 x22 x23 x24 x25 x26 x27 n) k]
        rfl

end Cert.GinRef
-- ==== Proof.AggEq.lean ====
import proofs.«158497_j67508295958860_2_alg».proof.Proof.KernelHost1
import proofs.«158497_j67508295958860_2_alg».proof.Proof.Gen.ReferenceIdeal.Read

/-!
# The kernel program's neighbourhood sums are the reference's

Both programs compute a neighbourhood sum on the host by the same chain of operations: take a row of the edge list,
move negative node numbers up by the number of nodes, gather the table's rows at the source nodes, and add them
into a zero table at the target nodes. The kernel program additionally rounds the gathered table to a narrower
float format and widens it again; over the extended reals a change of format is the identity. The two programs
print their dimension-number records and side conditions separately, but with the same fields, and two proofs of
one proposition are equal. So after unfolding both sides to the printed operations the two terms are the same.
-/

noncomputable section

namespace Cert.GinBridge

open Idealize.ShloMosaic

/-- The kernel program's 64-wide neighbourhood sum of a feature table over an edge list is the reference's
    `val_main_v13` of the same table and edge list: the same printed operations, the format changes being the
    identity on extended reals. -/
theorem agg64_v13 (X : FVec Ideal Cert.KernelIdeal.S100000x64 .f32) (ei : IVec Cert.KernelIdeal.S2x1000000 32) :
    Cert.GinKernel.aggK64 X ei = Cert.ReferenceIdeal.Read.val_main_v13 (F := Ideal) X ei := by
  unfold Cert.GinKernel.aggK64 Cert.GinKernel.edgeSrc Cert.GinKernel.edgeDst Cert.GinKernel.edgeRow0 Cert.GinKernel.edgeRow1
  unfold Cert.ReferenceIdeal.Read.val_main_v13 Cert.ReferenceIdeal.Read.val_main_v12 Cert.ReferenceIdeal.Read.val_main_v11 Cert.ReferenceIdeal.Read.val_main_cst Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_c_0 Cert.ReferenceIdeal.Read.val_main_v3 Cert.ReferenceIdeal.Read.val_main_v2 Cert.ReferenceIdeal.Read.val_main_c Cert.ReferenceIdeal.Read.val_main_v1 Cert.ReferenceIdeal.Read.val_main_v0
  rfl

/-- The kernel program's 64-wide neighbourhood sum of a feature table over an edge list is the reference's
    `val_main_v37` of the same table and edge list: the same printed operations, the format changes being the
    identity on extended reals. -/
theorem agg64_v37 (X : FVec Ideal Cert.KernelIdeal.S100000x64 .f32) (ei : IVec Cert.KernelIdeal.S2x1000000 32) :
    Cert.GinKernel.aggK64 X ei = Cert.ReferenceIdeal.Read.val_main_v37 (F := Ideal) X ei := by
  unfold Cert.GinKernel.aggK64 Cert.GinKernel.edgeSrc Cert.GinKernel.edgeDst Cert.GinKernel.edgeRow0 Cert.GinKernel.edgeRow1
  unfold Cert.ReferenceIdeal.Read.val_main_v37 Cert.ReferenceIdeal.Read.val_main_v36 Cert.ReferenceIdeal.Read.val_main_v35 Cert.ReferenceIdeal.Read.val_main_cst_3 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_c_2 Cert.ReferenceIdeal.Read.val_main_v27 Cert.ReferenceIdeal.Read.val_main_v26 Cert.ReferenceIdeal.Read.val_main_c_1 Cert.ReferenceIdeal.Read.val_main_v25 Cert.ReferenceIdeal.Read.val_main_v24
  rfl

/-- The kernel program's 128-wide neighbourhood sum of the reference's first-layer output over the first edge
    list is the reference's `val_main_v71`. -/
theorem agg128_v71
    (x0 : (⟨Cert.ReferenceIdeal.S100000x64, .f32⟩ : BufTy).Contents (Elt Ideal)) (x1 x2 : (⟨Cert.ReferenceIdeal.S2x1000000, .i32⟩ : BufTy).Contents (Elt Ideal))
    (x4 : (⟨Cert.ReferenceIdeal.S64x128, .f32⟩ : BufTy).Contents (Elt Ideal)) (x5 : (⟨Cert.ReferenceIdeal.S128, .f32⟩ : BufTy).Contents (Elt Ideal))
    (x6 : (⟨Cert.ReferenceIdeal.S128x128, .f32⟩ : BufTy).Contents (Elt Ideal)) (x7 : (⟨Cert.ReferenceIdeal.S128, .f32⟩ : BufTy).Contents (Elt Ideal))
    (x8 : (⟨Cert.ReferenceIdeal.S64x128, .f32⟩ : BufTy).Contents (Elt Ideal)) (x9 : (⟨Cert.ReferenceIdeal.S128, .f32⟩ : BufTy).Contents (Elt Ideal))
    (x10 : (⟨Cert.ReferenceIdeal.S128x128, .f32⟩ : BufTy).Contents (Elt Ideal)) (x11 : (⟨Cert.ReferenceIdeal.S128, .f32⟩ : BufTy).Contents (Elt Ideal))
    (x12 : (⟨Cert.ReferenceIdeal.S256x128, .f32⟩ : BufTy).Contents (Elt Ideal)) (x13 : (⟨Cert.ReferenceIdeal.S128, .f32⟩ : BufTy).Contents (Elt Ideal))
    (x14 : (⟨Cert.ReferenceIdeal.S128x128, .f32⟩ : BufTy).Contents (Elt Ideal)) (x15 : (⟨Cert.ReferenceIdeal.S128, .f32⟩ : BufTy).Contents (Elt Ideal)) :
    Cert.GinKernel.aggK128 (Cert.ReferenceIdeal.Read.val_main_v57 (F := Ideal) x0 x1 x2 x4 x5 x6 x7 x8 x9 x10 x11 x12 x13 x14 x15) x1
      = Cert.ReferenceIdeal.Read.val_main_v71 (F := Ideal) x0 x1 x2 x4 x5 x6 x7 x8 x9 x10 x11 x12 x13 x14 x15 := by
  unfold Cert.GinKernel.aggK128 Cert.GinKernel.edgeSrc Cert.GinKernel.edgeDst Cert.GinKernel.edgeRow0 Cert.GinKernel.edgeRow1
  unfold Cert.ReferenceIdeal.Read.val_main_v71 Cert.ReferenceIdeal.Read.val_main_v70 Cert.ReferenceIdeal.Read.val_main_v69 Cert.ReferenceIdeal.Read.val_main_cst_6 Cert.ReferenceIdeal.Read.val_main_v68 Cert.ReferenceIdeal.Read.val_main_v67 Cert.ReferenceIdeal.Read.val_main_v66 Cert.ReferenceIdeal.Read.val_main_v65 Cert.ReferenceIdeal.Read.val_main_v64 Cert.ReferenceIdeal.Read.val_main_v63 Cert.ReferenceIdeal.Read.val_main_v62 Cert.ReferenceIdeal.Read.val_main_c_5 Cert.ReferenceIdeal.Read.val_main_v61 Cert.ReferenceIdeal.Read.val_main_v60 Cert.ReferenceIdeal.Read.val_main_c_4 Cert.ReferenceIdeal.Read.val_main_v59 Cert.ReferenceIdeal.Read.val_main_v58
  rfl

/-- The kernel program's 128-wide neighbourhood sum of the reference's first-layer output over the second edge
    list is the reference's `val_main_v96`. -/
theorem agg128_v96
    (x0 : (⟨Cert.ReferenceIdeal.S100000x64, .f32⟩ : BufTy).Contents (Elt Ideal)) (x1 x2 : (⟨Cert.ReferenceIdeal.S2x1000000, .i32⟩ : BufTy).Contents (Elt Ideal))
    (x4 : (⟨Cert.ReferenceIdeal.S64x128, .f32⟩ : BufTy).Contents (Elt Ideal)) (x5 : (⟨Cert.ReferenceIdeal.S128, .f32⟩ : BufTy).Contents (Elt Ideal))
    (x6 : (⟨Cert.ReferenceIdeal.S128x128, .f32⟩ : BufTy).Contents (Elt Ideal)) (x7 : (⟨Cert.ReferenceIdeal.S128, .f32⟩ : BufTy).Contents (Elt Ideal))
    (x8 : (⟨Cert.ReferenceIdeal.S64x128, .f32⟩ : BufTy).Contents (Elt Ideal)) (x9 : (⟨Cert.ReferenceIdeal.S128, .f32⟩ : BufTy).Contents (Elt Ideal))
    (x10 : (⟨Cert.ReferenceIdeal.S128x128, .f32⟩ : BufTy).Contents (Elt Ideal)) (x11 : (⟨Cert.ReferenceIdeal.S128, .f32⟩ : BufTy).Contents (Elt Ideal))
    (x12 : (⟨Cert.ReferenceIdeal.S256x128, .f32⟩ : BufTy).Contents (Elt Ideal)) (x13 : (⟨Cert.ReferenceIdeal.S128, .f32⟩ : BufTy).Contents (Elt Ideal))
    (x14 : (⟨Cert.ReferenceIdeal.S128x128, .f32⟩ : BufTy).Contents (Elt Ideal)) (x15 : (⟨Cert.ReferenceIdeal.S128, .f32⟩ : BufTy).Contents (Elt Ideal)) :
    Cert.GinKernel.aggK128 (Cert.ReferenceIdeal.Read.val_main_v57 (F := Ideal) x0 x1 x2 x4 x5 x6 x7 x8 x9 x10 x11 x12 x13 x14 x15) x2
      = Cert.ReferenceIdeal.Read.val_main_v96 (F := Ideal) x0 x1 x2 x4 x5 x6 x7 x8 x9 x10 x11 x12 x13 x14 x15 := by
  unfold Cert.GinKernel.aggK128 Cert.GinKernel.edgeSrc Cert.GinKernel.edgeDst Cert.GinKernel.edgeRow0 Cert.GinKernel.edgeRow1
  unfold Cert.ReferenceIdeal.Read.val_main_v96 Cert.ReferenceIdeal.Read.val_main_v95 Cert.ReferenceIdeal.Read.val_main_v94 Cert.ReferenceIdeal.Read.val_main_cst_9 Cert.ReferenceIdeal.Read.val_main_v93 Cert.ReferenceIdeal.Read.val_main_v92 Cert.ReferenceIdeal.Read.val_main_v91 Cert.ReferenceIdeal.Read.val_main_v90 Cert.ReferenceIdeal.Read.val_main_v89 Cert.ReferenceIdeal.Read.val_main_v88 Cert.ReferenceIdeal.Read.val_main_v87 Cert.ReferenceIdeal.Read.val_main_c_8 Cert.ReferenceIdeal.Read.val_main_v86 Cert.ReferenceIdeal.Read.val_main_v85 Cert.ReferenceIdeal.Read.val_main_c_7 Cert.ReferenceIdeal.Read.val_main_v84 Cert.ReferenceIdeal.Read.val_main_v83
  rfl

end Cert.GinBridge
-- ==== Proof.Bridge.lean ====
/-
  The two programs compute the same numbers. Both apply the same node-wise layers to the same neighbourhood sums, so the
  kernel program's first-layer array is the reference's, and then so are the second layer's inputs. They differ only
  at the end: the kernel program multiplies every node's second-layer row with the head's weights first and pools the
  scalars over each graph, the reference pools the rows and multiplies afterwards. A product distributes over a finite
  sum of REAL numbers, so the two agree when every second-layer entry and every head weight is a real number — which
  the precondition (every float input finite) gives, layer by layer.
-/
import proofs.«158497_j67508295958860_2_alg».proof.Proof.KernelValue1
import proofs.«158497_j67508295958860_2_alg».proof.Proof.RefPooled
import proofs.«158497_j67508295958860_2_alg».proof.Proof.AggEq
import proofs.«158497_j67508295958860_2_alg».proof.Proof.Claims

set_option maxRecDepth 16384

noncomputable section

namespace Cert.GinBridge

open Cert.Gin Cert.RowLayers Cert.DenseEdges Cert.GinKernel
open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (c : Dev Cert.KernelIdeal.nD)

/-- The first layer's output: the kernel program's array is the reference's. -/
theorem layer1_eq : layer1K m c = Cert.ReferenceIdeal.Read.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  funext (i : Cert.KernelIdeal.S100000x128.Idx)
  obtain ⟨r, q, rfl⟩ : ∃ (r : Fin 100000) (q : Fin 128), i = ix2 r q := ⟨i 0, i 1, eq_ix2 i⟩
  refine Eq.trans ?_ (congrFun (Cert.GinRef.ref_layer1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) r) q).symm
  rw [← agg64_v13, ← agg64_v37]
  rfl

/-- THE RESULTS AGREE at every graph `g`, given real inputs. -/
theorem out_eq (hre : (∀ i, IsReal ((m ((c.tc : Thread Cert.KernelIdeal.nD Cert.KernelIdeal.τ).loc Cert.KernelIdeal.main_arg0)) i))
      ∧ (∀ i, IsReal ((m ((c.tc : Thread Cert.KernelIdeal.nD Cert.KernelIdeal.τ).loc Cert.KernelIdeal.main_arg4)) i))
      ∧ (∀ i, IsReal ((m ((c.tc : Thread Cert.KernelIdeal.nD Cert.KernelIdeal.τ).loc Cert.KernelIdeal.main_arg5)) i))
      ∧ (∀ i, IsReal ((m ((c.tc : Thread Cert.KernelIdeal.nD Cert.KernelIdeal.τ).loc Cert.KernelIdeal.main_arg6)) i))
      ∧ (∀ i, IsReal ((m ((c.tc : Thread Cert.KernelIdeal.nD Cert.KernelIdeal.τ).loc Cert.KernelIdeal.main_arg7)) i))
      ∧ (∀ i, IsReal ((m ((c.tc : Thread Cert.KernelIdeal.nD Cert.KernelIdeal.τ).loc Cert.KernelIdeal.main_arg8)) i))
      ∧ (∀ i, IsReal ((m ((c.tc : Thread Cert.KernelIdeal.nD Cert.KernelIdeal.τ).loc Cert.KernelIdeal.main_arg9)) i))
      ∧ (∀ i, IsReal ((m ((c.tc : Thread Cert.KernelIdeal.nD Cert.KernelIdeal.τ).loc Cert.KernelIdeal.main_arg10)) i))
      ∧ (∀ i, IsReal ((m ((c.tc : Thread Cert.KernelIdeal.nD Cert.KernelIdeal.τ).loc Cert.KernelIdeal.main_arg11)) i))
      ∧ (∀ i, IsReal ((m ((c.tc : Thread Cert.KernelIdeal.nD Cert.KernelIdeal.τ).loc Cert.KernelIdeal.main_arg12)) i))
      ∧ (∀ i, IsReal ((m ((c.tc : Thread Cert.KernelIdeal.nD Cert.KernelIdeal.τ).loc Cert.KernelIdeal.main_arg13)) i))
      ∧ (∀ i, IsReal ((m ((c.tc : Thread Cert.KernelIdeal.nD Cert.KernelIdeal.τ).loc Cert.KernelIdeal.main_arg14)) i))
      ∧ (∀ i, IsReal ((m ((c.tc : Thread Cert.KernelIdeal.nD Cert.KernelIdeal.τ).loc Cert.KernelIdeal.main_arg15)) i))
      ∧ (∀ i, IsReal ((m ((c.tc : Thread Cert.KernelIdeal.nD Cert.KernelIdeal.τ).loc Cert.KernelIdeal.main_arg16)) i))
      ∧ (∀ i, IsReal ((m ((c.tc : Thread Cert.KernelIdeal.nD Cert.KernelIdeal.τ).loc Cert.KernelIdeal.main_arg17)) i))
      ∧ (∀ i, IsReal ((m ((c.tc : Thread Cert.KernelIdeal.nD Cert.KernelIdeal.τ).loc Cert.KernelIdeal.main_arg18)) i))
      ∧ (∀ i, IsReal ((m ((c.tc : Thread Cert.KernelIdeal.nD Cert.KernelIdeal.τ).loc Cert.KernelIdeal.main_arg19)) i))
      ∧ (∀ i, IsReal ((m ((c.tc : Thread Cert.KernelIdeal.nD Cert.KernelIdeal.τ).loc Cert.KernelIdeal.main_arg20)) i))
      ∧ (∀ i, IsReal ((m ((c.tc : Thread Cert.KernelIdeal.nD Cert.KernelIdeal.τ).loc Cert.KernelIdeal.main_arg21)) i))
      ∧ (∀ i, IsReal ((m ((c.tc : Thread Cert.KernelIdeal.nD Cert.KernelIdeal.τ).loc Cert.KernelIdeal.main_arg22)) i))
      ∧ (∀ i, IsReal ((m ((c.tc : Thread Cert.KernelIdeal.nD Cert.KernelIdeal.τ).loc Cert.KernelIdeal.main_arg23)) i))
      ∧ (∀ i, IsReal ((m ((c.tc : Thread Cert.KernelIdeal.nD Cert.KernelIdeal.τ).loc Cert.KernelIdeal.main_arg24)) i))
      ∧ (∀ i, IsReal ((m ((c.tc : Thread Cert.KernelIdeal.nD Cert.KernelIdeal.τ).loc Cert.KernelIdeal.main_arg25)) i))
      ∧ (∀ i, IsReal ((m ((c.tc : Thread Cert.KernelIdeal.nD Cert.KernelIdeal.τ).loc Cert.KernelIdeal.main_arg26)) i))
      ∧ (∀ i, IsReal ((m ((c.tc : Thread Cert.KernelIdeal.nD Cert.KernelIdeal.τ).loc Cert.KernelIdeal.main_arg27)) i))
      ∧ (∀ i, IsReal ((m ((c.tc : Thread Cert.KernelIdeal.nD Cert.KernelIdeal.τ).loc Cert.KernelIdeal.main_arg28)) i))
      ∧ (∀ i, IsReal ((m ((c.tc : Thread Cert.KernelIdeal.nD Cert.KernelIdeal.τ).loc Cert.KernelIdeal.main_arg29)) i))) (g : Fin 128) :
    (z0 + ∑ n ∈ Finset.univ.filter (fun n : Fin 100000 =>
            ((broadcastInDim Cert.KernelIdeal.S100000x1 ![0] Cert.KernelIdeal.Gen.bcast_S100000_S100000x1_0 (m ((c.tc : Thread Cert.KernelIdeal.nD Cert.KernelIdeal.τ).loc Cert.KernelIdeal.main_arg3)) : IVec Cert.KernelIdeal.S100000x1 32) (ix2 n (0 : Fin 1))).toInt = (g.val : ℤ)),
          scoreK m c (ix2 n (0 : Fin 1))) + (m ((c.tc : Thread Cert.KernelIdeal.nD Cert.KernelIdeal.τ).loc Cert.KernelIdeal.main_arg29)) (ix1 (0 : Fin 1))
      = Cert.ReferenceIdeal.Read.val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (ix1 g) := by
  obtain ⟨h0, h4, h5, h6, h7, h8, h9, h10, h11, h12, h13, h14, h15, h16, h17, h18, h19, h20, h21, h22, h23, h24, h25, h26, h27, h28, h29⟩ := hre
  rw [Cert.GinRef.ref_out_nodes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) h0 h4 h5 h6 h7 h8 h9 h10 h11 h12 h13 h14 h15 h16 h17 h18 h19 h20 h21 h22 h23 h24 h25 h26 h27 h28
    (shapeCast Cert.KernelIdeal.S1x128 ((m ((c.tc : Thread Cert.KernelIdeal.nD Cert.KernelIdeal.τ).loc Cert.KernelIdeal.main_arg28)) : FVec Ideal Cert.KernelIdeal.S128x1 .f32) Cert.KernelIdeal.Gen.shapeCasts_S128x1_S1x128 : FVec Ideal Cert.KernelIdeal.S1x128 .f32)
    (Cert.GinKernel.headRow_read (m ((c.tc : Thread Cert.KernelIdeal.nD Cert.KernelIdeal.τ).loc Cert.KernelIdeal.main_arg28))) g]
  unfold scoreK
  rw [layer1_eq m c, agg128_v71, agg128_v96]
  rfl

/-- The kernel program's result array is the reference's result term of the same arguments. -/
theorem kernel_eq_ref (ρ : Dev Cert.KernelIdeal.nD → PrngReg) (hpre : Cert.Pre_KernelIdeal m) :
    Cert.KernelIdeal.Gen.W5 m ρ c (Proc.devRef .tc Cert.KernelIdeal.main_v83)
      = Cert.ReferenceIdeal.Read.val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) := by
  funext (i : Cert.KernelIdeal.S128.Idx)
  obtain ⟨g, rfl⟩ : ∃ g : Fin 128, i = ix1 g := ⟨i 0, eq_ix1 i⟩
  rw [out_read m ρ c g]
  exact out_eq m c (Cert.GinClaims.pre_reals m hpre c) g

end Cert.GinBridge

end
-- ==== Proof.lean ====
/-
  Equivalence of a fused two-layer graph isomorphism network with its plain reference, at the extended reals.

  Both programs compute, for 100000 nodes with two edge sets and 128 graphs, two layers of the form
  "for each edge set: sum the neighbours' rows, add the node's own row, apply a two-layer perceptron; join the two
  results; apply a third perceptron", then pool the nodes of each graph, apply a linear head with one output and add a
  bias. The kernel program runs each layer's node-wise part as a row-tiled kernel (20 blocks of 5000 nodes), keeps
  the gathers and scatter-adds on the host, and moves the head in front of the pooling: it pools every node's scalar
  score instead of its 128-wide row. Read exactly, every format change is the identity and a product into a zero
  accumulator is the plain sum of products, so the two programs agree layer by layer; the reordering of head and
  pooling is the distributive law, which holds because every second-layer entry and every head weight is a real
  number when the inputs are finite (Bridge.lean).

  The modules: Spec (the row functions and that they keep rows real), KernelRows0/1 (the kernel bodies row by row),
  KernelBlocks0/1 (from the blocks a grid point writes to the whole output array), KernelHost0/1/2 (the host operations
  around the kernels), KernelRun (the whole program's run with every buffer named), KernelValue0/1 (the kernel program's
  result from its arguments), RefRows / RefOut / RefReal / RefPooled (the reference's layers, result, real entries, and
  its result as pooled scores), AggEq (the neighbourhood sums coincide), Finite (the precondition decoded), Bridge
  (the two results are equal), Claims (the frames).
-/
import proofs.«158497_j67508295958860_2_alg».proof.Defs
import proofs.«158497_j67508295958860_2_alg».proof.Proof.Gen.Kernel
import proofs.«158497_j67508295958860_2_alg».proof.Proof.Gen.Kernel.Frame
import proofs.«158497_j67508295958860_2_alg».proof.Proof.Gen.KernelIdeal
import proofs.«158497_j67508295958860_2_alg».proof.Proof.Gen.KernelIdeal.Frame
import proofs.«158497_j67508295958860_2_alg».proof.Proof.Gen.ReferenceIdeal
import proofs.«158497_j67508295958860_2_alg».proof.Proof.Gen.ReferenceIdeal.Run
import proofs.«158497_j67508295958860_2_alg».proof.Proof.Gen.ReferenceIdeal.Read
import proofs.«158497_j67508295958860_2_alg».proof.Proof.Gen.Pre_finite_inputs
import proofs.«158497_j67508295958860_2_alg».proof.Proof.KernelRun
import proofs.«158497_j67508295958860_2_alg».proof.Proof.Claims
import proofs.«158497_j67508295958860_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel program's run: it terminates, its result buffer ends holding the reference's result term of the kernel
    program's own arguments (Bridge), and its argument arrays end as launched. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v83)
          = Cert.ReferenceIdeal.Read.val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)) :=
  (θ_run Cert.KernelIdeal.defs _ _).mono (fun r h c =>
    ⟨(h c _ (Cert.KernelIdeal.Gen.mem_uc Cert.KernelIdeal.main_v83 (by decide))).trans (Cert.GinBridge.kernel_eq_ref m c ρ hpre),
    (h c _ (Cert.KernelIdeal.Gen.mem_uc Cert.KernelIdeal.main_arg0 (by decide))).trans (Cert.KernelIdeal.Gen.W5_main_arg0 m ρ c),
    (h c _ (Cert.KernelIdeal.Gen.mem_uc Cert.KernelIdeal.main_arg1 (by decide))).trans (Cert.KernelIdeal.Gen.W5_main_arg1 m ρ c),
    (h c _ (Cert.KernelIdeal.Gen.mem_uc Cert.KernelIdeal.main_arg2 (by decide))).trans (Cert.KernelIdeal.Gen.W5_main_arg2 m ρ c),
    (h c _ (Cert.KernelIdeal.Gen.mem_uc Cert.KernelIdeal.main_arg3 (by decide))).trans (Cert.KernelIdeal.Gen.W5_main_arg3 m ρ c),
    (h c _ (Cert.KernelIdeal.Gen.mem_uc Cert.KernelIdeal.main_arg4 (by decide))).trans (Cert.KernelIdeal.Gen.W5_main_arg4 m ρ c),
    (h c _ (Cert.KernelIdeal.Gen.mem_uc Cert.KernelIdeal.main_arg5 (by decide))).trans (Cert.KernelIdeal.Gen.W5_main_arg5 m ρ c),
    (h c _ (Cert.KernelIdeal.Gen.mem_uc Cert.KernelIdeal.main_arg6 (by decide))).trans (Cert.KernelIdeal.Gen.W5_main_arg6 m ρ c),
    (h c _ (Cert.KernelIdeal.Gen.mem_uc Cert.KernelIdeal.main_arg7 (by decide))).trans (Cert.KernelIdeal.Gen.W5_main_arg7 m ρ c),
    (h c _ (Cert.KernelIdeal.Gen.mem_uc Cert.KernelIdeal.main_arg8 (by decide))).trans (Cert.KernelIdeal.Gen.W5_main_arg8 m ρ c),
    (h c _ (Cert.KernelIdeal.Gen.mem_uc Cert.KernelIdeal.main_arg9 (by decide))).trans (Cert.KernelIdeal.Gen.W5_main_arg9 m ρ c),
    (h c _ (Cert.KernelIdeal.Gen.mem_uc Cert.KernelIdeal.main_arg10 (by decide))).trans (Cert.KernelIdeal.Gen.W5_main_arg10 m ρ c),
    (h c _ (Cert.KernelIdeal.Gen.mem_uc Cert.KernelIdeal.main_arg11 (by decide))).trans (Cert.KernelIdeal.Gen.W5_main_arg11 m ρ c),
    (h c _ (Cert.KernelIdeal.Gen.mem_uc Cert.KernelIdeal.main_arg12 (by decide))).trans (Cert.KernelIdeal.Gen.W5_main_arg12 m ρ c),
    (h c _ (Cert.KernelIdeal.Gen.mem_uc Cert.KernelIdeal.main_arg13 (by decide))).trans (Cert.KernelIdeal.Gen.W5_main_arg13 m ρ c),
    (h c _ (Cert.KernelIdeal.Gen.mem_uc Cert.KernelIdeal.main_arg14 (by decide))).trans (Cert.KernelIdeal.Gen.W5_main_arg14 m ρ c),
    (h c _ (Cert.KernelIdeal.Gen.mem_uc Cert.KernelIdeal.main_arg15 (by decide))).trans (Cert.KernelIdeal.Gen.W5_main_arg15 m ρ c),
    (h c _ (Cert.KernelIdeal.Gen.mem_uc Cert.KernelIdeal.main_arg16 (by decide))).trans (Cert.KernelIdeal.Gen.W5_main_arg16 m ρ c),
    (h c _ (Cert.KernelIdeal.Gen.mem_uc Cert.KernelIdeal.main_arg17 (by decide))).trans (Cert.KernelIdeal.Gen.W5_main_arg17 m ρ c),
    (h c _ (Cert.KernelIdeal.Gen.mem_uc Cert.KernelIdeal.main_arg18 (by decide))).trans (Cert.KernelIdeal.Gen.W5_main_arg18 m ρ c),
    (h c _ (Cert.KernelIdeal.Gen.mem_uc Cert.KernelIdeal.main_arg19 (by decide))).trans (Cert.KernelIdeal.Gen.W5_main_arg19 m ρ c),
    (h c _ (Cert.KernelIdeal.Gen.mem_uc Cert.KernelIdeal.main_arg20 (by decide))).trans (Cert.KernelIdeal.Gen.W5_main_arg20 m ρ c),
    (h c _ (Cert.KernelIdeal.Gen.mem_uc Cert.KernelIdeal.main_arg21 (by decide))).trans (Cert.KernelIdeal.Gen.W5_main_arg21 m ρ c),
    (h c _ (Cert.KernelIdeal.Gen.mem_uc Cert.KernelIdeal.main_arg22 (by decide))).trans (Cert.KernelIdeal.Gen.W5_main_arg22 m ρ c),
    (h c _ (Cert.KernelIdeal.Gen.mem_uc Cert.KernelIdeal.main_arg23 (by decide))).trans (Cert.KernelIdeal.Gen.W5_main_arg23 m ρ c),
    (h c _ (Cert.KernelIdeal.Gen.mem_uc Cert.KernelIdeal.main_arg24 (by decide))).trans (Cert.KernelIdeal.Gen.W5_main_arg24 m ρ c),
    (h c _ (Cert.KernelIdeal.Gen.mem_uc Cert.KernelIdeal.main_arg25 (by decide))).trans (Cert.KernelIdeal.Gen.W5_main_arg25 m ρ c),
    (h c _ (Cert.KernelIdeal.Gen.mem_uc Cert.KernelIdeal.main_arg26 (by decide))).trans (Cert.KernelIdeal.Gen.W5_main_arg26 m ρ c),
    (h c _ (Cert.KernelIdeal.Gen.mem_uc Cert.KernelIdeal.main_arg27 (by decide))).trans (Cert.KernelIdeal.Gen.W5_main_arg27 m ρ c),
    (h c _ (Cert.KernelIdeal.Gen.mem_uc Cert.KernelIdeal.main_arg28 (by decide))).trans (Cert.KernelIdeal.Gen.W5_main_arg28 m ρ c),
    (h c _ (Cert.KernelIdeal.Gen.mem_uc Cert.KernelIdeal.main_arg29 (by decide))).trans (Cert.KernelIdeal.Gen.W5_main_arg29 m ρ c)⟩) (Cert.GinKernel.run_all m ρ)

set_option maxHeartbeats 800000 in
/-- The reference's result term of the kernel program's arguments is its result term of its own arguments, when the
    two memories agree on the arguments. -/
theorem ref_term (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) :
    Cert.ReferenceIdeal.Read.val_main_v125 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))
      = Cert.ReferenceIdeal.Value.res_main_v125 (F := Ideal) m' c := by
  obtain ⟨e0, e1, e2, e3, e4, e5, e6, e7, e8, e9, e10, e11, e12, e13, e14, e15, e16, e17, e18, e19, e20, e21, e22, e23, e24, e25, e26, e27, e28, e29⟩ := hagree
  rw [Cert.ReferenceIdeal.Read.val_main_v125_eq m' c]
  simp only [e0, e1, e2, e3, e4, e5, e6, e7, e8, e9, e10, e11, e12, e13, e14, e15, e16, e17, e18, e19, e20, e21, e22, e23, e24, e25, e26, e27, e28, e29]

/-- At the extended reals the kernel program and the reference, run from memories that agree on the arguments, both
    terminate with the same result array and unchanged arguments. -/
theorem algebraic : Cert.algebraic_KernelIdeal_ReferenceIdeal := by
  intro m ρ m' ρ' hpre hagree
  exact ⟨fun c => Cert.ReferenceIdeal.Value.res_main_v125 (F := Ideal) m' c,
    (θ_run Cert.KernelIdeal.defs _ _).mono (fun r h c => ⟨(h c).1.trans (ref_term m m' c (hagree c)), (h c).2⟩) (kernel_run m ρ hpre),
    Cert.ReferenceIdeal.Value.run (F := Ideal) m' ρ'⟩

theorem claim : Cert.Claim :=
  ⟨Cert.Kernel.Gen.facts, Cert.KernelIdeal.Gen.facts, Cert.ReferenceIdeal.Gen.facts, Cert.Pre_finite_inputs.Gen.facts,
    Cert.GinClaims.frame_k, Cert.GinClaims.frame_ki, Cert.GinClaims.frame_ri, Cert.GinClaims.preserves, algebraic⟩

end Cert.Proof

end
